-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1023x2048 : Shape := ⟨2, ![1023, 2048]⟩
abbrev S1023 : Shape := ⟨1, ![1023]⟩
abbrev S1024x24 : Shape := ⟨2, ![1024, 24]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1023x2048 : S_.BroadcastsInDim S1023x2048 (![] : Fin 0 → Fin S1023x2048.rank)
  reducesTo_S1023x2048_S_d0_1 : S1023x2048.ReducesTo [0, 1] S_
  bcast_S_S1023 : S_.BroadcastsInDim S1023 (![] : Fin 0 → Fin S1023.rank)
  reducesTo_S1023_S_d0 : S1023.ReducesTo [0] S_
  bcast_S_S1024x24 : S_.BroadcastsInDim S1024x24 (![] : Fin 0 → Fin S1024x24.rank)
  reducesTo_S1024x24_S_d0_1 : S1024x24.ReducesTo [0, 1] S_

variable [Facts]

def fn_part1 {F : FTy → Type} [FloatOps F] (main_v13 : IVec S_ 1) (main_v16 : IVec S1024x24 1) : IVec S_ 1 :=
  let main_c_5 : IVec S_ 1 := constantI S_ 1 1#1
  let main_v17 : IVec S_ 1 := (fun x v => Host.reduce IntOp.andi x v reducesTo_S1024x24_S_d0_1 h_S_) main_v16 main_c_5
  let main_v18 : IVec S_ 1 := andi main_v13 main_v17
  main_v18

def fn {F : FTy → Type} [FloatOps F] (main_arg0 : FVec F S8192x2048 .f32) (main_arg1 : FVec F S1023x2048 .f32) (main_arg2 : FVec F S1023 .f32) (main_arg3 : FVec F S1024x24 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1023x2048 .f32 := Host.absf main_arg1
  let main_cst_0 : FVec F S_ .f32 := constant S_ .f32 0x7F800000#32
  let main_v5 : FVec F S1023x2048 .f32 := broadcastInDim S1023x2048 ![] bcast_S_S1023x2048 main_cst_0
  let main_v6 : IVec S1023x2048 1 := cmpf .olt main_v4 main_v5
  let main_c_1 : IVec S_ 1 := constantI S_ 1 1#1
  let main_v7 : IVec S_ 1 := (fun x v => Host.reduce IntOp.andi x v reducesTo_S1023x2048_S_d0_1 h_S_) main_v6 main_c_1
  let main_v8 : IVec S_ 1 := andi main_v3 main_v7
  let main_v9 : FVec F S1023 .f32 := Host.absf main_arg2
  let main_cst_2 : FVec F S_ .f32 := constant S_ .f32 0x7F800000#32
  let main_v10 : FVec F S1023 .f32 := broadcastInDim S1023 ![] bcast_S_S1023 main_cst_2
  let main_v11 : IVec S1023 1 := cmpf .olt main_v9 main_v10
  let main_c_3 : IVec S_ 1 := constantI S_ 1 1#1
  let main_v12 : IVec S_ 1 := (fun x v => Host.reduce IntOp.andi x v reducesTo_S1023_S_d0 h_S_) main_v11 main_c_3
  let main_v13 : IVec S_ 1 := andi main_v8 main_v12
  let main_v14 : FVec F S1024x24 .f32 := Host.absf main_arg3
  let main_cst_4 : FVec F S_ .f32 := constant S_ .f32 0x7F800000#32
  let main_v15 : FVec F S1024x24 .f32 := broadcastInDim S1024x24 ![] bcast_S_S1024x24 main_cst_4
  let main_v16 : IVec S1024x24 1 := cmpf .olt main_v14 main_v15
  fn_part1 (F := F) main_v13 main_v16
-- ==== Kernel.lean ====
abbrev S8192x2048 : Shape := ⟨2, ![8192, 2048]⟩
abbrev S1023x2048 : Shape := ⟨2, ![1023, 2048]⟩
abbrev S1023 : Shape := ⟨1, ![1023]⟩
abbrev S1024x24 : Shape := ⟨2, ![1024, 24]⟩
abbrev S1024 : Shape := ⟨1, ![1024]⟩
abbrev S_ : Shape := ⟨0, ![]⟩
abbrev S1023x1 : Shape := ⟨2, ![1023, 1]⟩
abbrev S1 : Shape := ⟨1, ![1]⟩
abbrev S1x1 : Shape := ⟨2, ![1, 1]⟩
abbrev S1024x2048 : Shape := ⟨2, ![1024, 2048]⟩
abbrev S2048x1024 : Shape := ⟨2, ![2048, 1024]⟩
abbrev S1x1024 : Shape := ⟨2, ![1, 1024]⟩
abbrev S1024x1 : Shape := ⟨2, ![1024, 1]⟩
abbrev S1024x128 : Shape := ⟨2, ![1024, 128]⟩
abbrev S8192x128 : Shape := ⟨2, ![8192, 128]⟩
abbrev S512x2048 : Shape := ⟨2, ![512, 2048]⟩
abbrev S512x128 : Shape := ⟨2, ![512, 128]⟩
abbrev S512x1024 : Shape := ⟨2, ![512, 1024]⟩
abbrev S512x1 : Shape := ⟨2, ![512, 1]⟩
abbrev S512x2 : Shape := ⟨2, ![512, 2]⟩
abbrev S512x4 : Shape := ⟨2, ![512, 4]⟩
abbrev S512x8 : Shape := ⟨2, ![512, 8]⟩
abbrev S512x16 : Shape := ⟨2, ![512, 16]⟩
abbrev S512x32 : Shape := ⟨2, ![512, 32]⟩
abbrev S512x64 : Shape := ⟨2, ![512, 64]⟩
abbrev S512x256 : Shape := ⟨2, ![512, 256]⟩
abbrev S512x512 : Shape := ⟨2, ![512, 512]⟩
abbrev S8192x24 : Shape := ⟨2, ![8192, 24]⟩

abbrev nBuf : Space → Nat
  | .hbm => 89
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1023x2048, .f32⟩
  | .hbm, ⟨2, _⟩ => ⟨S1023, .f32⟩
  | .hbm, ⟨3, _⟩ => ⟨S1024x24, .f32⟩
  | .hbm, ⟨4, _⟩ => ⟨S1023, .i32⟩
  | .hbm, ⟨5, _⟩ => ⟨S1024, .i32⟩
  | .hbm, ⟨6, _⟩ => ⟨S_, .i32⟩
  | .hbm, ⟨7, _⟩ => ⟨S1023, .i32⟩
  | .hbm, ⟨8, _⟩ => ⟨S1023, .i1⟩
  | .hbm, ⟨9, _⟩ => ⟨S_, .i32⟩
  | .hbm, ⟨10, _⟩ => ⟨S1023, .i32⟩
  | .hbm, ⟨11, _⟩ => ⟨S1023, .i32⟩
  | .hbm, ⟨12, _⟩ => ⟨S1023, .i32⟩
  | .hbm, ⟨13, _⟩ => ⟨S1023x1, .i32⟩
  | .hbm, ⟨14, _⟩ => ⟨S1, .i32⟩
  | .hbm, ⟨15, _⟩ => ⟨S_, .i32⟩
  | .hbm, ⟨16, _⟩ => ⟨S1023x1, .i32⟩
  | .hbm, ⟨17, _⟩ => ⟨S1023x1, .i1⟩
  | .hbm, ⟨18, _⟩ => ⟨S1x1, .i32⟩
  | .hbm, ⟨19, _⟩ => ⟨S1023x1, .i32⟩
  | .hbm, ⟨20, _⟩ => ⟨S1023x1, .i1⟩
  | .hbm, ⟨21, _⟩ => ⟨S1023x1, .i1⟩
  | .hbm, ⟨22, _⟩ => ⟨S_, .i1⟩
  | .hbm, ⟨23, _⟩ => ⟨S1023, .i1⟩
  | .hbm, ⟨24, _⟩ => ⟨S1023x2048, .f32⟩
  | .hbm, ⟨25, _⟩ => ⟨S1023x2048, .i1⟩
  | .hbm, ⟨26, _⟩ => ⟨S_, .f32⟩
  | .hbm, ⟨27, _⟩ => ⟨S1023x2048, .f32⟩
  | .hbm, ⟨28, _⟩ => ⟨S1023x2048, .f32⟩
  | .hbm, ⟨29, _⟩ => ⟨S_, .i32⟩
  | .hbm, ⟨30, _⟩ => ⟨S1023, .i32⟩
  | .hbm, ⟨31, _⟩ => ⟨S1023, .i1⟩
  | .hbm, ⟨32, _⟩ => ⟨S_, .i32⟩
  | .hbm, ⟨33, _⟩ => ⟨S1023, .i32⟩
  | .hbm, ⟨34, _⟩ => ⟨S1023, .i32⟩
  | .hbm, ⟨35, _⟩ => ⟨S1023, .i32⟩
  | .hbm, ⟨36, _⟩ => ⟨S1023x1, .i32⟩
  | .hbm, ⟨37, _⟩ => ⟨S1, .i32⟩
  | .hbm, ⟨38, _⟩ => ⟨S_, .i32⟩
  | .hbm, ⟨39, _⟩ => ⟨S1023x1, .i32⟩
  | .hbm, ⟨40, _⟩ => ⟨S1023x1, .i1⟩
  | .hbm, ⟨41, _⟩ => ⟨S1x1, .i32⟩
  | .hbm, ⟨42, _⟩ => ⟨S1023x1, .i32⟩
  | .hbm, ⟨43, _⟩ => ⟨S1023x1, .i1⟩
  | .hbm, ⟨44, _⟩ => ⟨S1023x1, .i1⟩
  | .hbm, ⟨45, _⟩ => ⟨S_, .i1⟩
  | .hbm, ⟨46, _⟩ => ⟨S1023, .i1⟩
  | .hbm, ⟨47, _⟩ => ⟨S1023, .f32⟩
  | .hbm, ⟨48, _⟩ => ⟨S_, .f32⟩
  | .hbm, ⟨49, _⟩ => ⟨S1023, .f32⟩
  | .hbm, ⟨50, _⟩ => ⟨S1023, .f32⟩
  | .hbm, ⟨51, _⟩ => ⟨S_, .i32⟩
  | .hbm, ⟨52, _⟩ => ⟨S_, .f32⟩
  | .hbm, ⟨53, _⟩ => ⟨S1024x2048, .f32⟩
  | .hbm, ⟨54, _⟩ => ⟨S_, .i32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S2048x1024, .bf16⟩
  | .hbm, ⟨59, _⟩ => ⟨S1x1024, .f32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S1024, .i32⟩
  | .hbm, ⟨67, _⟩ => ⟨S1024x1, .i32⟩
  | .hbm, ⟨68, _⟩ => ⟨S1, .i32⟩
  | .hbm, ⟨69, _⟩ => ⟨S_, .i32⟩
  | .hbm, ⟨70, _⟩ => ⟨S1024x1, .i32⟩
  | .hbm, ⟨71, _⟩ => ⟨S1024x1, .i1⟩
  | .hbm, ⟨72, _⟩ => ⟨S1x1, .i32⟩
  | .hbm, ⟨73, _⟩ => ⟨S1024x1, .i32⟩
  | .hbm, ⟨74, _⟩ => ⟨S1024x1, .i1⟩
  | .hbm, ⟨75, _⟩ => ⟨S1024x1, .i1⟩
  | .hbm, ⟨76, _⟩ => ⟨S_, .i1⟩
  | .hbm, ⟨77, _⟩ => ⟨S1024, .i1⟩
  | .hbm, ⟨78, _⟩ => ⟨S1024x24, .f32⟩
  | .hbm, ⟨79, _⟩ => ⟨S1024x24, .i1⟩
  | .hbm, ⟨80, _⟩ => ⟨S_, .f32⟩
  | .hbm, ⟨81, _⟩ => ⟨S1024x24, .f32⟩
  | .hbm, ⟨82, _⟩ => ⟨S1024x24, .f32⟩
  | .hbm, ⟨83, _⟩ => ⟨S_, .i32⟩
  | .hbm, ⟨84, _⟩ => ⟨S_, .f32⟩
  | .hbm, ⟨85, _⟩ => ⟨S1024x128, .f32⟩
  | .hbm, ⟨86, _⟩ => ⟨S1024x128, .bf16⟩
  | .hbm, ⟨87, _⟩ => ⟨S8192x128, .f32⟩
  | .hbm, ⟨88, _⟩ => ⟨S8192x24, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v1 : Ref sig .tc := ⟨.hbm, 50, rfl⟩
abbrev main_c_1 : Ref sig .tc := ⟨.hbm, 51, rfl⟩
abbrev main_call2_v0 : Ref sig .tc := ⟨.hbm, 52, rfl⟩
abbrev main_v2 : Ref sig .tc := ⟨.hbm, 53, rfl⟩
abbrev main_c_2 : Ref sig .tc := ⟨.hbm, 54, rfl⟩
abbrev main_call3_v0 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_call4_c : Ref sig .tc := ⟨.hbm, 60, rfl⟩
abbrev main_call4_v0 : Ref sig .tc := ⟨.hbm, 61, rfl⟩
abbrev main_call4_v1 : Ref sig .tc := ⟨.hbm, 62, rfl⟩
abbrev main_call4_c_0 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_c_1 : Ref sig .tc := ⟨.hbm, 68, rfl⟩
abbrev main_call4_c_2 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_c_3 : Ref sig .tc := ⟨.hbm, 76, rfl⟩
abbrev main_call4_v12 : Ref sig .tc := ⟨.hbm, 77, rfl⟩
abbrev main_call4_v13 : Ref sig .tc := ⟨.hbm, 78, rfl⟩
abbrev main_call4_v14 : Ref sig .tc := ⟨.hbm, 79, rfl⟩
abbrev main_call4_cst : Ref sig .tc := ⟨.hbm, 80, rfl⟩
abbrev main_call4_v15 : Ref sig .tc := ⟨.hbm, 81, rfl⟩
abbrev main_v7 : Ref sig .tc := ⟨.hbm, 82, rfl⟩
abbrev main_c_3 : Ref sig .tc := ⟨.hbm, 83, rfl⟩
abbrev main_call5_v0 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1023 : S_.BroadcastsInDim S1023 (![] : Fin 0 → Fin S1023.rank)
  bcast_S1023_S1023x1_0 : S1023.BroadcastsInDim S1023x1 (![0] : Fin 1 → Fin S1023x1.rank)
  bcast_S_S1023x1 : S_.BroadcastsInDim S1023x1 (![] : Fin 0 → Fin S1023x1.rank)
  bcast_S1_S1x1_1 : S1.BroadcastsInDim S1x1 (![1] : Fin 1 → Fin S1x1.rank)
  bcast_S1x1_S1023x1_0_1 : S1x1.BroadcastsInDim S1023x1 (![0, 1] : Fin 2 → Fin S1023x1.rank)
  reducesTo_S1023x1_S1023_d1 : S1023x1.ReducesTo [1] S1023
  h_S_ : 0 < S_.numel
  bcast_S1023_S1023x2048_0 : S1023.BroadcastsInDim S1023x2048 (![0] : Fin 1 → Fin S1023x2048.rank)
  bcast_S_S1023x2048 : S_.BroadcastsInDim S1023x2048 (![] : Fin 0 → Fin S1023x2048.rank)
  pads_S1023x2048_S1024x2048_010_000 : S1023x2048.Pads (![0, 0] : Fin 2 → Nat) ![1, 0] ![0, 0] S1024x2048
  pads_S1023_S1024_010 : S1023.Pads (![0] : Fin 1 → Nat) ![1] ![0] S1024
  transposes_S1024x2048_S2048x1024_1_0 : S1024x2048.Transposes [1, 0] S2048x1024
  bitsLt_bf16_f32 : FTy.bits .bf16 < FTy.bits .f32
  shapeCasts_S1024_S1x1024 : S1024.ShapeCasts S1x1024
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x24_0 : S1024.BroadcastsInDim S1024x24 (![0] : Fin 1 → Fin S1024x24.rank)
  bcast_S_S1024x24 : S_.BroadcastsInDim S1024x24 (![] : Fin 0 → Fin S1024x24.rank)
  pads_S1024x24_S1024x128_000_01040 : S1024x24.Pads (![0, 0] : Fin 2 → Nat) ![0, 104] ![0, 0] S1024x128
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x1 : S512x1024.Slices ![0, 0] S512x1
  concatenates_S512x1_S512x1_S512x2_d1 : Shape.Concatenates [S512x1, S512x1] S512x2 1
  slices_S512x1024_o0_1_S512x2 : S512x1024.Slices ![0, 1] S512x2
  concatenates_S512x2_S512x2_S512x4_d1 : Shape.Concatenates [S512x2, S512x2] S512x4 1
  slices_S512x1024_o0_3_S512x4 : S512x1024.Slices ![0, 3] S512x4
  concatenates_S512x4_S512x4_S512x8_d1 : Shape.Concatenates [S512x4, S512x4] S512x8 1
  slices_S512x1024_o0_7_S512x8 : S512x1024.Slices ![0, 7] S512x8
  concatenates_S512x8_S512x8_S512x16_d1 : Shape.Concatenates [S512x8, S512x8] S512x16 1
  slices_S512x1024_o0_15_S512x16 : S512x1024.Slices ![0, 15] S512x16
  concatenates_S512x16_S512x16_S512x32_d1 : Shape.Concatenates [S512x16, S512x16] S512x32 1
  slices_S512x1024_o0_31_S512x32 : S512x1024.Slices ![0, 31] S512x32
  concatenates_S512x32_S512x32_S512x64_d1 : Shape.Concatenates [S512x32, S512x32] S512x64 1
  slices_S512x1024_o0_63_S512x64 : S512x1024.Slices ![0, 63] S512x64
  concatenates_S512x64_S512x64_S512x128_d1 : Shape.Concatenates [S512x64, S512x64] S512x128 1
  slices_S512x1024_o0_127_S512x128 : S512x1024.Slices ![0, 127] S512x128
  concatenates_S512x128_S512x128_S512x256_d1 : Shape.Concatenates [S512x128, S512x128] S512x256 1
  slices_S512x1024_o0_255_S512x256 : S512x1024.Slices ![0, 255] S512x256
  concatenates_S512x256_S512x256_S512x512_d1 : Shape.Concatenates [S512x256, S512x256] S512x512 1
  slices_S512x1024_o0_511_S512x512 : S512x1024.Slices ![0, 511] S512x512
  concatenates_S512x512_S512x512_S512x1024_d1 : Shape.Concatenates [S512x512, S512x512] S512x1024 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  slices_S8192x128_S8192x24_0_0 : S8192x128.Slices ![0, 0] S8192x24
  gather_S1023x2048_S1023x1_S1023x2048_1_0_n_n_0_1_12048_wf : GatherDims.WF S1023x2048 S1023x1 S1023x2048 [1] [0] [] [0] [] 1 ![1, 2048]
  gather_S1023_S1023x1_S1023_n_0_n_n_0_1_1_wf : GatherDims.WF S1023 S1023x1 S1023 [] [0] [] [0] [] 1 ![1]
  gather_S1024x24_S1024x1_S1024x24_1_0_n_n_0_1_124_wf : GatherDims.WF S1024x24 S1024x1 S1024x24 [1] [0] [] [0] [] 1 ![1, 24]
  dot_S512x2048_S2048x1024_S512x1024_1_0_0_1_n_n_wf : DotDims.WF S512x2048 S2048x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)

variable [Facts₀]

def gather_S1023x2048_S1023x1_S1023x2048_1_0_n_n_0_1_12048 : GatherDims S1023x2048 S1023x1 S1023x2048 where
  offsetDims := [1]
  collapsedSliceDims := [0]
  operandBatchingDims := []
  startIndicesBatchingDims := []
  startIndexMap := [0]
  indexVectorDim := 1
  sliceSizes := ![1, 2048]
  wf := gather_S1023x2048_S1023x1_S1023x2048_1_0_n_n_0_1_12048_wf
def gather_S1023_S1023x1_S1023_n_0_n_n_0_1_1 : GatherDims S1023 S1023x1 S1023 where
  offsetDims := []
  collapsedSliceDims := [0]
  operandBatchingDims := []
  startIndicesBatchingDims := []
  startIndexMap := [0]
  indexVectorDim := 1
  sliceSizes := ![1]
  wf := gather_S1023_S1023x1_S1023_n_0_n_n_0_1_1_wf
def gather_S1024x24_S1024x1_S1024x24_1_0_n_n_0_1_124 : GatherDims S1024x24 S1024x1 S1024x24 where
  offsetDims := [1]
  collapsedSliceDims := [0]
  operandBatchingDims := []
  startIndicesBatchingDims := []
  startIndexMap := [0]
  indexVectorDim := 1
  sliceSizes := ![1, 24]
  wf := gather_S1024x24_S1024x1_S1024x24_1_0_n_n_0_1_124_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S1023x2048 : Shape := ⟨2, ![1023, 2048]⟩
abbrev S1023 : Shape := ⟨1, ![1023]⟩
abbrev S1024x24 : Shape := ⟨2, ![1024, 24]⟩
abbrev S2048x1023 : Shape := ⟨2, ![2048, 1023]⟩
abbrev S8192x1023 : Shape := ⟨2, ![8192, 1023]⟩
abbrev S1x1023 : Shape := ⟨2, ![1, 1023]⟩
abbrev S_ : Shape := ⟨0, ![]⟩
abbrev S8192x1 : Shape := ⟨2, ![8192, 1]⟩
abbrev S8192x1x1 : Shape := ⟨3, ![8192, 1, 1]⟩
abbrev S8192x1x2 : Shape := ⟨3, ![8192, 1, 2]⟩
abbrev S8192x2 : Shape := ⟨2, ![8192, 2]⟩
abbrev S8192x2x1 : Shape := ⟨3, ![8192, 2, 1]⟩
abbrev S8192x2x2 : Shape := ⟨3, ![8192, 2, 2]⟩
abbrev S8192x4 : Shape := ⟨2, ![8192, 4]⟩
abbrev S8192x4x1 : Shape := ⟨3, ![8192, 4, 1]⟩
abbrev S8192x4x2 : Shape := ⟨3, ![8192, 4, 2]⟩
abbrev S8192x8 : Shape := ⟨2, ![8192, 8]⟩
abbrev S8192x8x1 : Shape := ⟨3, ![8192, 8, 1]⟩
abbrev S8192x8x2 : Shape := ⟨3, ![8192, 8, 2]⟩
abbrev S8192x16 : Shape := ⟨2, ![8192, 16]⟩
abbrev S8192x16x1 : Shape := ⟨3, ![8192, 16, 1]⟩
abbrev S8192x16x2 : Shape := ⟨3, ![8192, 16, 2]⟩
abbrev S8192x32 : Shape := ⟨2, ![8192, 32]⟩
abbrev S8192x32x1 : Shape := ⟨3, ![8192, 32, 1]⟩
abbrev S8192x32x2 : Shape := ⟨3, ![8192, 32, 2]⟩
abbrev S8192x64 : Shape := ⟨2, ![8192, 64]⟩
abbrev S8192x64x1 : Shape := ⟨3, ![8192, 64, 1]⟩
abbrev S8192x64x2 : Shape := ⟨3, ![8192, 64, 2]⟩
abbrev S8192x128 : Shape := ⟨2, ![8192, 128]⟩
abbrev S8192x128x1 : Shape := ⟨3, ![8192, 128, 1]⟩
abbrev S8192x128x2 : Shape := ⟨3, ![8192, 128, 2]⟩
abbrev S8192x256 : Shape := ⟨2, ![8192, 256]⟩
abbrev S8192x256x1 : Shape := ⟨3, ![8192, 256, 1]⟩
abbrev S8192x256x2 : Shape := ⟨3, ![8192, 256, 2]⟩
abbrev S8192x512 : Shape := ⟨2, ![8192, 512]⟩
abbrev S8192x512x1 : Shape := ⟨3, ![8192, 512, 1]⟩
abbrev S8192x512x2 : Shape := ⟨3, ![8192, 512, 2]⟩
abbrev S8192x1024 : Shape := ⟨2, ![8192, 1024]⟩
abbrev S8192x24 : Shape := ⟨2, ![8192, 24]⟩

abbrev nBuf : Space → Nat
  | .hbm => 120
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1023x2048, .f32⟩
  | .hbm, ⟨2, _⟩ => ⟨S1023, .f32⟩
  | .hbm, ⟨3, _⟩ => ⟨S1024x24, .f32⟩
  | .hbm, ⟨4, _⟩ => ⟨S2048x1023, .f32⟩
  | .hbm, ⟨5, _⟩ => ⟨S8192x1023, .f32⟩
  | .hbm, ⟨6, _⟩ => ⟨S1x1023, .f32⟩
  | .hbm, ⟨7, _⟩ => ⟨S8192x1023, .f32⟩
  | .hbm, ⟨8, _⟩ => ⟨S8192x1023, .f32⟩
  | .hbm, ⟨9, _⟩ => ⟨S8192x1023, .f32⟩
  | .hbm, ⟨10, _⟩ => ⟨S8192x1023, .f32⟩
  | .hbm, ⟨11, _⟩ => ⟨S_, .f32⟩
  | .hbm, ⟨12, _⟩ => ⟨S8192x1023, .f32⟩
  | .hbm, ⟨13, _⟩ => ⟨S8192x1023, .f32⟩
  | .hbm, ⟨14, _⟩ => ⟨S_, .f32⟩
  | .hbm, ⟨15, _⟩ => ⟨S8192x1023, .f32⟩
  | .hbm, ⟨16, _⟩ => ⟨S8192x1023, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1x1, .f32⟩
  | .hbm, ⟨26, _⟩ => ⟨S8192x1x1, .f32⟩
  | .hbm, ⟨27, _⟩ => ⟨S8192x1x2, .f32⟩
  | .hbm, ⟨28, _⟩ => ⟨S8192x2, .f32⟩
  | .hbm, ⟨29, _⟩ => ⟨S8192x2, .f32⟩
  | .hbm, ⟨30, _⟩ => ⟨S_, .f32⟩
  | .hbm, ⟨31, _⟩ => ⟨S8192x2, .f32⟩
  | .hbm, ⟨32, _⟩ => ⟨S8192x2, .f32⟩
  | .hbm, ⟨33, _⟩ => ⟨S8192x2, .f32⟩
  | .hbm, ⟨34, _⟩ => ⟨S8192x2, .f32⟩
  | .hbm, ⟨35, _⟩ => ⟨S8192x2x1, .f32⟩
  | .hbm, ⟨36, _⟩ => ⟨S8192x2x1, .f32⟩
  | .hbm, ⟨37, _⟩ => ⟨S8192x2x2, .f32⟩
  | .hbm, ⟨38, _⟩ => ⟨S8192x4, .f32⟩
  | .hbm, ⟨39, _⟩ => ⟨S8192x4, .f32⟩
  | .hbm, ⟨40, _⟩ => ⟨S_, .f32⟩
  | .hbm, ⟨41, _⟩ => ⟨S8192x4, .f32⟩
  | .hbm, ⟨42, _⟩ => ⟨S8192x4, .f32⟩
  | .hbm, ⟨43, _⟩ => ⟨S8192x4, .f32⟩
  | .hbm, ⟨44, _⟩ => ⟨S8192x4, .f32⟩
  | .hbm, ⟨45, _⟩ => ⟨S8192x4x1, .f32⟩
  | .hbm, ⟨46, _⟩ => ⟨S8192x4x1, .f32⟩
  | .hbm, ⟨47, _⟩ => ⟨S8192x4x2, .f32⟩
  | .hbm, ⟨48, _⟩ => ⟨S8192x8, .f32⟩
  | .hbm, ⟨49, _⟩ => ⟨S8192x8, .f32⟩
  | .hbm, ⟨50, _⟩ => ⟨S_, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x8x1, .f32⟩
  | .hbm, ⟨56, _⟩ => ⟨S8192x8x1, .f32⟩
  | .hbm, ⟨57, _⟩ => ⟨S8192x8x2, .f32⟩
  | .hbm, ⟨58, _⟩ => ⟨S8192x16, .f32⟩
  | .hbm, ⟨59, _⟩ => ⟨S8192x16, .f32⟩
  | .hbm, ⟨60, _⟩ => ⟨S_, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x16x1, .f32⟩
  | .hbm, ⟨66, _⟩ => ⟨S8192x16x1, .f32⟩
  | .hbm, ⟨67, _⟩ => ⟨S8192x16x2, .f32⟩
  | .hbm, ⟨68, _⟩ => ⟨S8192x32, .f32⟩
  | .hbm, ⟨69, _⟩ => ⟨S8192x32, .f32⟩
  | .hbm, ⟨70, _⟩ => ⟨S_, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x32, .f32⟩
  | .hbm, ⟨75, _⟩ => ⟨S8192x32x1, .f32⟩
  | .hbm, ⟨76, _⟩ => ⟨S8192x32x1, .f32⟩
  | .hbm, ⟨77, _⟩ => ⟨S8192x32x2, .f32⟩
  | .hbm, ⟨78, _⟩ => ⟨S8192x64, .f32⟩
  | .hbm, ⟨79, _⟩ => ⟨S8192x64, .f32⟩
  | .hbm, ⟨80, _⟩ => ⟨S_, .f32⟩
  | .hbm, ⟨81, _⟩ => ⟨S8192x64, .f32⟩
  | .hbm, ⟨82, _⟩ => ⟨S8192x64, .f32⟩
  | .hbm, ⟨83, _⟩ => ⟨S8192x64, .f32⟩
  | .hbm, ⟨84, _⟩ => ⟨S8192x64, .f32⟩
  | .hbm, ⟨85, _⟩ => ⟨S8192x64x1, .f32⟩
  | .hbm, ⟨86, _⟩ => ⟨S8192x64x1, .f32⟩
  | .hbm, ⟨87, _⟩ => ⟨S8192x64x2, .f32⟩
  | .hbm, ⟨88, _⟩ => ⟨S8192x128, .f32⟩
  | .hbm, ⟨89, _⟩ => ⟨S8192x128, .f32⟩
  | .hbm, ⟨90, _⟩ => ⟨S_, .f32⟩
  | .hbm, ⟨91, _⟩ => ⟨S8192x128, .f32⟩
  | .hbm, ⟨92, _⟩ => ⟨S8192x128, .f32⟩
  | .hbm, ⟨93, _⟩ => ⟨S8192x128, .f32⟩
  | .hbm, ⟨94, _⟩ => ⟨S8192x128, .f32⟩
  | .hbm, ⟨95, _⟩ => ⟨S8192x128x1, .f32⟩
  | .hbm, ⟨96, _⟩ => ⟨S8192x128x1, .f32⟩
  | .hbm, ⟨97, _⟩ => ⟨S8192x128x2, .f32⟩
  | .hbm, ⟨98, _⟩ => ⟨S8192x256, .f32⟩
  | .hbm, ⟨99, _⟩ => ⟨S8192x256, .f32⟩
  | .hbm, ⟨100, _⟩ => ⟨S_, .f32⟩
  | .hbm, ⟨101, _⟩ => ⟨S8192x256, .f32⟩
  | .hbm, ⟨102, _⟩ => ⟨S8192x256, .f32⟩
  | .hbm, ⟨103, _⟩ => ⟨S8192x256, .f32⟩
  | .hbm, ⟨104, _⟩ => ⟨S8192x256, .f32⟩
  | .hbm, ⟨105, _⟩ => ⟨S8192x256x1, .f32⟩
  | .hbm, ⟨106, _⟩ => ⟨S8192x256x1, .f32⟩
  | .hbm, ⟨107, _⟩ => ⟨S8192x256x2, .f32⟩
  | .hbm, ⟨108, _⟩ => ⟨S8192x512, .f32⟩
  | .hbm, ⟨109, _⟩ => ⟨S8192x512, .f32⟩
  | .hbm, ⟨110, _⟩ => ⟨S_, .f32⟩
  | .hbm, ⟨111, _⟩ => ⟨S8192x512, .f32⟩
  | .hbm, ⟨112, _⟩ => ⟨S8192x512, .f32⟩
  | .hbm, ⟨113, _⟩ => ⟨S8192x512, .f32⟩
  | .hbm, ⟨114, _⟩ => ⟨S8192x512, .f32⟩
  | .hbm, ⟨115, _⟩ => ⟨S8192x512x1, .f32⟩
  | .hbm, ⟨116, _⟩ => ⟨S8192x512x1, .f32⟩
  | .hbm, ⟨117, _⟩ => ⟨S8192x512x2, .f32⟩
  | .hbm, ⟨118, _⟩ => ⟨S8192x1024, .f32⟩
  | .hbm, ⟨119, _⟩ => ⟨S8192x24, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_9 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_10 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_11 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩

abbrev nD : Nat := 1
abbrev τ : Topo := Topo.v7x

variable {F : FTy → Type} [FloatOps F]

class Facts₀ : Prop where
  transposes_S1023x2048_S2048x1023_1_0 : S1023x2048.Transposes [1, 0] S2048x1023
  bcast_S1023_S1x1023_1 : S1023.BroadcastsInDim S1x1023 (![1] : Fin 1 → Fin S1x1023.rank)
  bcast_S1x1023_S8192x1023_0_1 : S1x1023.BroadcastsInDim S8192x1023 (![0, 1] : Fin 2 → Fin S8192x1023.rank)
  bcast_S_S8192x1023 : S_.BroadcastsInDim S8192x1023 (![] : Fin 0 → Fin S8192x1023.rank)
  bcast_S_S8192x1 : S_.BroadcastsInDim S8192x1 (![] : Fin 0 → Fin S8192x1.rank)
  slices_S8192x1023_S8192x1_0_0 : S8192x1023.Slices ![0, 0] S8192x1
  bcast_S8192x1_S8192x1x1_0_1 : S8192x1.BroadcastsInDim S8192x1x1 (![0, 1] : Fin 2 → Fin S8192x1x1.rank)
  concatenates_S8192x1x1_S8192x1x1_S8192x1x2_d2 : Shape.Concatenates [S8192x1x1, S8192x1x1] S8192x1x2 2
  shapeCasts_S8192x1x2_S8192x2 : S8192x1x2.ShapeCasts S8192x2
  slices_S8192x1023_S8192x2_0_1 : S8192x1023.Slices ![0, 1] S8192x2
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  concatenates_S8192x2x1_S8192x2x1_S8192x2x2_d2 : Shape.Concatenates [S8192x2x1, S8192x2x1] S8192x2x2 2
  shapeCasts_S8192x2x2_S8192x4 : S8192x2x2.ShapeCasts S8192x4
  slices_S8192x1023_S8192x4_0_3 : S8192x1023.Slices ![0, 3] S8192x4
  bcast_S_S8192x4 : S_.BroadcastsInDim S8192x4 (![] : Fin 0 → Fin S8192x4.rank)
  bcast_S8192x4_S8192x4x1_0_1 : S8192x4.BroadcastsInDim S8192x4x1 (![0, 1] : Fin 2 → Fin S8192x4x1.rank)
  concatenates_S8192x4x1_S8192x4x1_S8192x4x2_d2 : Shape.Concatenates [S8192x4x1, S8192x4x1] S8192x4x2 2
  shapeCasts_S8192x4x2_S8192x8 : S8192x4x2.ShapeCasts S8192x8
  slices_S8192x1023_S8192x8_0_7 : S8192x1023.Slices ![0, 7] S8192x8
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  concatenates_S8192x8x1_S8192x8x1_S8192x8x2_d2 : Shape.Concatenates [S8192x8x1, S8192x8x1] S8192x8x2 2
  shapeCasts_S8192x8x2_S8192x16 : S8192x8x2.ShapeCasts S8192x16
  slices_S8192x1023_S8192x16_0_15 : S8192x1023.Slices ![0, 15] S8192x16
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  concatenates_S8192x16x1_S8192x16x1_S8192x16x2_d2 : Shape.Concatenates [S8192x16x1, S8192x16x1] S8192x16x2 2
  shapeCasts_S8192x16x2_S8192x32 : S8192x16x2.ShapeCasts S8192x32
  slices_S8192x1023_S8192x32_0_31 : S8192x1023.Slices ![0, 31] S8192x32
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  concatenates_S8192x32x1_S8192x32x1_S8192x32x2_d2 : Shape.Concatenates [S8192x32x1, S8192x32x1] S8192x32x2 2
  shapeCasts_S8192x32x2_S8192x64 : S8192x32x2.ShapeCasts S8192x64
  slices_S8192x1023_S8192x64_0_63 : S8192x1023.Slices ![0, 63] S8192x64
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  concatenates_S8192x64x1_S8192x64x1_S8192x64x2_d2 : Shape.Concatenates [S8192x64x1, S8192x64x1] S8192x64x2 2
  shapeCasts_S8192x64x2_S8192x128 : S8192x64x2.ShapeCasts S8192x128
  slices_S8192x1023_S8192x128_0_127 : S8192x1023.Slices ![0, 127] S8192x128
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  concatenates_S8192x128x1_S8192x128x1_S8192x128x2_d2 : Shape.Concatenates [S8192x128x1, S8192x128x1] S8192x128x2 2
  shapeCasts_S8192x128x2_S8192x256 : S8192x128x2.ShapeCasts S8192x256
  slices_S8192x1023_S8192x256_0_255 : S8192x1023.Slices ![0, 255] S8192x256
  bcast_S_S8192x256 : S_.BroadcastsInDim S8192x256 (![] : Fin 0 → Fin S8192x256.rank)
  bcast_S8192x256_S8192x256x1_0_1 : S8192x256.BroadcastsInDim S8192x256x1 (![0, 1] : Fin 2 → Fin S8192x256x1.rank)
  concatenates_S8192x256x1_S8192x256x1_S8192x256x2_d2 : Shape.Concatenates [S8192x256x1, S8192x256x1] S8192x256x2 2
  shapeCasts_S8192x256x2_S8192x512 : S8192x256x2.ShapeCasts S8192x512
  slices_S8192x1023_S8192x512_0_511 : S8192x1023.Slices ![0, 511] S8192x512
  bcast_S_S8192x512 : S_.BroadcastsInDim S8192x512 (![] : Fin 0 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  shapeCasts_S8192x512x2_S8192x1024 : S8192x512x2.ShapeCasts S8192x1024
  dot_S8192x2048_S2048x1023_S8192x1023_1_0_0_1_n_n_wf : DotDims.WF S8192x2048 S2048x1023 S8192x1023 [1] [0] [0] [1] [] []
  dot_S8192x1024_S1024x24_S8192x24_1_0_0_1_n_n_wf : DotDims.WF S8192x1024 S1024x24 S8192x24 [1] [0] [0] [1] [] []

variable [Facts₀]

def dot_S8192x2048_S2048x1023_S8192x1023_1_0_0_1_n_n : DotDims S8192x2048 S2048x1023 S8192x1023 where
  lhsContracting := [1]
  rhsContracting := [0]
  lhsNonContracting := [0]
  rhsNonContracting := [1]
  lhsBatch := []
  rhsBatch := []
  wf := dot_S8192x2048_S2048x1023_S8192x1023_1_0_0_1_n_n_wf
def dot_S8192x1024_S1024x24_S8192x24_1_0_0_1_n_n : DotDims S8192x1024 S1024x24 S8192x24 where
  lhsContracting := [1]
  rhsContracting := [0]
  lhsNonContracting := [0]
  rhsNonContracting := [1]
  lhsBatch := []
  rhsBatch := []
  wf := dot_S8192x1024_S1024x24_S8192x24_1_0_0_1_n_n_wf

class Facts : Prop extends Facts₀ where

variable [Facts]
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibNat2.lean ====
/-
  Arrays read at natural-number coordinates, over the library and LibPlainDot only, at the ideal values.
  nat2 v i j is the matrix v's entry (i, j), zero outside the matrix (nat3 likewise for rank 3): a total function of the
  coordinates, so that a stage of a kernel that works on flat rows can be stated without index types. Then how the vector
  operations of a kernel body act on such reads, at the ideal values: a slice shifts the coordinates, a matrix product
  into a zero accumulator is the sum over the contraction index, a row broadcast reads the one row, the pointwise
  operations act entry by entry, a concatenation along the lanes or the rows reads the piece the coordinate falls in, and
  regrouping g consecutive rows ([g·a, b] → [a, g, b], member k of each group, → [a, b]) reads row g·j + k.
-/
import proofs.«141256_j2430951489980_2_alg».proof.Proof.LibPlainDot
import Idealize.ShloMosaic.Lib.Pipeline.Value
import Idealize.ShloMosaic.Lib.ValueLayout
import Idealize.ShloMosaic.PureOps.Ideal.Laws

noncomputable section

namespace Cert.LibNat2

open Idealize.ShloMosaic Idealize.ShloMosaic.ValueIdx

/-- A matrix read at natural-number coordinates; zero outside it. -/
def nat2 {a b : ℕ} (v : (⟨2, ![a, b]⟩ : Shape).Idx → EReal) (i j : ℕ) : EReal :=
  if h : i < a ∧ j < b then v (ix2 ⟨i, h.1⟩ ⟨j, h.2⟩) else 0

theorem nat2_eq {a b : ℕ} (v : (⟨2, ![a, b]⟩ : Shape).Idx → EReal) (i : Fin a) (j : Fin b) :
    nat2 v i.val j.val = v (ix2 i j) := by
  unfold nat2; rw [dif_pos ⟨i.isLt, j.isLt⟩]

theorem nat2_of_lt {a b : ℕ} (v : (⟨2, ![a, b]⟩ : Shape).Idx → EReal) (i j : ℕ) (hi : i < a) (hj : j < b) :
    nat2 v i j = v (ix2 ⟨i, hi⟩ ⟨j, hj⟩) := by
  unfold nat2; rw [dif_pos ⟨hi, hj⟩]

/-- A rank-3 array read at natural-number coordinates; zero outside it. -/
def nat3 {a b c : ℕ} (v : (⟨3, ![a, b, c]⟩ : Shape).Idx → EReal) (i j k : ℕ) : EReal :=
  if h : i < a ∧ j < b ∧ k < c then v (ix3 ⟨i, h.1⟩ ⟨j, h.2.1⟩ ⟨k, h.2.2⟩) else 0

theorem nat3_eq {a b c : ℕ} (v : (⟨3, ![a, b, c]⟩ : Shape).Idx → EReal) (i : Fin a) (j : Fin b) (k : Fin c) :
    nat3 v i.val j.val k.val = v (ix3 i j k) := by
  unfold nat3; rw [dif_pos ⟨i.isLt, j.isLt, k.isLt⟩]

theorem nat3_of_lt {a b c : ℕ} (v : (⟨3, ![a, b, c]⟩ : Shape).Idx → EReal) (i j k : ℕ) (hi : i < a) (hj : j < b) (hk : k < c) :
    nat3 v i j k = v (ix3 ⟨i, hi⟩ ⟨j, hj⟩ ⟨k, hk⟩) := by
  unfold nat3; rw [dif_pos ⟨hi, hj, hk⟩]

/-- A slice reads the operand at the shifted coordinates. -/
theorem nat2_slice {a b a' b' : ℕ} (o0 o1 : ℕ) (x : (⟨2, ![a, b]⟩ : Shape).Idx → EReal)
    (h : (⟨2, ![a, b]⟩ : Shape).Slices ![o0, o1] ⟨2, ![a', b']⟩) (ha : o0 + a' ≤ a) (hb : o1 + b' ≤ b)
    (i j : ℕ) (hi : i < a') (hj : j < b') :
    nat2 (extractStridedSlice ⟨2, ![a', b']⟩ ![o0, o1] x h) i j = nat2 x (o0 + i) (o1 + j) := by
  rw [nat2_of_lt _ _ _ hi hj, nat2_of_lt _ _ _ (show o0 + i < a by omega) (show o1 + j < b by omega)]
  exact extractStridedSlice_apply _ x h _ _ (fun ax => by match ax with | ⟨0, _⟩ => rfl | ⟨1, _⟩ => rfl)

/-- A plain matrix product into a zero accumulator is the sum over the contraction index. -/
theorem nat2_matmul (M K N : ℕ) {φ₁ φ₂ : FTy} (prec : Option ContractPrecision) (l : FVec Ideal ⟨2, ![M, K]⟩ φ₁)
    (r : FVec Ideal ⟨2, ![K, N]⟩ φ₂) (i j : ℕ) (hi : i < M) (hj : j < N) :
    nat2 (matmul (F := Ideal) (DotDims.plain M K N) prec l r (constant ⟨2, ![M, N]⟩ .f32 0x00000000#32)) i j
      = ∑ k : Fin K, nat2 l i k.val * nat2 r k.val j := by
  rw [nat2_of_lt _ _ _ hi hj]
  refine (Cert.LibPlainDot.matmul_plain M K N prec l r _).trans ?_
  refine Finset.sum_congr rfl fun k _ => ?_
  rw [nat2_of_lt l i k.val hi k.isLt, nat2_of_lt r k.val j k.isLt hj]
  rfl

/-- A [1, b] row broadcast over a rows reads the row. -/
theorem nat2_bcastRow {a b : ℕ} (v : (⟨2, ![1, b]⟩ : Shape).Idx → EReal) (h : (⟨2, ![1, b]⟩ : Shape).Broadcasts ⟨2, ![a, b]⟩)
    (i j : ℕ) (hi : i < a) (hj : j < b) : nat2 (broadcastTo ⟨2, ![a, b]⟩ v h) i j = nat2 v 0 j := by
  rw [nat2_of_lt _ _ _ hi hj, nat2_of_lt v 0 j Nat.one_pos hj]
  exact broadcastTo_1b_ab_apply v h ⟨i, hi⟩ ⟨j, hj⟩

theorem nat2_addf {a b : ℕ} {φ : FTy} (x y : FVec Ideal ⟨2, ![a, b]⟩ φ) (i j : ℕ) :
    nat2 (addf x y) i j = nat2 x i j + nat2 y i j := by
  unfold nat2; split
  · rfl
  · exact (add_zero _).symm

theorem nat2_maximumf {a b : ℕ} {φ : FTy} (x y : FVec Ideal ⟨2, ![a, b]⟩ φ) (i j : ℕ) :
    nat2 (maximumf x y) i j = max (nat2 x i j) (nat2 y i j) := by
  unfold nat2; split
  · rfl
  · exact (max_self _).symm

theorem nat2_truncf {a b : ℕ} {φ ψ : FTy} (x : FVec Ideal ⟨2, ![a, b]⟩ φ) (h : ψ.bits < φ.bits) (i j : ℕ) :
    nat2 (truncf ψ x h : FVec Ideal ⟨2, ![a, b]⟩ ψ) i j = nat2 x i j := rfl

theorem nat2_shapeCast_self {a b : ℕ} (x : (⟨2, ![a, b]⟩ : Shape).Idx → EReal) (h : (⟨2, ![a, b]⟩ : Shape).ShapeCasts ⟨2, ![a, b]⟩)
    (i j : ℕ) : nat2 (shapeCast ⟨2, ![a, b]⟩ x h) i j = nat2 x i j := by
  rw [shapeCast_self]

/-- The zero word splat over a matrix. -/
theorem nat2_zero_splat {a b : ℕ} (i j : ℕ) :
    nat2 (broadcast (⟨2, ![a, b]⟩ : Shape) (Scalar.ofBits (F := Ideal) .f32 0x00000000#32)) i j = 0 := by
  unfold nat2; split
  · exact Ideal.ofBits_zero_f32
  · rfl

/-- Piece k of a concatenation along the lanes (axis 1), the pieces before it pre lanes wide in all. -/
theorem nat2_concat1 {a w Wd : ℕ} (xs : List ((s : Shape) × (s.Idx → EReal)))
    (h : Shape.Concatenates (xs.map (·.1)) ⟨2, ![a, Wd]⟩ 1) (k : ℕ) (hk : k < xs.length)
    (x : (⟨2, ![a, w]⟩ : Shape).Idx → EReal) (hx : xs[k] = ⟨⟨2, ![a, w]⟩, x⟩) (pre : ℕ)
    (hpre : (((xs.take k).map (·.1)).map fun s => if h : s.rank = 2 then s.size ((1 : Fin 2).cast h.symm) else 0).sum = pre)
    (i j : ℕ) (hi : i < a) (hj : j < w) (hW : pre + j < Wd) :
    nat2 (concatenate ⟨2, ![a, Wd]⟩ 1 xs h) i (pre + j) = nat2 x i j := by
  rw [nat2_of_lt _ _ _ hi hW, nat2_of_lt _ _ _ hi hj]
  refine concatenate_apply_piece (t := ⟨2, ![a, Wd]⟩) (1 : Fin 2) xs h (ix2 ⟨i, hi⟩ ⟨pre + j, hW⟩) k hk ⟨2, ![a, w]⟩ x hx rfl pre hpre
    (ix2 ⟨i, hi⟩ ⟨j, hj⟩) (fun b hb => ?_) rfl
  match b with
  | ⟨0, _⟩ => rfl
  | ⟨1, _⟩ => exact absurd rfl hb

/-- The first piece of a two-piece concatenation along the rows (axis 0). -/
theorem nat2_concat0_left {a a₂ A b : ℕ} (x₁ : (⟨2, ![a, b]⟩ : Shape).Idx → EReal) (x₂ : (⟨2, ![a₂, b]⟩ : Shape).Idx → EReal)
    (h : Shape.Concatenates [⟨2, ![a, b]⟩, ⟨2, ![a₂, b]⟩] ⟨2, ![A, b]⟩ 0) (i j : ℕ) (hi : i < a) (hA : i < A) (hj : j < b) :
    nat2 (concatenate ⟨2, ![A, b]⟩ 0 [⟨⟨2, ![a, b]⟩, x₁⟩, ⟨⟨2, ![a₂, b]⟩, x₂⟩] h) i j = nat2 x₁ i j := by
  rw [nat2_of_lt _ _ _ hA hj, nat2_of_lt _ _ _ hi hj]
  refine concatenate_pair_apply_left (t := ⟨2, ![A, b]⟩) (s₁ := ⟨2, ![a, b]⟩) (s₂ := ⟨2, ![a₂, b]⟩) (0 : Fin 2) x₁ x₂ h
    (ix2 ⟨i, hA⟩ ⟨j, hj⟩) rfl (ix2 ⟨i, hi⟩ ⟨j, hj⟩) (fun bx => ?_)
  match bx with
  | ⟨0, _⟩ => rfl
  | ⟨1, _⟩ => rfl

/-- Rows regrouped g at a time, member k of each group: row j of the result is row g·j + k. -/
theorem nat2_rowGroup {A a g b : ℕ} (k : ℕ) (hk : k < g) (hA : A = a * g) (v : (⟨2, ![A, b]⟩ : Shape).Idx → EReal)
    (h1 : (⟨2, ![A, b]⟩ : Shape).ShapeCasts ⟨3, ![a, g, b]⟩)
    (h2 : (⟨3, ![a, g, b]⟩ : Shape).Slices ![0, k, 0] ⟨3, ![a, 1, b]⟩)
    (h3 : (⟨3, ![a, 1, b]⟩ : Shape).ShapeCasts ⟨2, ![a, b]⟩) (j q : ℕ) (hj : j < a) (hq : q < b) :
    nat2 (shapeCast ⟨2, ![a, b]⟩ (extractStridedSlice ⟨3, ![a, 1, b]⟩ ![0, k, 0] (shapeCast ⟨3, ![a, g, b]⟩ v h1) h2) h3) j q
      = nat2 v (g * j + k) q := by
  have hlt : g * j + k < A := by
    subst hA
    calc g * j + k < g * j + g := by omega
      _ = g * (j + 1) := by ring
      _ ≤ g * a := Nat.mul_le_mul_left g (by omega)
      _ = a * g := Nat.mul_comm g a
  rw [nat2_of_lt _ _ _ hj hq, nat2_of_lt _ _ _ hlt hq]
  refine (shapeCast_apply _ h3 (ix2 ⟨j, hj⟩ ⟨q, hq⟩) (ix3 ⟨j, hj⟩ (0 : Fin 1) ⟨q, hq⟩) ?_).trans ?_
  · rw [Shape.rowMajor_val_three, Shape.rowMajor_val_two]
    show (j * 1 + 0) * b + q = j * b + q
    simp
  refine (extractStridedSlice_apply _ _ h2 _ (ix3 ⟨j, hj⟩ ⟨k, hk⟩ ⟨q, hq⟩) (fun ax => by
    match ax with
    | ⟨0, _⟩ => show j = 0 + j; omega
    | ⟨1, _⟩ => show k = k + 0; omega
    | ⟨2, _⟩ => show q = 0 + q; omega)).trans ?_
  refine shapeCast_apply v h1 _ (ix2 ⟨g * j + k, hlt⟩ ⟨q, hq⟩) ?_
  rw [Shape.rowMajor_val_three, Shape.rowMajor_val_two]
  show (g * j + k) * b + q = (j * g + k) * b + q
  rw [Nat.mul_comm g j]

end Cert.LibNat2

end
-- ==== Proof.Tree.lean ====
/-
  Soft decision trees: the probability of reaching each node of a level, in two layouts.

  A full binary tree of depth K has 2^k nodes on level k; node n (numbered level by level, level k starting at
  2^k - 1) sends a sample left with weight one - p n and right with weight p n.  The probability of reaching a node
  is the product of the weights along its path.  Two layouts of a level's 2^k reach probabilities:
  * heap: node i of level k has children 2i (left) and 2i+1 (right) on level k+1 — the children interleaved;
  * conc: level k+1 is the left children of all of level k, then the right children — two halves.
  Position j of the conc layout is position rev k j of the heap layout, where rev k reverses the k low bits, as
  soon as the node weights of the conc side are those of the heap side permuted by rev level by level.  Hence a sum
  over the leaves weighted by a leaf table is the same in both layouts when the conc side's table is read through
  rev K.  Only commutativity of finite sums is used: no finiteness.
-/
import Idealize.ShloMosaic.PureOps.Ideal

noncomputable section

namespace Cert.SoftTree

/-- Reversal of the k low bits. -/
def rev : ℕ → ℕ → ℕ
  | 0, _ => 0
  | k + 1, j => 2 * rev k (j % 2 ^ k) + j / 2 ^ k

theorem rev_succ (k j : ℕ) : rev (k + 1) j = 2 * rev k (j % 2 ^ k) + j / 2 ^ k := rfl

theorem rev_lt (k : ℕ) : ∀ j, j < 2 ^ k → rev k j < 2 ^ k := by
  induction k with
  | zero => intro j _; show 0 < 1; exact Nat.one_pos
  | succ k ih =>
    intro j h
    have hpos : 0 < 2 ^ k := Nat.two_pow_pos k
    have h1 := ih (j % 2 ^ k) (Nat.mod_lt _ hpos)
    have h2 : j / 2 ^ k < 2 := by
      rw [Nat.div_lt_iff_lt_mul hpos]; rw [pow_succ] at h; omega
    rw [rev_succ, pow_succ]; omega

variable (one : EReal)

/-- Reach probabilities, level k+1 laid out as the left children then the right children. -/
def conc (q : ℕ → EReal) : ℕ → ℕ → EReal
  | 0, _ => one
  | k + 1, j => if j < 2 ^ k then conc q k j * (one - q (2 ^ k - 1 + j))
                else conc q k (j - 2 ^ k) * q (2 ^ k - 1 + (j - 2 ^ k))

/-- Reach probabilities, the two children of a node side by side. -/
def heap (p : ℕ → EReal) : ℕ → ℕ → EReal
  | 0, _ => one
  | k + 1, j => if j % 2 = 0 then heap p k (j / 2) * (one - p (2 ^ k - 1 + j / 2))
                else heap p k (j / 2) * p (2 ^ k - 1 + j / 2)

theorem conc_zero (q : ℕ → EReal) (j : ℕ) : conc one q 0 j = one := rfl
theorem conc_succ (q : ℕ → EReal) (k j : ℕ) :
    conc one q (k + 1) j = if j < 2 ^ k then conc one q k j * (one - q (2 ^ k - 1 + j))
      else conc one q k (j - 2 ^ k) * q (2 ^ k - 1 + (j - 2 ^ k)) := rfl
theorem heap_zero (p : ℕ → EReal) (j : ℕ) : heap one p 0 j = one := rfl
theorem heap_succ (p : ℕ → EReal) (k j : ℕ) :
    heap one p (k + 1) j = if j % 2 = 0 then heap one p k (j / 2) * (one - p (2 ^ k - 1 + j / 2))
      else heap one p k (j / 2) * p (2 ^ k - 1 + j / 2) := rfl

/-- Only the weights of the nodes above level k matter. -/
theorem conc_congr (q q' : ℕ → EReal) (k : ℕ) (h : ∀ n, n < 2 ^ k - 1 → q n = q' n) :
    ∀ j, j < 2 ^ k → conc one q k j = conc one q' k j := by
  induction k with
  | zero => intro j _; rfl
  | succ k ih =>
    intro j hj
    have hpos : 0 < 2 ^ k := Nat.two_pow_pos k
    rw [pow_succ] at hj h
    have ih' := ih (fun n hn => h n (by omega))
    rw [conc_succ, conc_succ]
    by_cases hlt : j < 2 ^ k
    · rw [if_pos hlt, if_pos hlt, ih' j hlt, h _ (by omega)]
    · rw [if_neg hlt, if_neg hlt, ih' _ (by omega), h _ (by omega)]

theorem heap_congr (p p' : ℕ → EReal) (k : ℕ) (h : ∀ n, n < 2 ^ k - 1 → p n = p' n) :
    ∀ j, j < 2 ^ k → heap one p k j = heap one p' k j := by
  induction k with
  | zero => intro j _; rfl
  | succ k ih =>
    intro j hj
    have hpos : 0 < 2 ^ k := Nat.two_pow_pos k
    rw [pow_succ] at hj h
    have ih' := ih (fun n hn => h n (by omega))
    rw [heap_succ, heap_succ, ih' (j / 2) (by omega), h (2 ^ k - 1 + j / 2) (by omega)]

/-- Position j of the two-halves layout is position rev k j of the interleaved layout. -/
theorem conc_eq_heap (K : ℕ) (p q : ℕ → EReal) (perm : ℕ → ℕ)
    (hq : ∀ n, n < 2 ^ K - 1 → q n = p (perm n))
    (hperm : ∀ k, k < K → ∀ i, i < 2 ^ k → perm (2 ^ k - 1 + i) = 2 ^ k - 1 + rev k i) :
    ∀ k, k ≤ K → ∀ j, j < 2 ^ k → conc one q k j = heap one p k (rev k j) := by
  intro k
  induction k with
  | zero => intro _ j _; rfl
  | succ k ih =>
    intro hk j hj
    have hkK : k < K := hk
    have hpos : 0 < 2 ^ k := Nat.two_pow_pos k
    have hle : 2 ^ (k + 1) ≤ 2 ^ K := Nat.pow_le_pow_right (by norm_num) hk
    rw [pow_succ] at hj hle
    rw [conc_succ, heap_succ, rev_succ]
    by_cases hlt : j < 2 ^ k
    · have hmod : j % 2 ^ k = j := Nat.mod_eq_of_lt hlt
      have hdiv : j / 2 ^ k = 0 := Nat.div_eq_of_lt hlt
      rw [if_pos hlt, hmod, hdiv, add_zero, if_pos (by omega), show 2 * rev k j / 2 = rev k j by omega,
        ih (by omega) j hlt, hq _ (by omega), hperm k hkK j hlt]
    · have hj' : j - 2 ^ k < 2 ^ k := by omega
      have hmod : j % 2 ^ k = j - 2 ^ k := by
        rw [Nat.mod_eq_sub_mod (by omega), Nat.mod_eq_of_lt hj']
      have hdiv : j / 2 ^ k = 1 := by
        rw [Nat.div_eq_iff hpos]; omega
      rw [if_neg hlt, hmod, hdiv, if_neg (by omega), show (2 * rev k (j - 2 ^ k) + 1) / 2 = rev k (j - 2 ^ k) by omega,
        ih (by omega) _ hj', hq _ (by omega), hperm k hkK _ hj']

/-- A leaf sum in the two-halves layout, its table read through rev, is the leaf sum in the interleaved layout. -/
theorem sum_conc_eq_sum_heap (K N : ℕ) (hN : 2 ^ K = N) (p q : ℕ → EReal) (perm : ℕ → ℕ)
    (hq : ∀ n, n < 2 ^ K - 1 → q n = p (perm n))
    (hperm : ∀ k, k < K → ∀ i, i < 2 ^ k → perm (2 ^ k - 1 + i) = 2 ^ k - 1 + rev k i)
    (hinv : ∀ l, l < N → rev K (rev K l) = l) (φ : ℕ → EReal) :
    ∑ l : Fin N, conc one q K l.val * φ (rev K l.val) = ∑ l : Fin N, heap one p K l.val * φ l.val := by
  subst hN
  let e : Fin (2 ^ K) ≃ Fin (2 ^ K) :=
    { toFun := fun l => ⟨rev K l.val, rev_lt K _ l.isLt⟩
      invFun := fun l => ⟨rev K l.val, rev_lt K _ l.isLt⟩
      left_inv := fun l => Fin.ext (hinv _ l.isLt)
      right_inv := fun l => Fin.ext (hinv _ l.isLt) }
  rw [← Equiv.sum_comp e (fun l => heap one p K l.val * φ l.val)]
  refine Finset.sum_congr rfl fun l _ => ?_
  show conc one q K l.val * φ (rev K l.val) = heap one p K (rev K l.val) * φ (rev K l.val)
  rw [conc_eq_heap one K p q perm hq hperm K le_rfl _ l.isLt]

end Cert.SoftTree

end
-- ==== Proof.Spec.lean ====
/-
  What both programs compute, as one function of the four argument arrays.

  Row r of xs goes through one affine map per internal node of a depth-10 binary tree: node n has the weight
  sigma(sum_k xs(r,k) * W(n,k) + b(n)), the probability of turning right there.  The probability of reaching leaf l is
  the product of the turn weights along its path (Tree.lean's heap layout), and the output at (r, j) is the sum over
  the 1024 leaves of that probability times the leaf table's entry phi(l, j).
-/
import proofs.«141256_j2430951489980_2_alg».proof.Proof.LibNat2
import proofs.«141256_j2430951489980_2_alg».proof.Proof.Tree

noncomputable section

namespace Cert.SoftTree

open Idealize.ShloMosaic Idealize.ShloMosaic.ValueIdx Cert.LibNat2

/-- A vector read at a natural-number coordinate; zero outside it. -/
def nat1 {a : ℕ} (v : (⟨1, ![a]⟩ : Shape).Idx → EReal) (i : ℕ) : EReal :=
  if h : i < a then v (ix1 ⟨i, h⟩) else 0

theorem nat1_of_lt {a : ℕ} (v : (⟨1, ![a]⟩ : Shape).Idx → EReal) (i : ℕ) (hi : i < a) :
    nat1 v i = v (ix1 ⟨i, hi⟩) := by
  unfold nat1; rw [dif_pos hi]

/-- The number one as both programs write it: the 32-bit word 0x3F800000. -/
def one : EReal := FloatOps.ofBits (F := Ideal) .f32 0x3F800000#32

/-- Node n's weight for row r: the logistic function of the node's affine map of the row. -/
def nodeProb {B D Nn : ℕ} (xs : (⟨2, ![B, D]⟩ : Shape).Idx → EReal) (W : (⟨2, ![Nn, D]⟩ : Shape).Idx → EReal)
    (b : (⟨1, ![Nn]⟩ : Shape).Idx → EReal) (r n : ℕ) : EReal :=
  Ideal.logistic ((∑ k : Fin D, nat2 xs r k.val * nat2 W n k.val) + nat1 b n)

/-- The output at (r, j): the leaf table's column j averaged with the leaves' reach probabilities. -/
def treeOut {B D Nn C : ℕ} (xs : (⟨2, ![B, D]⟩ : Shape).Idx → EReal) (W : (⟨2, ![Nn, D]⟩ : Shape).Idx → EReal)
    (b : (⟨1, ![Nn]⟩ : Shape).Idx → EReal) (phi : (⟨2, ![1024, C]⟩ : Shape).Idx → EReal) (r j : ℕ) : EReal :=
  ∑ l : Fin 1024, heap one (nodeProb xs W b r) 10 l.val * nat2 phi l.val j

end Cert.SoftTree

end
-- ==== Proof.Levels.lean ====
/-
  One level of the tree, as the vector unit writes it, read at natural-number coordinates.

  A level takes the reach probabilities pp of the 2^k nodes of level k (an [R, Wd] block, Wd = 2^k) and the block of all
  node weights, cuts the level's Wd weights p out of it, and lays pp * (one - p) and pp * p side by side.  Read at
  (r, j) this is the recursion of Tree.lean's two-halves layout.
-/
import proofs.«141256_j2430951489980_2_alg».proof.Proof.Spec

noncomputable section

namespace Cert.SoftTree

open Idealize.ShloMosaic Idealize.ShloMosaic.ValueIdx Cert.LibNat2

theorem nat2_mulf {a b : ℕ} {φ : FTy} (x y : FVec Ideal ⟨2, ![a, b]⟩ φ) (i j : ℕ) :
    nat2 (mulf x y) i j = nat2 x i j * nat2 y i j := by
  unfold nat2; split
  · rfl
  · exact (mul_zero _).symm

theorem nat2_subf {a b : ℕ} {φ : FTy} (x y : FVec Ideal ⟨2, ![a, b]⟩ φ) (i j : ℕ) :
    nat2 (subf x y) i j = nat2 x i j - nat2 y i j := by
  unfold nat2; split
  · rfl
  · exact (sub_zero _).symm

/-- The word for one, splat over a block. -/
theorem nat2_one_splat {a b : ℕ} (i j : ℕ) (hi : i < a) (hj : j < b) :
    nat2 (broadcast (⟨2, ![a, b]⟩ : Shape) (Scalar.ofBits (F := Ideal) .f32 0x3F800000#32)) i j = one := by
  rw [nat2_of_lt _ _ _ hi hj]; rfl

/-- Two blocks of the same width side by side. -/
theorem nat2_concat_pair {R Wd Wd2 : ℕ} (x y : (⟨2, ![R, Wd]⟩ : Shape).Idx → EReal)
    (h : Shape.Concatenates [⟨2, ![R, Wd]⟩, ⟨2, ![R, Wd]⟩] ⟨2, ![R, Wd2]⟩ 1) (hW : Wd2 = Wd + Wd)
    (i j : ℕ) (hi : i < R) (hj : j < Wd2) :
    nat2 (concatenate ⟨2, ![R, Wd2]⟩ 1 [⟨⟨2, ![R, Wd]⟩, x⟩, ⟨⟨2, ![R, Wd]⟩, y⟩] h) i j
      = if j < Wd then nat2 x i j else nat2 y i (j - Wd) := by
  by_cases hlt : j < Wd
  · rw [if_pos hlt]
    have e := nat2_concat1 [⟨⟨2, ![R, Wd]⟩, x⟩, ⟨⟨2, ![R, Wd]⟩, y⟩] h 0 (by simp) x rfl 0 rfl i j hi hlt (by omega)
    rw [Nat.zero_add] at e
    exact e
  · rw [if_neg hlt]
    have e := nat2_concat1 [⟨⟨2, ![R, Wd]⟩, x⟩, ⟨⟨2, ![R, Wd]⟩, y⟩] h 1 (by simp) y rfl Wd (by simp) i (j - Wd) hi (by omega) (by omega)
    rw [show Wd + (j - Wd) = j by omega] at e
    exact e

/-- One level: the two products of the previous level with the level's slice of the weights, side by side. -/
theorem nat2_level {R Wd Wd2 Nn : ℕ} (prev : FVec Ideal ⟨2, ![R, Wd]⟩ .f32) (probs : FVec Ideal ⟨2, ![R, Nn]⟩ .f32) (off : ℕ)
    (hs : (⟨2, ![R, Nn]⟩ : Shape).Slices ![0, off] ⟨2, ![R, Wd]⟩)
    (hc : Shape.Concatenates [⟨2, ![R, Wd]⟩, ⟨2, ![R, Wd]⟩] ⟨2, ![R, Wd2]⟩ 1) (hW : Wd2 = Wd + Wd) (hoff : off + Wd ≤ Nn)
    (i j : ℕ) (hi : i < R) (hj : j < Wd2) :
    nat2 (concatenate ⟨2, ![R, Wd2]⟩ 1
        [⟨⟨2, ![R, Wd]⟩, mulf prev (subf (broadcast (⟨2, ![R, Wd]⟩ : Shape) (Scalar.ofBits (F := Ideal) .f32 0x3F800000#32))
            (extractStridedSlice ⟨2, ![R, Wd]⟩ ![0, off] probs hs))⟩,
         ⟨⟨2, ![R, Wd]⟩, mulf prev (extractStridedSlice ⟨2, ![R, Wd]⟩ ![0, off] probs hs)⟩] hc) i j
      = if j < Wd then nat2 prev i j * (one - nat2 probs i (off + j))
        else nat2 prev i (j - Wd) * nat2 probs i (off + (j - Wd)) := by
  rw [nat2_concat_pair _ _ hc hW i j hi hj]
  by_cases hlt : j < Wd
  · rw [if_pos hlt, if_pos hlt, nat2_mulf, nat2_subf, nat2_one_splat i j hi hlt,
      nat2_slice 0 off probs hs (by omega) hoff i j hi hlt, Nat.zero_add]
  · rw [if_neg hlt, if_neg hlt, nat2_mulf, nat2_slice 0 off probs hs (by omega) hoff i (j - Wd) hi (by omega), Nat.zero_add]

variable (q : ℕ → EReal)

/-- The recursion step on functions of the position: from level k to level k+1 of the two-halves layout. -/
theorem conc_step (k Wd off : ℕ) (hWd : Wd = 2 ^ k) (hoff : off + 1 = Wd) (f g : ℕ → EReal)
    (hf : ∀ j, j < Wd → f j = conc one q k j)
    (hg : ∀ j, j < Wd + Wd → g j = if j < Wd then f j * (one - q (off + j)) else f (j - Wd) * q (off + (j - Wd))) :
    ∀ j, j < Wd + Wd → g j = conc one q (k + 1) j := by
  subst hWd
  have hoff' : 2 ^ k - 1 = off := by omega
  intro j hj
  rw [hg j hj, conc_succ, hoff']
  by_cases hlt : j < 2 ^ k
  · rw [if_pos hlt, if_pos hlt, hf j hlt]
  · rw [if_neg hlt, if_neg hlt, hf _ (by omega)]

end Cert.SoftTree

end
-- ==== Proof.KernelBody.lean ====
/-
  What the kernel's body computes for one block of 512 rows, read at natural-number coordinates.

  The block's weights: sigma of (row of x) · (column of the weight matrix) + bias, one per column.  Then ten levels of
  the tree in the two-halves layout (Levels.lean), and the product of the leaves' reach probabilities with the leaf
  table: at (p, q) the sum over the 1024 leaves l of conc 10 l · table(l, q).
-/
import proofs.«141256_j2430951489980_2_alg».proof.Proof.Gen.KernelIdeal.Skeleton
import proofs.«141256_j2430951489980_2_alg».proof.Proof.Levels

set_option maxRecDepth 16384

noncomputable section

namespace Cert.KernelIdeal.Body

open Idealize.ShloMosaic Idealize.ShloMosaic.ValueIdx Cert.LibNat2 Cert.SoftTree Cert.KernelIdeal Cert.KernelIdeal.Gen

variable (x0 : Vec Ideal S512x2048 .f32) (x1 : Vec Ideal S2048x1024 .bf16) (x2 : Vec Ideal S1x1024 .f32)
  (x3 : Vec Ideal S1024x128 .bf16)

/-- The block's node weights: the logistic function of the row's affine map, column by column. -/
theorem pay2_apply (p n : ℕ) (hp : p < 512) (hn : n < 1024) :
    nat2 (k0_pay2 (F := Ideal) x0 x1 x2) p n
      = Ideal.logistic ((∑ k : Fin 2048, nat2 x0 p k.val * nat2 x1 k.val n) + nat2 x2 0 n) := by
  have e : ∀ v : FVec Ideal S512x1024 .f32, nat2 (logistic v) p n = Ideal.logistic (nat2 v p n) := fun v => by
    rw [nat2_of_lt _ _ _ hp hn, nat2_of_lt _ _ _ hp hn]; rfl
  unfold k0_pay2
  dsimp only
  rw [e, nat2_addf, nat2_bcastRow _ _ p n hp hn, nat2_shapeCast_self]
  refine congrArg (fun s => Ideal.logistic (s + nat2 x2 0 n)) ?_
  refine (nat2_matmul 512 2048 1024 none _ _ p n hp hn).trans ?_
  refine Finset.sum_congr rfl fun k _ => ?_
  rw [nat2_truncf, nat2_shapeCast_self]

/-- The first five levels. -/
theorem pay3_apply (p : ℕ) (hp : p < 512) :
    ∀ j, j < 32 → nat2 (k0_pay3 (F := Ideal) x0 x1 x2) p j = conc one (fun n => nat2 (k0_pay2 (F := Ideal) x0 x1 x2) p n) 5 j := by
  unfold k0_pay3
  refine conc_step _ 4 16 15 rfl rfl _ _ ?_ (fun j hj => nat2_level _ _ 15 _ _ rfl (by norm_num) p j hp hj)
  refine conc_step _ 3 8 7 rfl rfl _ _ ?_ (fun j hj => nat2_level _ _ 7 _ _ rfl (by norm_num) p j hp hj)
  refine conc_step _ 2 4 3 rfl rfl _ _ ?_ (fun j hj => nat2_level _ _ 3 _ _ rfl (by norm_num) p j hp hj)
  refine conc_step _ 1 2 1 rfl rfl _ _ ?_ (fun j hj => nat2_level _ _ 1 _ _ rfl (by norm_num) p j hp hj)
  refine conc_step _ 0 1 0 rfl rfl _ _ ?_ (fun j hj => nat2_level _ _ 0 _ _ rfl (by norm_num) p j hp hj)
  intro j hj
  rw [nat2_one_splat p j hp hj]
  rfl

/-- The whole body at (p, q): the leaf sum of the two-halves layout. -/
theorem body_apply (p q : ℕ) (hp : p < 512) (hq : q < 128) :
    nat2 (k0_pay1 (F := Ideal) (k0_pay2 x0 x1 x2) (k0_pay3 x0 x1 x2) (k0_pay4 x0 x1 x2) (k0_pay5 x0 x1 x2) x3) p q
      = ∑ l : Fin 1024, conc one (fun n => nat2 (k0_pay2 (F := Ideal) x0 x1 x2) p n) 10 l.val * nat2 x3 l.val q := by
  unfold k0_pay1
  refine (nat2_matmul 512 1024 128 none _ _ p q hp hq).trans ?_
  refine Finset.sum_congr rfl fun l hl => ?_
  clear hl
  rw [nat2_truncf, nat2_shapeCast_self]
  refine congrArg (· * nat2 x3 l.val q) ?_
  obtain ⟨j, hj⟩ := l
  show nat2 _ p j = conc one _ 10 j
  revert j
  refine conc_step _ 9 512 511 rfl rfl _ _ ?_ (fun j hj => nat2_level _ _ 511 _ _ rfl (by norm_num) p j hp hj)
  refine conc_step _ 8 256 255 rfl rfl _ _ ?_ (fun j hj => nat2_level _ _ 255 _ _ rfl (by norm_num) p j hp hj)
  refine conc_step _ 7 128 127 rfl rfl _ _ ?_ (fun j hj => nat2_level _ _ 127 _ _ rfl (by norm_num) p j hp hj)
  refine conc_step _ 6 64 63 rfl rfl _ _ ?_ (fun j hj => nat2_level _ _ 63 _ _ rfl (by norm_num) p j hp hj)
  show ∀ j, j < 64 → nat2 (concatenate S512x64 1
      [⟨S512x32, mulf (k0_pay3 x0 x1 x2) (subf (broadcast S512x32 (Scalar.ofBits (F := Ideal) .f32 0x3F800000#32))
          (extractStridedSlice S512x32 ![0, 31] (k0_pay2 x0 x1 x2) Facts₀.slices_S512x1024_o0_31_S512x32))⟩,
       ⟨S512x32, mulf (k0_pay3 x0 x1 x2) (extractStridedSlice S512x32 ![0, 31] (k0_pay2 x0 x1 x2) Facts₀.slices_S512x1024_o0_31_S512x32)⟩]
      Facts₀.concatenates_S512x32_S512x32_S512x64_d1) p j = conc one (fun n => nat2 (k0_pay2 (F := Ideal) x0 x1 x2) p n) 6 j
  refine conc_step _ 5 32 31 rfl rfl _ _ ?_ (fun j hj => nat2_level _ _ 31 _ _ rfl (by norm_num) p j hp hj)
  exact pay3_apply x0 x1 x2 p hp

end Cert.KernelIdeal.Body

end
-- ==== Proof.KernelValue.lean ====
/-
  The kernel's output array after the run, as one function of the four arrays the region reads.

  Grid point t works on rows 512 t … 512 t + 511: it reads that row block of x, the whole weight matrix, bias row and
  leaf table, and writes the same row block of the [8192, 128] output.  Row (512 t + p) of the output is therefore
  the body's row p of that block, and the sixteen blocks tile the array.
-/
import proofs.«141256_j2430951489980_2_alg».proof.Proof.Gen.KernelIdeal.Frame
import proofs.«141256_j2430951489980_2_alg».proof.Proof.KernelBody
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region

open Idealize.ShloMosaic.ValueIdx Cert.LibNat2 Cert.SoftTree Cert.KernelIdeal Cert.KernelIdeal.Gen Cert.KernelIdeal.Body

variable (m : (ℓ : Loc nD τ sig) → Buf (Elt Ideal) ℓ) (ρ : Dev nD → PrngReg)

theorem hz : (![0, 0] : Fin 2 → Nat) = fun _ => 0 := funext fun a => by fin_cases a <;> rfl

/-- The node weights of row r from the arrays the region reads: x, the weights (one column per node), the bias row. -/
def rowProb (X0 : S8192x2048.Idx → EReal) (X1 : S2048x1024.Idx → EReal) (X2 : S1x1024.Idx → EReal) (r n : ℕ) : EReal :=
  Ideal.logistic ((∑ k : Fin 2048, nat2 X0 r k.val * nat2 X1 k.val n) + nat2 X2 0 n)

/-- The region's output array: at (r, j) the leaf sum of row r in the two-halves layout. -/
def regionOut (X0 : S8192x2048.Idx → EReal) (X1 : S2048x1024.Idx → EReal) (X2 : S1x1024.Idx → EReal)
    (X3 : S1024x128.Idx → EReal) : S8192x128.Idx → EReal :=
  fun i => ∑ l : Fin 1024, conc one (rowProb X0 X1 X2 (i 0).val) 10 l.val * nat2 X3 l.val (i 1).val

/-- The printed index maps over the grid: the row windows sit at block t, the resident windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 16 := lt_of_lt_of_eq t.isLt N_0

/-- The x window's block at point t is rows 512 t … of x. -/
theorem iblk0_apply (c : Dev nD) (t : Fin cfg0.N) (p k : ℕ) (hp : p < 512) (hk : k < 2048) :
    nat2 (a := 512) (b := 2048) (iblk m c 0 t) p k = nat2 (a := 8192) (b := 2048) (V m c main_arg0) (512 * t.val + p) k := by
  have ht := t_lt t
  obtain ⟨e0, e1, -⟩ := idx_facts t
  rw [nat2_of_lt _ _ _ hp hk, nat2_of_lt _ _ _ (show 512 * t.val + p < 8192 by omega) hk]
  show V m c main_arg0 (((cfg0.win 0).blk t).view.emb (ix2 ⟨p, hp⟩ ⟨k, hk⟩)) = V m c main_arg0 _
  congr 1
  funext a; apply Fin.ext
  match a with
  | ⟨0, _⟩ => show win0_0.index t (0 : Fin 2) * 512 + 1 * p = 512 * t.val + p; omega
  | ⟨1, _⟩ => show win0_0.index t (1 : Fin 2) * 2048 + 1 * k = k; omega

/-- The weight window's block is the whole weight matrix. -/
theorem iblk1_apply (c : Dev nD) (t : Fin cfg0.N) (k n : ℕ) (hk : k < 2048) (hn : n < 1024) :
    nat2 (a := 2048) (b := 1024) (iblk m c 1 t) k n = nat2 (a := 2048) (b := 1024) (V m c main_v5) k n := by
  obtain ⟨-, -, e0, e1, -⟩ := idx_facts t
  rw [nat2_of_lt _ _ _ hk hn, nat2_of_lt _ _ _ hk hn]
  show V m c main_v5 (((cfg0.win 1).blk t).view.emb (ix2 ⟨k, hk⟩ ⟨n, hn⟩)) = V m c main_v5 _
  congr 1
  funext a; apply Fin.ext
  match a with
  | ⟨0, _⟩ => show win0_1.index t (0 : Fin 2) * 2048 + 1 * k = k; omega
  | ⟨1, _⟩ => show win0_1.index t (1 : Fin 2) * 1024 + 1 * n = n; omega

/-- The bias window's block is the whole bias row. -/
theorem iblk2_apply (c : Dev nD) (t : Fin cfg0.N) (n : ℕ) (hn : n < 1024) :
    nat2 (a := 1) (b := 1024) (iblk m c 2 t) 0 n = nat2 (a := 1) (b := 1024) (V m c main_v6) 0 n := by
  obtain ⟨-, -, -, -, e0, e1, -⟩ := idx_facts t
  rw [nat2_of_lt _ _ _ Nat.one_pos hn, nat2_of_lt _ _ _ Nat.one_pos hn]
  show V m c main_v6 (((cfg0.win 2).blk t).view.emb (ix2 ⟨0, Nat.one_pos⟩ ⟨n, hn⟩)) = V m c main_v6 _
  congr 1
  funext a; apply Fin.ext
  match a with
  | ⟨0, _⟩ => show win0_2.index t (0 : Fin 2) * 1 + 1 * 0 = 0; omega
  | ⟨1, _⟩ => show win0_2.index t (1 : Fin 2) * 1024 + 1 * n = n; omega

/-- The leaf table window's block is the whole table. -/
theorem iblk3_apply (c : Dev nD) (t : Fin cfg0.N) (l q : ℕ) (hl : l < 1024) (hq : q < 128) :
    nat2 (a := 1024) (b := 128) (iblk m c 3 t) l q = nat2 (a := 1024) (b := 128) (V m c main_v9) l q := by
  obtain ⟨-, -, -, -, -, -, e0, e1, -⟩ := idx_facts t
  rw [nat2_of_lt _ _ _ hl hq, nat2_of_lt _ _ _ hl hq]
  show V m c main_v9 (((cfg0.win 3).blk t).view.emb (ix2 ⟨l, hl⟩ ⟨q, hq⟩)) = V m c main_v9 _
  congr 1
  funext a; apply Fin.ext
  match a with
  | ⟨0, _⟩ => show win0_3.index t (0 : Fin 2) * 1024 + 1 * l = l; omega
  | ⟨1, _⟩ => show win0_3.index t (1 : Fin 2) * 128 + 1 * q = q; omega

/-- What point t writes back is block t of regionOut of the arrays as the region finds them. -/
theorem flushed4_eq (c : Dev nD) (t : Fin cfg0.N) :
    (dats m 0 c).flushed 4 t = ((cfg0.win 4).blk t).view.read (Elt Ideal)
      (regionOut (V m c main_arg0) (V m c main_v5) (V m c main_v6) (V m c main_v9)) := by
  show (cfg0.win 4).cut (grid0.coords t) ((dats m 0 c).after 4 t) = _
  rw [after0_4]
  unfold out0_4
  rw [View.canon_unit_zero hz]
  simp only [View.ld_unit_zero (S := S512x2048) hz, View.ld_unit_zero (S := S2048x1024) hz,
    View.ld_unit_zero (S := S1x1024) hz, View.ld_unit_zero (S := S1024x128) hz]
  have ht := t_lt t
  obtain ⟨-, -, -, -, -, -, -, -, e0, e1⟩ := idx_facts t
  refine funext fun (y : S512x128.Idx) => ?_
  have hy0 : (y 0).val < 512 := (y 0).isLt
  have hy1 : (y 1).val < 128 := (y 1).isLt
  refine ((congrArg _ (eq_ix2 y)).trans (nat2_eq (a := 512) (b := 128) _ (y 0) (y 1)).symm).trans ?_
  refine (body_apply (iblk m c 0 t) (iblk m c 1 t) (iblk m c 2 t) (iblk m c 3 t) (y 0).val (y 1).val hy0 hy1).trans ?_
  show _ = regionOut (V m c main_arg0) (V m c main_v5) (V m c main_v6) (V m c main_v9) (((cfg0.win 4).blk t).view.emb y)
  have hr : ((((cfg0.win 4).blk t).view.emb y) 0).val = 512 * t.val + (y 0).val := by
    show win0_4.index t (0 : Fin 2) * 512 + 1 * (y 0).val = _; omega
  have hq : ((((cfg0.win 4).blk t).view.emb y) 1).val = (y 1).val := by
    show win0_4.index t (1 : Fin 2) * 128 + 1 * (y 1).val = _; omega
  unfold regionOut
  rw [hr, hq]
  refine Finset.sum_congr rfl fun l _ => ?_
  rw [iblk3_apply m c t l.val (y 1).val l.isLt hy1]
  refine congrArg (· * _) ?_
  refine conc_congr one _ _ 10 (fun n hn => ?_) l.val l.isLt
  have hn' : n < 1024 := by omega
  rw [pay2_apply _ _ _ (y 0).val n hy0 hn', iblk2_apply m c t n hn']
  unfold rowProb
  refine congrArg (fun s => Ideal.logistic (s + _)) ?_
  refine Finset.sum_congr rfl fun k _ => ?_
  rw [iblk0_apply m c t (y 0).val k.val hy0 k.isLt, iblk1_apply m c t k.val n k.isLt hn']

/-- The sixteen row blocks tile the output array. -/
theorem cover4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  let t : Fin cfg0.N := ⟨(i 0).val / 512, by rw [show cfg0.N = 16 from N_0]; omega⟩
  obtain ⟨-, -, -, -, -, -, -, -, e0, e1⟩ := idx_facts t
  have e0' : win0_4.index t (0 : Fin 2) = (i 0).val / 512 := e0
  refine ⟨t, flush0_4 t, ?_⟩
  show i ∈ ((View.whole main_v10).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- The output array after the run. -/
theorem final4 (c : Dev nD) : (dats m 0 c).arrAt 4 cfg0.N
    = regionOut (V m c main_arg0) (V m c main_v5) (V m c main_v6) (V m c main_v9) :=
  (dats m 0 c).arrAt_eq_of_cover 4 _ (fun t _ => flushed4_eq m c t) (cover4)

end Cert.KernelIdeal.Region

end
-- ==== Proof.Tables.lean ====
/-
  The two index tables of the kernel's host program, as arithmetic.

  The program reorders the tree's nodes and leaves by two constant tables of 32-bit words.  Read as numbers:
  * the node table sends position 2^k - 1 + i of level k (i < 2^k, k < 10) to 2^k - 1 + rev k i: inside each level the
    nodes are permuted by the reversal of the level's k bits;
  * the leaf table sends l < 1024 to rev 10 l;
  and reversing ten bits twice gives back the number.  Each is a finite statement about literal words, settled by
  evaluating both sides at every position.
-/
import proofs.«141256_j2430951489980_2_alg».proof.KernelIdeal
import proofs.«141256_j2430951489980_2_alg».proof.Proof.Tree

namespace Cert.KernelIdeal.Tables

open Cert.SoftTree Cert.KernelIdeal

/-- Every entry of the node table is a node number. -/
theorem node_lt : ∀ n, n < 1023 → (lit0t n).toNat < 1023 := by decide +kernel

/-- Level by level the node table reverses the position's bits. -/
theorem node_rev : ∀ k, k < 10 → ∀ i, i < 2 ^ k → (lit0t (2 ^ k - 1 + i)).toNat = 2 ^ k - 1 + rev k i := by
  decide +kernel

/-- The leaf table reverses the ten bits of the position. -/
theorem leaf_rev : ∀ l, l < 1024 → (lit1t l).toNat = rev 10 l := by decide +kernel

/-- Every entry of the leaf table is a leaf number. -/
theorem leaf_lt (l : ℕ) (hl : l < 1024) : (lit1t l).toNat < 1024 := by
  rw [leaf_rev l hl]; exact rev_lt 10 l hl

/-- Reversing ten bits twice is the identity. -/
theorem rev_rev : ∀ l, l < 1024 → rev 10 (rev 10 l) = l := by decide +kernel

end Cert.KernelIdeal.Tables
-- ==== Proof.Bridge.lean ====
/-
  From the region's output to the common specification.

  The arrays the region reads are the arguments reordered by the two tables: column n of the weight matrix is row
  table0(n) of W, the bias row at n is b at table0(n), row l of the leaf table is row table1(l) of phi.  With the tables
  read as bit reversals (Tables.lean) the region's leaf sum in the two-halves layout is the heap layout's leaf sum
  (Tree.lean): the specification.
-/
import proofs.«141256_j2430951489980_2_alg».proof.Proof.KernelValue
import proofs.«141256_j2430951489980_2_alg».proof.Proof.Tables

noncomputable section

namespace Cert.KernelIdeal.Region

open Idealize.ShloMosaic Idealize.ShloMosaic.ValueIdx Cert.LibNat2 Cert.SoftTree Cert.KernelIdeal Cert.KernelIdeal.Tables

theorem regionOut_eq_treeOut (X0 : S8192x2048.Idx → EReal) (X1 : S2048x1024.Idx → EReal) (X2 : S1x1024.Idx → EReal)
    (X3 : S1024x128.Idx → EReal) (W : S1023x2048.Idx → EReal) (b : S1023.Idx → EReal) (phi : S1024x24.Idx → EReal)
    (h1 : ∀ k n, k < 2048 → n < 1023 → nat2 X1 k n = nat2 W (lit0t n).toNat k)
    (h2 : ∀ n, n < 1023 → nat2 X2 0 n = nat1 b (lit0t n).toNat)
    (h3 : ∀ l j, l < 1024 → j < 24 → nat2 X3 l j = nat2 phi (lit1t l).toNat j)
    (r j : ℕ) (hj : j < 24) (i : S8192x128.Idx) (hi0 : (i 0).val = r) (hi1 : (i 1).val = j) :
    regionOut X0 X1 X2 X3 i = treeOut X0 W b phi r j := by
  unfold regionOut treeOut
  rw [hi0, hi1]
  have hq : ∀ n, n < 2 ^ 10 - 1 → rowProb X0 X1 X2 r n = nodeProb X0 W b r ((fun n => (lit0t n).toNat) n) := by
    intro n hn
    have hn' : n < 1023 := by norm_num at hn; exact hn
    unfold rowProb nodeProb
    rw [h2 n hn']
    refine congrArg (fun s => Ideal.logistic (s + _)) ?_
    refine Finset.sum_congr rfl fun k _ => ?_
    rw [h1 k.val n k.isLt hn']
  have key := sum_conc_eq_sum_heap one 10 1024 (by norm_num) (nodeProb X0 W b r) (rowProb X0 X1 X2 r)
    (fun n => (lit0t n).toNat) hq (fun k hk i hi => node_rev k hk i hi) rev_rev (fun l => nat2 phi l j)
  refine (Finset.sum_congr rfl fun l _ => ?_).trans key
  rw [h3 l.val j l.isLt hj, leaf_rev l.val l.isLt]

end Cert.KernelIdeal.Region

end
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibGatherColumn.lean ====
/-
  Looking entries of a flat array up at a column of indices, read at one position.

  `x[idx]` for a flat array `x : [N]` and an integer vector `idx : [R]` is lowered to a gather whose start indices are the
  vector written as a column `[R, 1]` (the index vector lies along axis 1), with the operand's one axis collapsed and a
  slice of one entry. Result entry `t` is `x` at the start index `idx[t, 0]`, read as a signed integer and clamped
  into `[0, N - 1]`, as the gather clamps every start index. This is the rank-1 companion of the library's reading of a
  gather at a rank-2 array of start indices (`ValueIdx.gather_take_apply`), proved the same way.
-/
import Idealize.ShloMosaic.Lib.ValueIdx

noncomputable section

namespace Cert.LibGatherColumn

open Idealize.ShloMosaic Idealize.ShloMosaic.ValueIdx

variable {α : Type}

/-- The dimension numbers of that gather for an operand `[N]`, start indices `[R, 1]` and a result `[R]`. -/
abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices position `[t, 0]` of result position `t`. -/
abbrev colIdx {R : Nat} (y : (⟨1, ![R]⟩ : Shape).Idx) : (⟨2, ![R, 1]⟩ : Shape).Idx :=
  fun a => match a with | ⟨0, _⟩ => ⟨(y 0).val, (y 0).isLt⟩ | ⟨1, _⟩ => ⟨0, Nat.one_pos⟩

/-- The gather read at `t`: the operand at the start index `idx[t, 0]`, read signed and clamped into `[0, N - 1]`. -/
theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (colDims N R wf) x idx y = x (ix1 ⟨min (idx (colIdx y)).toInt.toNat (N - 1), by omega⟩) := by
  unfold Host.gather
  congr 1
  funext a
  obtain rfl : a = 0 := Subsingleton.elim _ _
  refine Fin.ext ?_
  show (colDims N R wf).start y idx 0 + (colDims N R wf).batchCoord y 0 + (colDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx y ⟨List.idxOf (0 : Fin 1) (colDims N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

end Cert.LibGatherColumn

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibTake.lean ====
/-
  jnp.take along the leading axis, read at one position.

  take(x, idx) for a table idx of 32-bit words is lowered to: wrap negative indices (w = idx + N where idx < 0, else
  idx), write w as a column, test 0 <= w <= N - 1 on the column and reduce the test by "and" along the column's one
  entry, gather at the column (the gather clamps every start index into [0, N - 1]), and keep the gathered value where
  the test holds, a fill value elsewhere. When every table entry, read unsigned, is below N < 2^31, nothing wraps,
  the test holds everywhere, the clamp does nothing, and the result at position t is x at row idx[t].
-/
import Idealize.ShloMosaic.Lib.ValueIdx
import Idealize.ShloMosaic.Lib.Pipeline.Value
import Idealize.ShloMosaic.Lib.Affine
import Idealize.ShloMosaic.PureOps.Reduce
import proofs.«141256_j2430951489980_2_alg».proof.Proof.LibGatherRows
import proofs.«141256_j2430951489980_2_alg».proof.Proof.LibGatherColumn
import proofs.«141256_j2430951489980_2_alg».proof.Proof.LibHostBroadcast

noncomputable section

namespace Cert.LibTake

open Idealize.ShloMosaic Idealize.ShloMosaic.ValueIdx

/-- A 32-bit word below 2^31 read signed is the word read unsigned. -/
theorem toInt_of_lt {x : BitVec 32} (h : x.toNat < 2 ^ 31) : x.toInt = (x.toNat : Int) := by
  rw [BitVec.toInt_eq_toNat_cond]
  split
  · rfl
  · omega

/-- The word of a number below 2^31 read signed is the number. -/
theorem toInt_ofNat_of_lt {n : Nat} (h : n < 2 ^ 31) : (BitVec.ofNat 32 n).toInt = (n : Int) := by
  have e : (BitVec.ofNat 32 n).toNat = n := by
    rw [BitVec.toNat_ofNat]; exact Nat.mod_eq_of_lt (by omega)
  rw [toInt_of_lt (by rw [e]; exact h), e]

/-- Wrapping negative indices leaves a word below 2^31 as it is. -/
theorem wrap_apply {s : Shape} (tbl z nn : IVec s 32) (i : s.Idx) (hz : z i = 0#32) (ht : (tbl i).toNat < 2 ^ 31) :
    select (cmpi .slt tbl z) (addi tbl nn) tbl i = tbl i := by
  show Scalar.select (IntOp.cmpi .slt (tbl i) (z i)) (IntOp.addi (tbl i) (nn i)) (tbl i) = tbl i
  have h0 : IntOp.cmpi .slt (tbl i) (z i) = 0#1 := by
    refine eq_zero_of_ne_one fun h => ?_
    have h1 := IntOp.cmpi_slt.1 h
    rw [hz, toInt_of_lt ht] at h1
    have : (0#32).toInt = 0 := by decide
    omega
  rw [h0, select_zero]

/-- The range test 0 <= w <= N - 1 holds at a word below N. -/
theorem inRange_apply {s : Shape} (N : Nat) (hN : N < 2 ^ 31) (w lo hi : IVec s 32) (i : s.Idx) (hlo : lo i = 0#32)
    (hhi : hi i = BitVec.ofNat 32 (N - 1)) (hw : (w i).toNat < N) :
    andi (cmpi .sge w lo) (cmpi .sle w hi) i = 1#1 := by
  show IntOp.andi (IntOp.cmpi .sge (w i) (lo i)) (IntOp.cmpi .sle (w i) (hi i)) = 1#1
  rw [hlo, hhi]
  have hw' : (w i).toInt = ((w i).toNat : Int) := toInt_of_lt (by omega)
  refine IntOp.andi_eq_one.2 ⟨IntOp.cmpi_sge.2 ?_, IntOp.cmpi_sle.2 ?_⟩
  · rw [hw']
    have : (0#32).toInt = 0 := by decide
    omega
  · rw [hw', toInt_ofNat_of_lt (by omega)]
    omega

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by "and" from 1 of an array of ones is 1 at every position. -/
theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_ones x hx _

section Take
variable {α : Type}

open Cert.LibGatherRows Cert.LibGatherColumn Cert.LibHostBroadcast

/-- The wrapped table written as a column reads the table's word. -/
theorem wrapCol_apply {R : ℕ} (tbl z nn : IVec ⟨1, ![R]⟩ 32) (hz : ∀ i, z i = 0#32) (ht : ∀ i, (tbl i).toNat < 2 ^ 31)
    (hcol : (⟨1, ![R]⟩ : Shape).BroadcastsInDim ⟨2, ![R, 1]⟩ (![0] : Fin 1 → Fin 2)) (i : (⟨2, ![R, 1]⟩ : Shape).Idx) :
    broadcastInDim ⟨2, ![R, 1]⟩ ![0] hcol (select (cmpi .slt tbl z) (addi tbl nn) tbl) i = tbl (ix1 (i 0)) := by
  obtain ⟨p, q, rfl⟩ : ∃ p q, i = ix2 p q := ⟨i 0, i 1, eq_ix2 i⟩
  exact (vec_to_col _ hcol p q).trans (wrap_apply tbl z nn (ix1 p) (hz _) (ht _))

/-- The range test of the wrapped column, reduced along the column's one entry, holds at every position. -/
theorem mask_apply {R N : ℕ} (hN31 : N < 2 ^ 31) (tbl z nn : IVec ⟨1, ![R]⟩ 32) (lo hi : IVec ⟨2, ![R, 1]⟩ 32)
    {u : Shape} (one : IVec u 1) (hz : ∀ i, z i = 0#32) (hlo : ∀ i, lo i = 0#32)
    (hhi : ∀ i, hi i = BitVec.ofNat 32 (N - 1)) (hone : ∀ i, one i = 1#1) (htbl : ∀ i, (tbl i).toNat < N)
    (hcol : (⟨1, ![R]⟩ : Shape).BroadcastsInDim ⟨2, ![R, 1]⟩ (![0] : Fin 1 → Fin 2))
    (hred : (⟨2, ![R, 1]⟩ : Shape).ReducesTo [1] ⟨1, ![R]⟩) (hu : 0 < u.numel) (j : (⟨1, ![R]⟩ : Shape).Idx) :
    Host.reduce IntOp.andi
      (andi (cmpi .sge (broadcastInDim ⟨2, ![R, 1]⟩ ![0] hcol (select (cmpi .slt tbl z) (addi tbl nn) tbl)) lo)
        (cmpi .sle (broadcastInDim ⟨2, ![R, 1]⟩ ![0] hcol (select (cmpi .slt tbl z) (addi tbl nn) tbl)) hi))
      one hred hu j = 1#1 :=
  reduce_andi_ones _ one hred hu hone (fun i => inRange_apply N hN31 _ lo hi i (hlo i) (hhi i) (by
    rw [wrapCol_apply tbl z nn hz (fun i => by have := htbl i; omega) hcol i]; exact htbl _)) j

/-- jnp.take of whole rows of an [N, D] matrix at a table of R words all below N: position (t, j) holds the matrix's
    entry (table[t], j). -/
theorem take_rows_apply {N D R : ℕ} (hN : 0 < N) (hN31 : N < 2 ^ 31)
    (x : (⟨2, ![N, D]⟩ : Shape).Idx → α) (fill : (⟨2, ![R, D]⟩ : Shape).Idx → α)
    (tbl z nn : IVec ⟨1, ![R]⟩ 32) (lo hi : IVec ⟨2, ![R, 1]⟩ 32) {u : Shape} (one : IVec u 1)
    (hz : ∀ i, z i = 0#32) (hlo : ∀ i, lo i = 0#32) (hhi : ∀ i, hi i = BitVec.ofNat 32 (N - 1))
    (hone : ∀ i, one i = 1#1) (htbl : ∀ i, (tbl i).toNat < N)
    (hcol : (⟨1, ![R]⟩ : Shape).BroadcastsInDim ⟨2, ![R, 1]⟩ (![0] : Fin 1 → Fin 2))
    (hred : (⟨2, ![R, 1]⟩ : Shape).ReducesTo [1] ⟨1, ![R]⟩) (hu : 0 < u.numel)
    (hmask : (⟨1, ![R]⟩ : Shape).BroadcastsInDim ⟨2, ![R, D]⟩ (![0] : Fin 1 → Fin 2))
    (wf : GatherDims.WF ⟨2, ![N, D]⟩ ⟨2, ![R, 1]⟩ ⟨2, ![R, D]⟩ [1] [0] [] [0] [] 1 ![1, D])
    (t : Fin R) (j : Fin D) (r : ℕ) (hr : r < N) (htr : (tbl (ix1 t)).toNat = r) :
    select
      (broadcastInDim ⟨2, ![R, D]⟩ ![0] hmask
        (Host.reduce IntOp.andi
          (andi (cmpi .sge (broadcastInDim ⟨2, ![R, 1]⟩ ![0] hcol (select (cmpi .slt tbl z) (addi tbl nn) tbl)) lo)
            (cmpi .sle (broadcastInDim ⟨2, ![R, 1]⟩ ![0] hcol (select (cmpi .slt tbl z) (addi tbl nn) tbl)) hi))
          one hred hu))
      (Host.gather (rowDims N D R wf) x (broadcastInDim ⟨2, ![R, 1]⟩ ![0] hcol (select (cmpi .slt tbl z) (addi tbl nn) tbl)))
      fill (ix2 t j) = x (ix2 ⟨r, hr⟩ j) := by
  rw [select_apply]
  have hm : broadcastInDim ⟨2, ![R, D]⟩ ![0] hmask
      (Host.reduce IntOp.andi
        (andi (cmpi .sge (broadcastInDim ⟨2, ![R, 1]⟩ ![0] hcol (select (cmpi .slt tbl z) (addi tbl nn) tbl)) lo)
          (cmpi .sle (broadcastInDim ⟨2, ![R, 1]⟩ ![0] hcol (select (cmpi .slt tbl z) (addi tbl nn) tbl)) hi))
        one hred hu) (ix2 t j) = 1#1 := by
    unfold broadcastInDim
    exact mask_apply hN31 tbl z nn lo hi one hz hlo hhi hone htbl hcol hred hu _
  rw [hm, select_one, gather_rows_apply hN wf x _ (ix2 t j)]
  have hw : (broadcastInDim ⟨2, ![R, 1]⟩ ![0] hcol (select (cmpi .slt tbl z) (addi tbl nn) tbl) (rowIdx (ix2 t j))) = tbl (ix1 t) :=
    wrapCol_apply tbl z nn hz (fun i => by have := htbl i; omega) hcol _
  refine congrArg x ?_
  funext a
  refine Fin.ext ?_
  match a with
  | ⟨0, _⟩ =>
    show min (broadcastInDim ⟨2, ![R, 1]⟩ ![0] hcol (select (cmpi .slt tbl z) (addi tbl nn) tbl) (rowIdx (ix2 t j))).toInt.toNat (N - 1) = r
    rw [hw, toInt_of_lt (by have := htbl (ix1 t); omega), Int.toNat_natCast, htr]
    omega
  | ⟨1, _⟩ => rfl

/-- jnp.take of entries of a flat [N] array at a table of R words all below N: position t holds the array's entry
    table[t]. -/
theorem take_flat_apply {N R : ℕ} (hN : 0 < N) (hN31 : N < 2 ^ 31)
    (x : (⟨1, ![N]⟩ : Shape).Idx → α) (fill : (⟨1, ![R]⟩ : Shape).Idx → α)
    (tbl z nn : IVec ⟨1, ![R]⟩ 32) (lo hi : IVec ⟨2, ![R, 1]⟩ 32) {u : Shape} (one : IVec u 1)
    (hz : ∀ i, z i = 0#32) (hlo : ∀ i, lo i = 0#32) (hhi : ∀ i, hi i = BitVec.ofNat 32 (N - 1))
    (hone : ∀ i, one i = 1#1) (htbl : ∀ i, (tbl i).toNat < N)
    (hcol : (⟨1, ![R]⟩ : Shape).BroadcastsInDim ⟨2, ![R, 1]⟩ (![0] : Fin 1 → Fin 2))
    (hred : (⟨2, ![R, 1]⟩ : Shape).ReducesTo [1] ⟨1, ![R]⟩) (hu : 0 < u.numel)
    (wf : GatherDims.WF ⟨1, ![N]⟩ ⟨2, ![R, 1]⟩ ⟨1, ![R]⟩ [] [0] [] [0] [] 1 ![1])
    (t : Fin R) (r : ℕ) (hr : r < N) (htr : (tbl (ix1 t)).toNat = r) :
    select
      (Host.reduce IntOp.andi
        (andi (cmpi .sge (broadcastInDim ⟨2, ![R, 1]⟩ ![0] hcol (select (cmpi .slt tbl z) (addi tbl nn) tbl)) lo)
          (cmpi .sle (broadcastInDim ⟨2, ![R, 1]⟩ ![0] hcol (select (cmpi .slt tbl z) (addi tbl nn) tbl)) hi))
        one hred hu)
      (Host.gather (colDims N R wf) x (broadcastInDim ⟨2, ![R, 1]⟩ ![0] hcol (select (cmpi .slt tbl z) (addi tbl nn) tbl)))
      fill (ix1 t) = x (ix1 ⟨r, hr⟩) := by
  rw [select_apply, mask_apply hN31 tbl z nn lo hi one hz hlo hhi hone htbl hcol hred hu, select_one,
    gather_col_apply hN wf x _ (ix1 t)]
  have hw : (broadcastInDim ⟨2, ![R, 1]⟩ ![0] hcol (select (cmpi .slt tbl z) (addi tbl nn) tbl) (colIdx (ix1 t))) = tbl (ix1 t) :=
    wrapCol_apply tbl z nn hz (fun i => by have := htbl i; omega) hcol _
  refine congrArg x ?_
  funext a
  refine Fin.ext ?_
  match a with
  | ⟨0, _⟩ =>
    show min (broadcastInDim ⟨2, ![R, 1]⟩ ![0] hcol (select (cmpi .slt tbl z) (addi tbl nn) tbl) (colIdx (ix1 t))).toInt.toNat (N - 1) = r
    rw [hw, toInt_of_lt (by have := htbl (ix1 t); omega), Int.toNat_natCast, htr]
    omega

end Take

end Cert.LibTake

end
-- ==== Proof.LibTypedRefs.lean ====
/-
  Typed references of a host program: carrying contents to a buffer's own type and back.

  An outlined function's body names its values by typed references; an operation built over them carries each
  operand from its buffer's type to the value's type and the result back, by a transport along the equation "the
  buffer's type is the value's type". Composed term after composed term these transports come in pairs, back and
  forth along one equation:
  * ofBuf_toBuf: contents carried to the buffer's type and back are the contents;
  * toBuf_ofBuf: and the other way round.
  Both hold for every reference, whatever its equation's proof: no type is computed. Rewriting with them leaves a
  composed term with transports only at its leaves and at its top.
-/
import Idealize.ShloMosaic.Lib.StableHlo

noncomputable section

namespace Cert.LibTypedRefs

open Idealize.ShloMosaic Idealize.ShloMosaic.StableHlo

variable {sig : RefSig} {Val : EltTy → Type} {T : BufTy}

/-- Contents carried to a buffer's type and back are the contents. -/
theorem ofBuf_toBuf (x : TRef sig T) (v : T.Contents Val) : x.ofBuf (x.toBuf v) = v := by
  show cast _ (cast _ v) = v
  rw [cast_cast, cast_eq]

/-- A buffer's contents carried to the value's type and back are the buffer's contents. -/
theorem toBuf_ofBuf (x : TRef sig T) (v : x.ref.ty.Contents Val) : x.toBuf (x.ofBuf v) = v := by
  show cast _ (cast _ v) = v
  rw [cast_cast, cast_eq]

end Cert.LibTypedRefs

end
-- ==== Proof.HostPrefix.lean ====
/-
  The arrays the kernel's one region reads, as the host operations before it leave them.

  Before the region the host permutes the node weights and biases by a fixed table (a take along the leading axis),
  pads one zero node, transposes the weights and writes the biases as a row; it permutes the leaf table by a second
  fixed table and pads its columns to 128. Each array is read here at natural-number coordinates in terms of the
  launched arguments and the tables' words: inside the unpadded part nothing but the permutation remains. The tables'
  words are assumed in range (every entry, read unsigned, below the number of rows it indexes); that is a fact about
  the two literal tables, proved by evaluation elsewhere.
-/
import proofs.«141256_j2430951489980_2_alg».proof.Proof.Gen.KernelIdeal.Frame
import proofs.«141256_j2430951489980_2_alg».proof.Proof.Spec
import proofs.«141256_j2430951489980_2_alg».proof.Proof.LibTake
import proofs.«141256_j2430951489980_2_alg».proof.Proof.LibTypedRefs
import Idealize.ShloMosaic.Lib.KernelVsHost
import Idealize.ShloMosaic.Lib.Pipeline.Value
import Idealize.ShloMosaic.Lib.ValueIdx

set_option maxRecDepth 16384

noncomputable section

namespace Cert.KernelIdeal.HostPrefix

open Idealize.ShloMosaic Idealize.ShloMosaic.TcCoe Idealize.ShloMosaic.Tactic
open Idealize.ShloMosaic.StableHlo Idealize.ShloMosaic.ValueIdx
open Cert.KernelIdeal Cert.LibNat2 Cert.SoftTree Cert.LibTake

variable (m : (ℓ : Loc nD τ sig) → Buf (Elt Ideal) ℓ) (c : Dev nD)

/-- The reshaped, padded, permuted bias row: entry n of the [1, 1024] row is the bias of node table0[n]. -/
theorem v6_apply (hT0 : ∀ n, n < 1023 → (lit0t n).toNat < 1023) (n : ℕ) (hn : n < 1023) :
    nat2 (Gen.V m c main_v6 : S1x1024.Idx → EReal) 0 n
      = nat1 (m ((c : Thread nD τ).loc main_arg2) : S1023.Idx → EReal) (lit0t n).toNat := by
  rw [nat2_of_lt _ 0 n Nat.one_pos (show n < 1024 by omega), nat1_of_lt _ _ (hT0 n hn)]
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, List.flatten_cons, List.flatten_nil, List.append_nil, List.cons_append, List.nil_append]
  after_results_simp
  simp only [Cert.LibTypedRefs.ofBuf_toBuf, Cert.LibTypedRefs.toBuf_ofBuf]
  refine (shapeCast_apply (s := S1024) (t := S1x1024) _ Gen.shapeCasts_S1024_S1x1024 (ix2 ⟨0, Nat.one_pos⟩ ⟨n, by omega⟩) (ix1 ⟨n, by omega⟩) ?_).trans ?_
  · rw [Shape.rowMajor_val_one, Shape.rowMajor_val_two]
    show n = 0 * 1024 + n
    omega
  refine (pad_apply_of_inside (s := S1023) (t := S1024) ![0] ![1] ![0] _ _ Gen.pads_S1023_S1024_010 Gen.h_S_ (ix1 ⟨n, by omega⟩) (ix1 ⟨n, hn⟩) ?hk).trans ?_
  case hk =>
    intro a
    match a with
    | ⟨0, _⟩ => show n = 0 + n * (0 + 1); omega
  refine (take_flat_apply (N := 1023) (R := 1023) (by decide) (by decide) _ _ _ _ _ _ _ _ ?hz ?hlo ?hhi ?hone ?htbl _ _ _ _
    ⟨n, hn⟩ (lit0t n).toNat (hT0 n hn) ?htr).trans ?_
  case hz => intro i; rfl
  case hlo => intro i; rfl
  case hhi => intro i; rfl
  case hone => intro i; rfl
  case htbl =>
    intro i
    show (lit0t (S1023.rowMajor i).val).toNat < 1023
    rw [Shape.rowMajor_val_one]
    exact hT0 _ (i 0).isLt
  case htr =>
    show (lit0t (S1023.rowMajor (ix1 ⟨n, hn⟩)).val).toNat = _
    rw [Shape.rowMajor_val_one]
  rfl

/-- The transposed, padded, permuted weight matrix: entry (k, n) of the [2048, 1024] array is the weight (table0[n], k). -/
theorem v5_apply (hT0 : ∀ n, n < 1023 → (lit0t n).toNat < 1023) (k n : ℕ) (hk : k < 2048) (hn : n < 1023) :
    nat2 (Gen.V m c main_v5 : S2048x1024.Idx → EReal) k n
      = nat2 (m ((c : Thread nD τ).loc main_arg1) : S1023x2048.Idx → EReal) (lit0t n).toNat k := by
  rw [nat2_of_lt _ k n hk (show n < 1024 by omega), nat2_of_lt _ _ k (hT0 n hn) hk]
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, List.flatten_cons, List.flatten_nil, List.append_nil, List.cons_append, List.nil_append]
  after_results_simp
  simp only [Cert.LibTypedRefs.ofBuf_toBuf, Cert.LibTypedRefs.toBuf_ofBuf]
  refine (truncf_apply (s := S2048x1024) (φ := .f32) (ψ := .bf16) _ Gen.bitsLt_bf16_f32 _).trans ?_
  refine (transpose_apply (s := S1024x2048) (t := S2048x1024) [1, 0] _ Gen.transposes_S1024x2048_S2048x1024_1_0
    (ix2 ⟨k, hk⟩ ⟨n, by omega⟩) (ix2 ⟨n, by omega⟩ ⟨k, hk⟩) ?hperm).trans ?_
  case hperm =>
    intro b
    match b with
    | ⟨0, _⟩ => rfl
    | ⟨1, _⟩ => rfl
  refine (pad_apply_of_inside (s := S1023x2048) (t := S1024x2048) ![0, 0] ![1, 0] ![0, 0] _ _
    Gen.pads_S1023x2048_S1024x2048_010_000 Gen.h_S_ (ix2 ⟨n, by omega⟩ ⟨k, hk⟩) (ix2 ⟨n, hn⟩ ⟨k, hk⟩) ?hpad).trans ?_
  case hpad =>
    intro a
    match a with
    | ⟨0, _⟩ => show n = 0 + n * (0 + 1); omega
    | ⟨1, _⟩ => show k = 0 + k * (0 + 1); omega
  refine (take_rows_apply (N := 1023) (D := 2048) (R := 1023) (by decide) (by decide) _ _ _ _ _ _ _ _ ?hz ?hlo ?hhi ?hone ?htbl
    _ _ _ _ _ ⟨n, hn⟩ ⟨k, hk⟩ (lit0t n).toNat (hT0 n hn) ?htr).trans ?_
  case hz => intro i; rfl
  case hlo => intro i; rfl
  case hhi => intro i; rfl
  case hone => intro i; rfl
  case htbl =>
    intro i
    show (lit0t (S1023.rowMajor i).val).toNat < 1023
    rw [Shape.rowMajor_val_one]
    exact hT0 _ (i 0).isLt
  case htr =>
    show (lit0t (S1023.rowMajor (ix1 ⟨n, hn⟩)).val).toNat = _
    rw [Shape.rowMajor_val_one]
  rfl

/-- The padded, permuted leaf table: entry (l, j) of the [1024, 128] array, j below 24, is the leaf entry (table1[l], j). -/
theorem v9_apply (hT1 : ∀ l, l < 1024 → (lit1t l).toNat < 1024) (l j : ℕ) (hl : l < 1024) (hj : j < 24) :
    nat2 (Gen.V m c main_v9 : S1024x128.Idx → EReal) l j
      = nat2 (m ((c : Thread nD τ).loc main_arg3) : S1024x24.Idx → EReal) (lit1t l).toNat j := by
  rw [nat2_of_lt _ l j hl (show j < 128 by omega), nat2_of_lt _ _ j (hT1 l hl) hj]
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, List.flatten_cons, List.flatten_nil, List.append_nil, List.cons_append, List.nil_append]
  after_results_simp
  simp only [Cert.LibTypedRefs.ofBuf_toBuf, Cert.LibTypedRefs.toBuf_ofBuf]
  refine (truncf_apply (s := S1024x128) (φ := .f32) (ψ := .bf16) _ Gen.bitsLt_bf16_f32 _).trans ?_
  refine (pad_apply_of_inside (s := S1024x24) (t := S1024x128) ![0, 0] ![0, 104] ![0, 0] _ _
    Gen.pads_S1024x24_S1024x128_000_01040 Gen.h_S_ (ix2 ⟨l, hl⟩ ⟨j, by omega⟩) (ix2 ⟨l, hl⟩ ⟨j, hj⟩) ?hpad).trans ?_
  case hpad =>
    intro a
    match a with
    | ⟨0, _⟩ => show l = 0 + l * (0 + 1); omega
    | ⟨1, _⟩ => show j = 0 + j * (0 + 1); omega
  refine (take_rows_apply (N := 1024) (D := 24) (R := 1024) (by decide) (by decide) _ _ _ _ _ _ _ _ ?hz ?hlo ?hhi ?hone ?htbl
    _ _ _ _ _ ⟨l, hl⟩ ⟨j, hj⟩ (lit1t l).toNat (hT1 l hl) ?htr).trans ?_
  case hz => intro i; rfl
  case hlo => intro i; rfl
  case hhi => intro i; rfl
  case hone => intro i; rfl
  case htbl =>
    intro i
    show (lit1t (S1024.rowMajor i).val).toNat < 1024
    rw [Shape.rowMajor_val_one]
    exact hT1 _ (i 0).isLt
  case htr =>
    show (lit1t (S1024.rowMajor (ix1 ⟨l, hl⟩)).val).toNat = _
    rw [Shape.rowMajor_val_one]
  rfl

end Cert.KernelIdeal.HostPrefix

end
-- ==== Proof.KernelRun.lean ====
/-
  The kernel program's run, read: its result is the common specification of the four arguments.

  After the region the host keeps the first 24 of the output's 128 columns.  Column j < 24 of the region's output is the
  leaf sum against column j of the reordered, widened leaf table, which is column j of phi read through the leaf
  table's bit reversal: Bridge.lean turns that into the specification.
-/
import proofs.«141256_j2430951489980_2_alg».proof.Proof.Bridge
import proofs.«141256_j2430951489980_2_alg».proof.Proof.HostPrefix
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Region

open Idealize.ShloMosaic.ValueIdx Cert.LibNat2 Cert.SoftTree Cert.KernelIdeal Cert.KernelIdeal.Gen Cert.KernelIdeal.Tables

variable (m : (ℓ : Loc nD τ sig) → Buf (Elt Ideal) ℓ) (ρ : Dev nD → PrngReg)

/-- The program's result on core c: the specification of the four arguments as launched. -/
def result (c : Dev nD) : S8192x24.Idx → EReal := fun i =>
  treeOut (m ((c : Thread nD τ).loc main_arg0) : S8192x2048.Idx → EReal) (m ((c : Thread nD τ).loc main_arg1) : S1023x2048.Idx → EReal)
    (m ((c : Thread nD τ).loc main_arg2) : S1023.Idx → EReal) (m ((c : Thread nD τ).loc main_arg3) : S1024x24.Idx → EReal) (i 0).val (i 1).val

/-- What the host's last line leaves in the result buffer. -/
theorem tail_eq (c : Dev nD) : Pipeline.afterTail₀ cfgs (dats m) 0 (V0 m) [hostOps1] c main_v11 = result m c := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = regionOut (V m c main_arg0) (V m c main_v5) (V m c main_v6) (V m c main_v9) :=
    (Pipeline.withArrays_arr spec0 launch0.win.arr_inj c _ _ 4).trans (final4 m c)
  rw [e]
  refine funext fun (i : S8192x24.Idx) => ?_
  have hi0 : (i 0).val < 8192 := (i 0).isLt
  have hi1 : (i 1).val < 24 := (i 1).isLt
  refine (extractStridedSlice_apply _ _ _ i (ix2 ⟨0 + (i 0).val, by omega⟩ ⟨0 + (i 1).val, by omega⟩)
    (fun a => by match a with | ⟨0, _⟩ => rfl | ⟨1, _⟩ => rfl)).trans ?_
  rw [V_main_arg0 m c]
  exact regionOut_eq_treeOut _ _ _ _ _ _ _
    (fun k n hk hn => HostPrefix.v5_apply m c node_lt k n hk hn)
    (fun n hn => HostPrefix.v6_apply m c node_lt n hn)
    (fun l j hl hj => HostPrefix.v9_apply m c (fun l hl => leaf_lt l hl) l j hl hj)
    (i 0).val (i 1).val hi1 _ (Nat.zero_add _) (Nat.zero_add _)

/-- The run, read: the result buffer at the specification, the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Region

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.RefRun.lean ====
import proofs.«141256_j2430951489980_2_alg».proof.Proof.Gen.ReferenceIdeal
import proofs.«141256_j2430951489980_2_alg».proof.Proof.LibRunWindows
import Idealize.ShloMosaic.Lib.StableHlo.Run

/-
  The run of the reference program, read window by window.

  The program is a straight line of 116 host operations: fifteen that form the node weights (the sigmoid of the affine
  maps) and the all-ones column, then ten windows of ten operations, one per tree level (slice the level's weights,
  subtract them from one, multiply the reach probabilities by each, stack the two products and flatten), then the product
  with the leaf table. Each window's result buffer is read off the window alone, as a term of the contents the window
  starts from; the windows before it are never reopened: their results enter as named terms. Composing the windows gives
  the result buffer as a term of the arguments, and the arguments unchanged.
-/

noncomputable section

namespace Cert.RefSide.Run

open Cert.ReferenceIdeal Cert.ReferenceIdeal.Gen Idealize.ShloMosaic Idealize.ShloMosaic.TcCoe Idealize.SL.Sem Idealize.ShloMosaic.StableHlo

variable {F : FTy → Type} [FloatOps F]

/-- The program's 116 operations, in order. -/
abbrev ops : List (HloOp τ sig (Elt F)) :=
  [ unary main_arg1 main_v0 ((transpose S2048x1023 [1, 0] · transposes_S1023x2048_S2048x1023_1_0) : (⟨S1023x2048, .f32⟩ : BufTy).Contents (Elt F) → (⟨S2048x1023, .f32⟩ : BufTy).Contents (Elt F)),
    binary main_arg0 main_v0 main_v1 ((fun l r => Host.dotGeneral dot_S8192x2048_S2048x1023_S8192x1023_1_0_0_1_n_n none l r) : (⟨S8192x2048, .f32⟩ : BufTy).Contents (Elt F) → (⟨S2048x1023, .f32⟩ : BufTy).Contents (Elt F) → (⟨S8192x1023, .f32⟩ : BufTy).Contents (Elt F)),
    unary main_arg2 main_v2 (broadcastInDim S1x1023 ![1] bcast_S1023_S1x1023_1 : (⟨S1023, .f32⟩ : BufTy).Contents (Elt F) → (⟨S1x1023, .f32⟩ : BufTy).Contents (Elt F)),
    unary main_v2 main_v3 (broadcastInDim S8192x1023 ![0, 1] bcast_S1x1023_S8192x1023_0_1 : (⟨S1x1023, .f32⟩ : BufTy).Contents (Elt F) → (⟨S8192x1023, .f32⟩ : BufTy).Contents (Elt F)),
    binary main_v1 main_v3 main_v4 (addf : (⟨S8192x1023, .f32⟩ : BufTy).Contents (Elt F) → (⟨S8192x1023, .f32⟩ : BufTy).Contents (Elt F) → (⟨S8192x1023, .f32⟩ : BufTy).Contents (Elt F)),
    unary main_v4 main_v5 (Host.negf : (⟨S8192x1023, .f32⟩ : BufTy).Contents (Elt F) → (⟨S8192x1023, .f32⟩ : BufTy).Contents (Elt F)),
    unary main_v5 main_v6 (Host.exp : (⟨S8192x1023, .f32⟩ : BufTy).Contents (Elt F) → (⟨S8192x1023, .f32⟩ : BufTy).Contents (Elt F)),
    nullary main_cst (constant S_ .f32 0x3F800000#32),
    unary main_cst main_v7 (broadcastInDim S8192x1023 ![] bcast_S_S8192x1023 : (⟨S_, .f32⟩ : BufTy).Contents (Elt F) → (⟨S8192x1023, .f32⟩ : BufTy).Contents (Elt F)),
    binary main_v7 main_v6 main_v8 (addf : (⟨S8192x1023, .f32⟩ : BufTy).Contents (Elt F) → (⟨S8192x1023, .f32⟩ : BufTy).Contents (Elt F) → (⟨S8192x1023, .f32⟩ : BufTy).Contents (Elt F)),
    nullary main_cst_0 (constant S_ .f32 0x3F800000#32),
    unary main_cst_0 main_v9 (broadcastInDim S8192x1023 ![] bcast_S_S8192x1023 : (⟨S_, .f32⟩ : BufTy).Contents (Elt F) → (⟨S8192x1023, .f32⟩ : BufTy).Contents (Elt F)),
    binary main_v9 main_v8 main_v10 (Host.divf : (⟨S8192x1023, .f32⟩ : BufTy).Contents (Elt F) → (⟨S8192x1023, .f32⟩ : BufTy).Contents (Elt F) → (⟨S8192x1023, .f32⟩ : BufTy).Contents (Elt F)),
    nullary main_cst_1 (constant S_ .f32 0x3F800000#32),
    unary main_cst_1 main_v11 (broadcastInDim S8192x1 ![] bcast_S_S8192x1 : (⟨S_, .f32⟩ : BufTy).Contents (Elt F) → (⟨S8192x1, .f32⟩ : BufTy).Contents (Elt F)),
    unary main_v10 main_v12 ((extractStridedSlice S8192x1 ![0, 0] · slices_S8192x1023_S8192x1_0_0) : (⟨S8192x1023, .f32⟩ : BufTy).Contents (Elt F) → (⟨S8192x1, .f32⟩ : BufTy).Contents (Elt F)),
    nullary main_cst_2 (constant S_ .f32 0x3F800000#32),
    unary main_cst_2 main_v13 (broadcastInDim S8192x1 ![] bcast_S_S8192x1 : (⟨S_, .f32⟩ : BufTy).Contents (Elt F) → (⟨S8192x1, .f32⟩ : BufTy).Contents (Elt F)),
    binary main_v13 main_v12 main_v14 (subf : (⟨S8192x1, .f32⟩ : BufTy).Contents (Elt F) → (⟨S8192x1, .f32⟩ : BufTy).Contents (Elt F) → (⟨S8192x1, .f32⟩ : BufTy).Contents (Elt F)),
    binary main_v11 main_v14 main_v15 (mulf : (⟨S8192x1, .f32⟩ : BufTy).Contents (Elt F) → (⟨S8192x1, .f32⟩ : BufTy).Contents (Elt F) → (⟨S8192x1, .f32⟩ : BufTy).Contents (Elt F)),
    binary main_v11 main_v12 main_v16 (mulf : (⟨S8192x1, .f32⟩ : BufTy).Contents (Elt F) → (⟨S8192x1, .f32⟩ : BufTy).Contents (Elt F) → (⟨S8192x1, .f32⟩ : BufTy).Contents (Elt F)),
    unary main_v15 main_v17 (broadcastInDim S8192x1x1 ![0, 1] bcast_S8192x1_S8192x1x1_0_1 : (⟨S8192x1, .f32⟩ : BufTy).Contents (Elt F) → (⟨S8192x1x1, .f32⟩ : BufTy).Contents (Elt F)),
    unary main_v16 main_v18 (broadcastInDim S8192x1x1 ![0, 1] bcast_S8192x1_S8192x1x1_0_1 : (⟨S8192x1, .f32⟩ : BufTy).Contents (Elt F) → (⟨S8192x1x1, .f32⟩ : BufTy).Contents (Elt F)),
    binary main_v17 main_v18 main_v19 ((fun a b => concatenate S8192x1x2 2 [⟨S8192x1x1, a⟩, ⟨S8192x1x1, b⟩] concatenates_S8192x1x1_S8192x1x1_S8192x1x2_d2) : (⟨S8192x1x1, .f32⟩ : BufTy).Contents (Elt F) → (⟨S8192x1x1, .f32⟩ : BufTy).Contents (Elt F) → (⟨S8192x1x2, .f32⟩ : BufTy).Contents (Elt F)),
    reshape main_v19 main_v20 rfl shapeCasts_S8192x1x2_S8192x2,
    unary main_v10 main_v21 ((extractStridedSlice S8192x2 ![0, 1] · slices_S8192x1023_S8192x2_0_1) : (⟨S8192x1023, .f32⟩ : BufTy).Contents (Elt F) → (⟨S8192x2, .f32⟩ : BufTy).Contents (Elt F)),
    nullary main_cst_3 (constant S_ .f32 0x3F800000#32),
    unary main_cst_3 main_v22 (broadcastInDim S8192x2 ![] bcast_S_S8192x2 : (⟨S_, .f32⟩ : BufTy).Contents (Elt F) → (⟨S8192x2, .f32⟩ : BufTy).Contents (Elt F)),
    binary main_v22 main_v21 main_v23 (subf : (⟨S8192x2, .f32⟩ : BufTy).Contents (Elt F) → (⟨S8192x2, .f32⟩ : BufTy).Contents (Elt F) → (⟨S8192x2, .f32⟩ : BufTy).Contents (Elt F)),
    binary main_v20 main_v23 main_v24 (mulf : (⟨S8192x2, .f32⟩ : BufTy).Contents (Elt F) → (⟨S8192x2, .f32⟩ : BufTy).Contents (Elt F) → (⟨S8192x2, .f32⟩ : BufTy).Contents (Elt F)),
    binary main_v20 main_v21 main_v25 (mulf : (⟨S8192x2, .f32⟩ : BufTy).Contents (Elt F) → (⟨S8192x2, .f32⟩ : BufTy).Contents (Elt F) → (⟨S8192x2, .f32⟩ : BufTy).Contents (Elt F)),
    unary main_v24 main_v26 (broadcastInDim S8192x2x1 ![0, 1] bcast_S8192x2_S8192x2x1_0_1 : (⟨S8192x2, .f32⟩ : BufTy).Contents (Elt F) → (⟨S8192x2x1, .f32⟩ : BufTy).Contents (Elt F)),
    unary main_v25 main_v27 (broadcastInDim S8192x2x1 ![0, 1] bcast_S8192x2_S8192x2x1_0_1 : (⟨S8192x2, .f32⟩ : BufTy).Contents (Elt F) → (⟨S8192x2x1, .f32⟩ : BufTy).Contents (Elt F)),
    binary main_v26 main_v27 main_v28 ((fun a b => concatenate S8192x2x2 2 [⟨S8192x2x1, a⟩, ⟨S8192x2x1, b⟩] concatenates_S8192x2x1_S8192x2x1_S8192x2x2_d2) : (⟨S8192x2x1, .f32⟩ : BufTy).Contents (Elt F) → (⟨S8192x2x1, .f32⟩ : BufTy).Contents (Elt F) → (⟨S8192x2x2, .f32⟩ : BufTy).Contents (Elt F)),
    reshape main_v28 main_v29 rfl shapeCasts_S8192x2x2_S8192x4,
    unary main_v10 main_v30 ((extractStridedSlice S8192x4 ![0, 3] · slices_S8192x1023_S8192x4_0_3) : (⟨S8192x1023, .f32⟩ : BufTy).Contents (Elt F) → (⟨S8192x4, .f32⟩ : BufTy).Contents (Elt F)),
    nullary main_cst_4 (constant S_ .f32 0x3F800000#32),
    unary main_cst_4 main_v31 (broadcastInDim S8192x4 ![] bcast_S_S8192x4 : (⟨S_, .f32⟩ : BufTy).Contents (Elt F) → (⟨S8192x4, .f32⟩ : BufTy).Contents (Elt F)),
    binary main_v31 main_v30 main_v32 (subf : (⟨S8192x4, .f32⟩ : BufTy).Contents (Elt F) → (⟨S8192x4, .f32⟩ : BufTy).Contents (Elt F) → (⟨S8192x4, .f32⟩ : BufTy).Contents (Elt F)),
    binary main_v29 main_v32 main_v33 (mulf : (⟨S8192x4, .f32⟩ : BufTy).Contents (Elt F) → (⟨S8192x4, .f32⟩ : BufTy).Contents (Elt F) → (⟨S8192x4, .f32⟩ : BufTy).Contents (Elt F)),
    binary main_v29 main_v30 main_v34 (mulf : (⟨S8192x4, .f32⟩ : BufTy).Contents (Elt F) → (⟨S8192x4, .f32⟩ : BufTy).Contents (Elt F) → (⟨S8192x4, .f32⟩ : BufTy).Contents (Elt F)),
    unary main_v33 main_v35 (broadcastInDim S8192x4x1 ![0, 1] bcast_S8192x4_S8192x4x1_0_1 : (⟨S8192x4, .f32⟩ : BufTy).Contents (Elt F) → (⟨S8192x4x1, .f32⟩ : BufTy).Contents (Elt F)),
    unary main_v34 main_v36 (broadcastInDim S8192x4x1 ![0, 1] bcast_S8192x4_S8192x4x1_0_1 : (⟨S8192x4, .f32⟩ : BufTy).Contents (Elt F) → (⟨S8192x4x1, .f32⟩ : BufTy).Contents (Elt F)),
    binary main_v35 main_v36 main_v37 ((fun a b => concatenate S8192x4x2 2 [⟨S8192x4x1, a⟩, ⟨S8192x4x1, b⟩] concatenates_S8192x4x1_S8192x4x1_S8192x4x2_d2) : (⟨S8192x4x1, .f32⟩ : BufTy).Contents (Elt F) → (⟨S8192x4x1, .f32⟩ : BufTy).Contents (Elt F) → (⟨S8192x4x2, .f32⟩ : BufTy).Contents (Elt F)),
    reshape main_v37 main_v38 rfl shapeCasts_S8192x4x2_S8192x8,
    unary main_v10 main_v39 ((extractStridedSlice S8192x8 ![0, 7] · slices_S8192x1023_S8192x8_0_7) : (⟨S8192x1023, .f32⟩ : BufTy).Contents (Elt F) → (⟨S8192x8, .f32⟩ : BufTy).Contents (Elt F)),
    nullary main_cst_5 (constant S_ .f32 0x3F800000#32),
    unary main_cst_5 main_v40 (broadcastInDim S8192x8 ![] bcast_S_S8192x8 : (⟨S_, .f32⟩ : BufTy).Contents (Elt F) → (⟨S8192x8, .f32⟩ : BufTy).Contents (Elt F)),
    binary main_v40 main_v39 main_v41 (subf : (⟨S8192x8, .f32⟩ : BufTy).Contents (Elt F) → (⟨S8192x8, .f32⟩ : BufTy).Contents (Elt F) → (⟨S8192x8, .f32⟩ : BufTy).Contents (Elt F)),
    binary main_v38 main_v41 main_v42 (mulf : (⟨S8192x8, .f32⟩ : BufTy).Contents (Elt F) → (⟨S8192x8, .f32⟩ : BufTy).Contents (Elt F) → (⟨S8192x8, .f32⟩ : BufTy).Contents (Elt F)),
    binary main_v38 main_v39 main_v43 (mulf : (⟨S8192x8, .f32⟩ : BufTy).Contents (Elt F) → (⟨S8192x8, .f32⟩ : BufTy).Contents (Elt F) → (⟨S8192x8, .f32⟩ : BufTy).Contents (Elt F)),
    unary main_v42 main_v44 (broadcastInDim S8192x8x1 ![0, 1] bcast_S8192x8_S8192x8x1_0_1 : (⟨S8192x8, .f32⟩ : BufTy).Contents (Elt F) → (⟨S8192x8x1, .f32⟩ : BufTy).Contents (Elt F)),
    unary main_v43 main_v45 (broadcastInDim S8192x8x1 ![0, 1] bcast_S8192x8_S8192x8x1_0_1 : (⟨S8192x8, .f32⟩ : BufTy).Contents (Elt F) → (⟨S8192x8x1, .f32⟩ : BufTy).Contents (Elt F)),
    binary main_v44 main_v45 main_v46 ((fun a b => concatenate S8192x8x2 2 [⟨S8192x8x1, a⟩, ⟨S8192x8x1, b⟩] concatenates_S8192x8x1_S8192x8x1_S8192x8x2_d2) : (⟨S8192x8x1, .f32⟩ : BufTy).Contents (Elt F) → (⟨S8192x8x1, .f32⟩ : BufTy).Contents (Elt F) → (⟨S8192x8x2, .f32⟩ : BufTy).Contents (Elt F)),
    reshape main_v46 main_v47 rfl shapeCasts_S8192x8x2_S8192x16,
    unary main_v10 main_v48 ((extractStridedSlice S8192x16 ![0, 15] · slices_S8192x1023_S8192x16_0_15) : (⟨S8192x1023, .f32⟩ : BufTy).Contents (Elt F) → (⟨S8192x16, .f32⟩ : BufTy).Contents (Elt F)),
    nullary main_cst_6 (constant S_ .f32 0x3F800000#32),
    unary main_cst_6 main_v49 (broadcastInDim S8192x16 ![] bcast_S_S8192x16 : (⟨S_, .f32⟩ : BufTy).Contents (Elt F) → (⟨S8192x16, .f32⟩ : BufTy).Contents (Elt F)),
    binary main_v49 main_v48 main_v50 (subf : (⟨S8192x16, .f32⟩ : BufTy).Contents (Elt F) → (⟨S8192x16, .f32⟩ : BufTy).Contents (Elt F) → (⟨S8192x16, .f32⟩ : BufTy).Contents (Elt F)),
    binary main_v47 main_v50 main_v51 (mulf : (⟨S8192x16, .f32⟩ : BufTy).Contents (Elt F) → (⟨S8192x16, .f32⟩ : BufTy).Contents (Elt F) → (⟨S8192x16, .f32⟩ : BufTy).Contents (Elt F)),
    binary main_v47 main_v48 main_v52 (mulf : (⟨S8192x16, .f32⟩ : BufTy).Contents (Elt F) → (⟨S8192x16, .f32⟩ : BufTy).Contents (Elt F) → (⟨S8192x16, .f32⟩ : BufTy).Contents (Elt F)),
    unary main_v51 main_v53 (broadcastInDim S8192x16x1 ![0, 1] bcast_S8192x16_S8192x16x1_0_1 : (⟨S8192x16, .f32⟩ : BufTy).Contents (Elt F) → (⟨S8192x16x1, .f32⟩ : BufTy).Contents (Elt F)),
    unary main_v52 main_v54 (broadcastInDim S8192x16x1 ![0, 1] bcast_S8192x16_S8192x16x1_0_1 : (⟨S8192x16, .f32⟩ : BufTy).Contents (Elt F) → (⟨S8192x16x1, .f32⟩ : BufTy).Contents (Elt F)),
    binary main_v53 main_v54 main_v55 ((fun a b => concatenate S8192x16x2 2 [⟨S8192x16x1, a⟩, ⟨S8192x16x1, b⟩] concatenates_S8192x16x1_S8192x16x1_S8192x16x2_d2) : (⟨S8192x16x1, .f32⟩ : BufTy).Contents (Elt F) → (⟨S8192x16x1, .f32⟩ : BufTy).Contents (Elt F) → (⟨S8192x16x2, .f32⟩ : BufTy).Contents (Elt F)),
    reshape main_v55 main_v56 rfl shapeCasts_S8192x16x2_S8192x32,
    unary main_v10 main_v57 ((extractStridedSlice S8192x32 ![0, 31] · slices_S8192x1023_S8192x32_0_31) : (⟨S8192x1023, .f32⟩ : BufTy).Contents (Elt F) → (⟨S8192x32, .f32⟩ : BufTy).Contents (Elt F)),
    nullary main_cst_7 (constant S_ .f32 0x3F800000#32),
    unary main_cst_7 main_v58 (broadcastInDim S8192x32 ![] bcast_S_S8192x32 : (⟨S_, .f32⟩ : BufTy).Contents (Elt F) → (⟨S8192x32, .f32⟩ : BufTy).Contents (Elt F)),
    binary main_v58 main_v57 main_v59 (subf : (⟨S8192x32, .f32⟩ : BufTy).Contents (Elt F) → (⟨S8192x32, .f32⟩ : BufTy).Contents (Elt F) → (⟨S8192x32, .f32⟩ : BufTy).Contents (Elt F)),
    binary main_v56 main_v59 main_v60 (mulf : (⟨S8192x32, .f32⟩ : BufTy).Contents (Elt F) → (⟨S8192x32, .f32⟩ : BufTy).Contents (Elt F) → (⟨S8192x32, .f32⟩ : BufTy).Contents (Elt F)),
    binary main_v56 main_v57 main_v61 (mulf : (⟨S8192x32, .f32⟩ : BufTy).Contents (Elt F) → (⟨S8192x32, .f32⟩ : BufTy).Contents (Elt F) → (⟨S8192x32, .f32⟩ : BufTy).Contents (Elt F)),
    unary main_v60 main_v62 (broadcastInDim S8192x32x1 ![0, 1] bcast_S8192x32_S8192x32x1_0_1 : (⟨S8192x32, .f32⟩ : BufTy).Contents (Elt F) → (⟨S8192x32x1, .f32⟩ : BufTy).Contents (Elt F)),
    unary main_v61 main_v63 (broadcastInDim S8192x32x1 ![0, 1] bcast_S8192x32_S8192x32x1_0_1 : (⟨S8192x32, .f32⟩ : BufTy).Contents (Elt F) → (⟨S8192x32x1, .f32⟩ : BufTy).Contents (Elt F)),
    binary main_v62 main_v63 main_v64 ((fun a b => concatenate S8192x32x2 2 [⟨S8192x32x1, a⟩, ⟨S8192x32x1, b⟩] concatenates_S8192x32x1_S8192x32x1_S8192x32x2_d2) : (⟨S8192x32x1, .f32⟩ : BufTy).Contents (Elt F) → (⟨S8192x32x1, .f32⟩ : BufTy).Contents (Elt F) → (⟨S8192x32x2, .f32⟩ : BufTy).Contents (Elt F)),
    reshape main_v64 main_v65 rfl shapeCasts_S8192x32x2_S8192x64,
    unary main_v10 main_v66 ((extractStridedSlice S8192x64 ![0, 63] · slices_S8192x1023_S8192x64_0_63) : (⟨S8192x1023, .f32⟩ : BufTy).Contents (Elt F) → (⟨S8192x64, .f32⟩ : BufTy).Contents (Elt F)),
    nullary main_cst_8 (constant S_ .f32 0x3F800000#32),
    unary main_cst_8 main_v67 (broadcastInDim S8192x64 ![] bcast_S_S8192x64 : (⟨S_, .f32⟩ : BufTy).Contents (Elt F) → (⟨S8192x64, .f32⟩ : BufTy).Contents (Elt F)),
    binary main_v67 main_v66 main_v68 (subf : (⟨S8192x64, .f32⟩ : BufTy).Contents (Elt F) → (⟨S8192x64, .f32⟩ : BufTy).Contents (Elt F) → (⟨S8192x64, .f32⟩ : BufTy).Contents (Elt F)),
    binary main_v65 main_v68 main_v69 (mulf : (⟨S8192x64, .f32⟩ : BufTy).Contents (Elt F) → (⟨S8192x64, .f32⟩ : BufTy).Contents (Elt F) → (⟨S8192x64, .f32⟩ : BufTy).Contents (Elt F)),
    binary main_v65 main_v66 main_v70 (mulf : (⟨S8192x64, .f32⟩ : BufTy).Contents (Elt F) → (⟨S8192x64, .f32⟩ : BufTy).Contents (Elt F) → (⟨S8192x64, .f32⟩ : BufTy).Contents (Elt F)),
    unary main_v69 main_v71 (broadcastInDim S8192x64x1 ![0, 1] bcast_S8192x64_S8192x64x1_0_1 : (⟨S8192x64, .f32⟩ : BufTy).Contents (Elt F) → (⟨S8192x64x1, .f32⟩ : BufTy).Contents (Elt F)),
    unary main_v70 main_v72 (broadcastInDim S8192x64x1 ![0, 1] bcast_S8192x64_S8192x64x1_0_1 : (⟨S8192x64, .f32⟩ : BufTy).Contents (Elt F) → (⟨S8192x64x1, .f32⟩ : BufTy).Contents (Elt F)),
    binary main_v71 main_v72 main_v73 ((fun a b => concatenate S8192x64x2 2 [⟨S8192x64x1, a⟩, ⟨S8192x64x1, b⟩] concatenates_S8192x64x1_S8192x64x1_S8192x64x2_d2) : (⟨S8192x64x1, .f32⟩ : BufTy).Contents (Elt F) → (⟨S8192x64x1, .f32⟩ : BufTy).Contents (Elt F) → (⟨S8192x64x2, .f32⟩ : BufTy).Contents (Elt F)),
    reshape main_v73 main_v74 rfl shapeCasts_S8192x64x2_S8192x128,
    unary main_v10 main_v75 ((extractStridedSlice S8192x128 ![0, 127] · slices_S8192x1023_S8192x128_0_127) : (⟨S8192x1023, .f32⟩ : BufTy).Contents (Elt F) → (⟨S8192x128, .f32⟩ : BufTy).Contents (Elt F)),
    nullary main_cst_9 (constant S_ .f32 0x3F800000#32),
    unary main_cst_9 main_v76 (broadcastInDim S8192x128 ![] bcast_S_S8192x128 : (⟨S_, .f32⟩ : BufTy).Contents (Elt F) → (⟨S8192x128, .f32⟩ : BufTy).Contents (Elt F)),
    binary main_v76 main_v75 main_v77 (subf : (⟨S8192x128, .f32⟩ : BufTy).Contents (Elt F) → (⟨S8192x128, .f32⟩ : BufTy).Contents (Elt F) → (⟨S8192x128, .f32⟩ : BufTy).Contents (Elt F)),
    binary main_v74 main_v77 main_v78 (mulf : (⟨S8192x128, .f32⟩ : BufTy).Contents (Elt F) → (⟨S8192x128, .f32⟩ : BufTy).Contents (Elt F) → (⟨S8192x128, .f32⟩ : BufTy).Contents (Elt F)),
    binary main_v74 main_v75 main_v79 (mulf : (⟨S8192x128, .f32⟩ : BufTy).Contents (Elt F) → (⟨S8192x128, .f32⟩ : BufTy).Contents (Elt F) → (⟨S8192x128, .f32⟩ : BufTy).Contents (Elt F)),
    unary main_v78 main_v80 (broadcastInDim S8192x128x1 ![0, 1] bcast_S8192x128_S8192x128x1_0_1 : (⟨S8192x128, .f32⟩ : BufTy).Contents (Elt F) → (⟨S8192x128x1, .f32⟩ : BufTy).Contents (Elt F)),
    unary main_v79 main_v81 (broadcastInDim S8192x128x1 ![0, 1] bcast_S8192x128_S8192x128x1_0_1 : (⟨S8192x128, .f32⟩ : BufTy).Contents (Elt F) → (⟨S8192x128x1, .f32⟩ : BufTy).Contents (Elt F)),
    binary main_v80 main_v81 main_v82 ((fun a b => concatenate S8192x128x2 2 [⟨S8192x128x1, a⟩, ⟨S8192x128x1, b⟩] concatenates_S8192x128x1_S8192x128x1_S8192x128x2_d2) : (⟨S8192x128x1, .f32⟩ : BufTy).Contents (Elt F) → (⟨S8192x128x1, .f32⟩ : BufTy).Contents (Elt F) → (⟨S8192x128x2, .f32⟩ : BufTy).Contents (Elt F)),
    reshape main_v82 main_v83 rfl shapeCasts_S8192x128x2_S8192x256,
    unary main_v10 main_v84 ((extractStridedSlice S8192x256 ![0, 255] · slices_S8192x1023_S8192x256_0_255) : (⟨S8192x1023, .f32⟩ : BufTy).Contents (Elt F) → (⟨S8192x256, .f32⟩ : BufTy).Contents (Elt F)),
    nullary main_cst_10 (constant S_ .f32 0x3F800000#32),
    unary main_cst_10 main_v85 (broadcastInDim S8192x256 ![] bcast_S_S8192x256 : (⟨S_, .f32⟩ : BufTy).Contents (Elt F) → (⟨S8192x256, .f32⟩ : BufTy).Contents (Elt F)),
    binary main_v85 main_v84 main_v86 (subf : (⟨S8192x256, .f32⟩ : BufTy).Contents (Elt F) → (⟨S8192x256, .f32⟩ : BufTy).Contents (Elt F) → (⟨S8192x256, .f32⟩ : BufTy).Contents (Elt F)),
    binary main_v83 main_v86 main_v87 (mulf : (⟨S8192x256, .f32⟩ : BufTy).Contents (Elt F) → (⟨S8192x256, .f32⟩ : BufTy).Contents (Elt F) → (⟨S8192x256, .f32⟩ : BufTy).Contents (Elt F)),
    binary main_v83 main_v84 main_v88 (mulf : (⟨S8192x256, .f32⟩ : BufTy).Contents (Elt F) → (⟨S8192x256, .f32⟩ : BufTy).Contents (Elt F) → (⟨S8192x256, .f32⟩ : BufTy).Contents (Elt F)),
    unary main_v87 main_v89 (broadcastInDim S8192x256x1 ![0, 1] bcast_S8192x256_S8192x256x1_0_1 : (⟨S8192x256, .f32⟩ : BufTy).Contents (Elt F) → (⟨S8192x256x1, .f32⟩ : BufTy).Contents (Elt F)),
    unary main_v88 main_v90 (broadcastInDim S8192x256x1 ![0, 1] bcast_S8192x256_S8192x256x1_0_1 : (⟨S8192x256, .f32⟩ : BufTy).Contents (Elt F) → (⟨S8192x256x1, .f32⟩ : BufTy).Contents (Elt F)),
    binary main_v89 main_v90 main_v91 ((fun a b => concatenate S8192x256x2 2 [⟨S8192x256x1, a⟩, ⟨S8192x256x1, b⟩] concatenates_S8192x256x1_S8192x256x1_S8192x256x2_d2) : (⟨S8192x256x1, .f32⟩ : BufTy).Contents (Elt F) → (⟨S8192x256x1, .f32⟩ : BufTy).Contents (Elt F) → (⟨S8192x256x2, .f32⟩ : BufTy).Contents (Elt F)),
    reshape main_v91 main_v92 rfl shapeCasts_S8192x256x2_S8192x512,
    unary main_v10 main_v93 ((extractStridedSlice S8192x512 ![0, 511] · slices_S8192x1023_S8192x512_0_511) : (⟨S8192x1023, .f32⟩ : BufTy).Contents (Elt F) → (⟨S8192x512, .f32⟩ : BufTy).Contents (Elt F)),
    nullary main_cst_11 (constant S_ .f32 0x3F800000#32),
    unary main_cst_11 main_v94 (broadcastInDim S8192x512 ![] bcast_S_S8192x512 : (⟨S_, .f32⟩ : BufTy).Contents (Elt F) → (⟨S8192x512, .f32⟩ : BufTy).Contents (Elt F)),
    binary main_v94 main_v93 main_v95 (subf : (⟨S8192x512, .f32⟩ : BufTy).Contents (Elt F) → (⟨S8192x512, .f32⟩ : BufTy).Contents (Elt F) → (⟨S8192x512, .f32⟩ : BufTy).Contents (Elt F)),
    binary main_v92 main_v95 main_v96 (mulf : (⟨S8192x512, .f32⟩ : BufTy).Contents (Elt F) → (⟨S8192x512, .f32⟩ : BufTy).Contents (Elt F) → (⟨S8192x512, .f32⟩ : BufTy).Contents (Elt F)),
    binary main_v92 main_v93 main_v97 (mulf : (⟨S8192x512, .f32⟩ : BufTy).Contents (Elt F) → (⟨S8192x512, .f32⟩ : BufTy).Contents (Elt F) → (⟨S8192x512, .f32⟩ : BufTy).Contents (Elt F)),
    unary main_v96 main_v98 (broadcastInDim S8192x512x1 ![0, 1] bcast_S8192x512_S8192x512x1_0_1 : (⟨S8192x512, .f32⟩ : BufTy).Contents (Elt F) → (⟨S8192x512x1, .f32⟩ : BufTy).Contents (Elt F)),
    unary main_v97 main_v99 (broadcastInDim S8192x512x1 ![0, 1] bcast_S8192x512_S8192x512x1_0_1 : (⟨S8192x512, .f32⟩ : BufTy).Contents (Elt F) → (⟨S8192x512x1, .f32⟩ : BufTy).Contents (Elt F)),
    binary main_v98 main_v99 main_v100 ((fun a b => concatenate S8192x512x2 2 [⟨S8192x512x1, a⟩, ⟨S8192x512x1, b⟩] concatenates_S8192x512x1_S8192x512x1_S8192x512x2_d2) : (⟨S8192x512x1, .f32⟩ : BufTy).Contents (Elt F) → (⟨S8192x512x1, .f32⟩ : BufTy).Contents (Elt F) → (⟨S8192x512x2, .f32⟩ : BufTy).Contents (Elt F)),
    reshape main_v100 main_v101 rfl shapeCasts_S8192x512x2_S8192x1024,
    binary main_v101 main_arg3 main_v102 ((fun l r => Host.dotGeneral dot_S8192x1024_S1024x24_S8192x24_1_0_0_1_n_n none l r) : (⟨S8192x1024, .f32⟩ : BufTy).Contents (Elt F) → (⟨S1024x24, .f32⟩ : BufTy).Contents (Elt F) → (⟨S8192x24, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., binary_bufs_sub ..⟩

/-! ## The windows -/

/-- The node weights and the all-ones column. -/
abbrev w0 : List (HloOp τ sig (Elt F)) :=
  [ unary main_arg1 main_v0 ((transpose S2048x1023 [1, 0] · transposes_S1023x2048_S2048x1023_1_0) : (⟨S1023x2048, .f32⟩ : BufTy).Contents (Elt F) → (⟨S2048x1023, .f32⟩ : BufTy).Contents (Elt F)),
    binary main_arg0 main_v0 main_v1 ((fun l r => Host.dotGeneral dot_S8192x2048_S2048x1023_S8192x1023_1_0_0_1_n_n none l r) : (⟨S8192x2048, .f32⟩ : BufTy).Contents (Elt F) → (⟨S2048x1023, .f32⟩ : BufTy).Contents (Elt F) → (⟨S8192x1023, .f32⟩ : BufTy).Contents (Elt F)),
    unary main_arg2 main_v2 (broadcastInDim S1x1023 ![1] bcast_S1023_S1x1023_1 : (⟨S1023, .f32⟩ : BufTy).Contents (Elt F) → (⟨S1x1023, .f32⟩ : BufTy).Contents (Elt F)),
    unary main_v2 main_v3 (broadcastInDim S8192x1023 ![0, 1] bcast_S1x1023_S8192x1023_0_1 : (⟨S1x1023, .f32⟩ : BufTy).Contents (Elt F) → (⟨S8192x1023, .f32⟩ : BufTy).Contents (Elt F)),
    binary main_v1 main_v3 main_v4 (addf : (⟨S8192x1023, .f32⟩ : BufTy).Contents (Elt F) → (⟨S8192x1023, .f32⟩ : BufTy).Contents (Elt F) → (⟨S8192x1023, .f32⟩ : BufTy).Contents (Elt F)),
    unary main_v4 main_v5 (Host.negf : (⟨S8192x1023, .f32⟩ : BufTy).Contents (Elt F) → (⟨S8192x1023, .f32⟩ : BufTy).Contents (Elt F)),
    unary main_v5 main_v6 (Host.exp : (⟨S8192x1023, .f32⟩ : BufTy).Contents (Elt F) → (⟨S8192x1023, .f32⟩ : BufTy).Contents (Elt F)),
    nullary main_cst (constant S_ .f32 0x3F800000#32),
    unary main_cst main_v7 (broadcastInDim S8192x1023 ![] bcast_S_S8192x1023 : (⟨S_, .f32⟩ : BufTy).Contents (Elt F) → (⟨S8192x1023, .f32⟩ : BufTy).Contents (Elt F)),
    binary main_v7 main_v6 main_v8 (addf : (⟨S8192x1023, .f32⟩ : BufTy).Contents (Elt F) → (⟨S8192x1023, .f32⟩ : BufTy).Contents (Elt F) → (⟨S8192x1023, .f32⟩ : BufTy).Contents (Elt F)),
    nullary main_cst_0 (constant S_ .f32 0x3F800000#32),
    unary main_cst_0 main_v9 (broadcastInDim S8192x1023 ![] bcast_S_S8192x1023 : (⟨S_, .f32⟩ : BufTy).Contents (Elt F) → (⟨S8192x1023, .f32⟩ : BufTy).Contents (Elt F)),
    binary main_v9 main_v8 main_v10 (Host.divf : (⟨S8192x1023, .f32⟩ : BufTy).Contents (Elt F) → (⟨S8192x1023, .f32⟩ : BufTy).Contents (Elt F) → (⟨S8192x1023, .f32⟩ : BufTy).Contents (Elt F)),
    nullary main_cst_1 (constant S_ .f32 0x3F800000#32),
    unary main_cst_1 main_v11 (broadcastInDim S8192x1 ![] bcast_S_S8192x1 : (⟨S_, .f32⟩ : BufTy).Contents (Elt F) → (⟨S8192x1, .f32⟩ : BufTy).Contents (Elt F)) ]

/-- Level 0. -/
abbrev w1 : List (HloOp τ sig (Elt F)) :=
  [ unary main_v10 main_v12 ((extractStridedSlice S8192x1 ![0, 0] · slices_S8192x1023_S8192x1_0_0) : (⟨S8192x1023, .f32⟩ : BufTy).Contents (Elt F) → (⟨S8192x1, .f32⟩ : BufTy).Contents (Elt F)),
    nullary main_cst_2 (constant S_ .f32 0x3F800000#32),
    unary main_cst_2 main_v13 (broadcastInDim S8192x1 ![] bcast_S_S8192x1 : (⟨S_, .f32⟩ : BufTy).Contents (Elt F) → (⟨S8192x1, .f32⟩ : BufTy).Contents (Elt F)),
    binary main_v13 main_v12 main_v14 (subf : (⟨S8192x1, .f32⟩ : BufTy).Contents (Elt F) → (⟨S8192x1, .f32⟩ : BufTy).Contents (Elt F) → (⟨S8192x1, .f32⟩ : BufTy).Contents (Elt F)),
    binary main_v11 main_v14 main_v15 (mulf : (⟨S8192x1, .f32⟩ : BufTy).Contents (Elt F) → (⟨S8192x1, .f32⟩ : BufTy).Contents (Elt F) → (⟨S8192x1, .f32⟩ : BufTy).Contents (Elt F)),
    binary main_v11 main_v12 main_v16 (mulf : (⟨S8192x1, .f32⟩ : BufTy).Contents (Elt F) → (⟨S8192x1, .f32⟩ : BufTy).Contents (Elt F) → (⟨S8192x1, .f32⟩ : BufTy).Contents (Elt F)),
    unary main_v15 main_v17 (broadcastInDim S8192x1x1 ![0, 1] bcast_S8192x1_S8192x1x1_0_1 : (⟨S8192x1, .f32⟩ : BufTy).Contents (Elt F) → (⟨S8192x1x1, .f32⟩ : BufTy).Contents (Elt F)),
    unary main_v16 main_v18 (broadcastInDim S8192x1x1 ![0, 1] bcast_S8192x1_S8192x1x1_0_1 : (⟨S8192x1, .f32⟩ : BufTy).Contents (Elt F) → (⟨S8192x1x1, .f32⟩ : BufTy).Contents (Elt F)),
    binary main_v17 main_v18 main_v19 ((fun a b => concatenate S8192x1x2 2 [⟨S8192x1x1, a⟩, ⟨S8192x1x1, b⟩] concatenates_S8192x1x1_S8192x1x1_S8192x1x2_d2) : (⟨S8192x1x1, .f32⟩ : BufTy).Contents (Elt F) → (⟨S8192x1x1, .f32⟩ : BufTy).Contents (Elt F) → (⟨S8192x1x2, .f32⟩ : BufTy).Contents (Elt F)),
    reshape main_v19 main_v20 rfl shapeCasts_S8192x1x2_S8192x2 ]

/-- Level 1. -/
abbrev w2 : List (HloOp τ sig (Elt F)) :=
  [ unary main_v10 main_v21 ((extractStridedSlice S8192x2 ![0, 1] · slices_S8192x1023_S8192x2_0_1) : (⟨S8192x1023, .f32⟩ : BufTy).Contents (Elt F) → (⟨S8192x2, .f32⟩ : BufTy).Contents (Elt F)),
    nullary main_cst_3 (constant S_ .f32 0x3F800000#32),
    unary main_cst_3 main_v22 (broadcastInDim S8192x2 ![] bcast_S_S8192x2 : (⟨S_, .f32⟩ : BufTy).Contents (Elt F) → (⟨S8192x2, .f32⟩ : BufTy).Contents (Elt F)),
    binary main_v22 main_v21 main_v23 (subf : (⟨S8192x2, .f32⟩ : BufTy).Contents (Elt F) → (⟨S8192x2, .f32⟩ : BufTy).Contents (Elt F) → (⟨S8192x2, .f32⟩ : BufTy).Contents (Elt F)),
    binary main_v20 main_v23 main_v24 (mulf : (⟨S8192x2, .f32⟩ : BufTy).Contents (Elt F) → (⟨S8192x2, .f32⟩ : BufTy).Contents (Elt F) → (⟨S8192x2, .f32⟩ : BufTy).Contents (Elt F)),
    binary main_v20 main_v21 main_v25 (mulf : (⟨S8192x2, .f32⟩ : BufTy).Contents (Elt F) → (⟨S8192x2, .f32⟩ : BufTy).Contents (Elt F) → (⟨S8192x2, .f32⟩ : BufTy).Contents (Elt F)),
    unary main_v24 main_v26 (broadcastInDim S8192x2x1 ![0, 1] bcast_S8192x2_S8192x2x1_0_1 : (⟨S8192x2, .f32⟩ : BufTy).Contents (Elt F) → (⟨S8192x2x1, .f32⟩ : BufTy).Contents (Elt F)),
    unary main_v25 main_v27 (broadcastInDim S8192x2x1 ![0, 1] bcast_S8192x2_S8192x2x1_0_1 : (⟨S8192x2, .f32⟩ : BufTy).Contents (Elt F) → (⟨S8192x2x1, .f32⟩ : BufTy).Contents (Elt F)),
    binary main_v26 main_v27 main_v28 ((fun a b => concatenate S8192x2x2 2 [⟨S8192x2x1, a⟩, ⟨S8192x2x1, b⟩] concatenates_S8192x2x1_S8192x2x1_S8192x2x2_d2) : (⟨S8192x2x1, .f32⟩ : BufTy).Contents (Elt F) → (⟨S8192x2x1, .f32⟩ : BufTy).Contents (Elt F) → (⟨S8192x2x2, .f32⟩ : BufTy).Contents (Elt F)),
    reshape main_v28 main_v29 rfl shapeCasts_S8192x2x2_S8192x4 ]

/-- Level 2. -/
abbrev w3 : List (HloOp τ sig (Elt F)) :=
  [ unary main_v10 main_v30 ((extractStridedSlice S8192x4 ![0, 3] · slices_S8192x1023_S8192x4_0_3) : (⟨S8192x1023, .f32⟩ : BufTy).Contents (Elt F) → (⟨S8192x4, .f32⟩ : BufTy).Contents (Elt F)),
    nullary main_cst_4 (constant S_ .f32 0x3F800000#32),
    unary main_cst_4 main_v31 (broadcastInDim S8192x4 ![] bcast_S_S8192x4 : (⟨S_, .f32⟩ : BufTy).Contents (Elt F) → (⟨S8192x4, .f32⟩ : BufTy).Contents (Elt F)),
    binary main_v31 main_v30 main_v32 (subf : (⟨S8192x4, .f32⟩ : BufTy).Contents (Elt F) → (⟨S8192x4, .f32⟩ : BufTy).Contents (Elt F) → (⟨S8192x4, .f32⟩ : BufTy).Contents (Elt F)),
    binary main_v29 main_v32 main_v33 (mulf : (⟨S8192x4, .f32⟩ : BufTy).Contents (Elt F) → (⟨S8192x4, .f32⟩ : BufTy).Contents (Elt F) → (⟨S8192x4, .f32⟩ : BufTy).Contents (Elt F)),
    binary main_v29 main_v30 main_v34 (mulf : (⟨S8192x4, .f32⟩ : BufTy).Contents (Elt F) → (⟨S8192x4, .f32⟩ : BufTy).Contents (Elt F) → (⟨S8192x4, .f32⟩ : BufTy).Contents (Elt F)),
    unary main_v33 main_v35 (broadcastInDim S8192x4x1 ![0, 1] bcast_S8192x4_S8192x4x1_0_1 : (⟨S8192x4, .f32⟩ : BufTy).Contents (Elt F) → (⟨S8192x4x1, .f32⟩ : BufTy).Contents (Elt F)),
    unary main_v34 main_v36 (broadcastInDim S8192x4x1 ![0, 1] bcast_S8192x4_S8192x4x1_0_1 : (⟨S8192x4, .f32⟩ : BufTy).Contents (Elt F) → (⟨S8192x4x1, .f32⟩ : BufTy).Contents (Elt F)),
    binary main_v35 main_v36 main_v37 ((fun a b => concatenate S8192x4x2 2 [⟨S8192x4x1, a⟩, ⟨S8192x4x1, b⟩] concatenates_S8192x4x1_S8192x4x1_S8192x4x2_d2) : (⟨S8192x4x1, .f32⟩ : BufTy).Contents (Elt F) → (⟨S8192x4x1, .f32⟩ : BufTy).Contents (Elt F) → (⟨S8192x4x2, .f32⟩ : BufTy).Contents (Elt F)),
    reshape main_v37 main_v38 rfl shapeCasts_S8192x4x2_S8192x8 ]

/-- Level 3. -/
abbrev w4 : List (HloOp τ sig (Elt F)) :=
  [ unary main_v10 main_v39 ((extractStridedSlice S8192x8 ![0, 7] · slices_S8192x1023_S8192x8_0_7) : (⟨S8192x1023, .f32⟩ : BufTy).Contents (Elt F) → (⟨S8192x8, .f32⟩ : BufTy).Contents (Elt F)),
    nullary main_cst_5 (constant S_ .f32 0x3F800000#32),
    unary main_cst_5 main_v40 (broadcastInDim S8192x8 ![] bcast_S_S8192x8 : (⟨S_, .f32⟩ : BufTy).Contents (Elt F) → (⟨S8192x8, .f32⟩ : BufTy).Contents (Elt F)),
    binary main_v40 main_v39 main_v41 (subf : (⟨S8192x8, .f32⟩ : BufTy).Contents (Elt F) → (⟨S8192x8, .f32⟩ : BufTy).Contents (Elt F) → (⟨S8192x8, .f32⟩ : BufTy).Contents (Elt F)),
    binary main_v38 main_v41 main_v42 (mulf : (⟨S8192x8, .f32⟩ : BufTy).Contents (Elt F) → (⟨S8192x8, .f32⟩ : BufTy).Contents (Elt F) → (⟨S8192x8, .f32⟩ : BufTy).Contents (Elt F)),
    binary main_v38 main_v39 main_v43 (mulf : (⟨S8192x8, .f32⟩ : BufTy).Contents (Elt F) → (⟨S8192x8, .f32⟩ : BufTy).Contents (Elt F) → (⟨S8192x8, .f32⟩ : BufTy).Contents (Elt F)),
    unary main_v42 main_v44 (broadcastInDim S8192x8x1 ![0, 1] bcast_S8192x8_S8192x8x1_0_1 : (⟨S8192x8, .f32⟩ : BufTy).Contents (Elt F) → (⟨S8192x8x1, .f32⟩ : BufTy).Contents (Elt F)),
    unary main_v43 main_v45 (broadcastInDim S8192x8x1 ![0, 1] bcast_S8192x8_S8192x8x1_0_1 : (⟨S8192x8, .f32⟩ : BufTy).Contents (Elt F) → (⟨S8192x8x1, .f32⟩ : BufTy).Contents (Elt F)),
    binary main_v44 main_v45 main_v46 ((fun a b => concatenate S8192x8x2 2 [⟨S8192x8x1, a⟩, ⟨S8192x8x1, b⟩] concatenates_S8192x8x1_S8192x8x1_S8192x8x2_d2) : (⟨S8192x8x1, .f32⟩ : BufTy).Contents (Elt F) → (⟨S8192x8x1, .f32⟩ : BufTy).Contents (Elt F) → (⟨S8192x8x2, .f32⟩ : BufTy).Contents (Elt F)),
    reshape main_v46 main_v47 rfl shapeCasts_S8192x8x2_S8192x16 ]

/-- Level 4. -/
abbrev w5 : List (HloOp τ sig (Elt F)) :=
  [ unary main_v10 main_v48 ((extractStridedSlice S8192x16 ![0, 15] · slices_S8192x1023_S8192x16_0_15) : (⟨S8192x1023, .f32⟩ : BufTy).Contents (Elt F) → (⟨S8192x16, .f32⟩ : BufTy).Contents (Elt F)),
    nullary main_cst_6 (constant S_ .f32 0x3F800000#32),
    unary main_cst_6 main_v49 (broadcastInDim S8192x16 ![] bcast_S_S8192x16 : (⟨S_, .f32⟩ : BufTy).Contents (Elt F) → (⟨S8192x16, .f32⟩ : BufTy).Contents (Elt F)),
    binary main_v49 main_v48 main_v50 (subf : (⟨S8192x16, .f32⟩ : BufTy).Contents (Elt F) → (⟨S8192x16, .f32⟩ : BufTy).Contents (Elt F) → (⟨S8192x16, .f32⟩ : BufTy).Contents (Elt F)),
    binary main_v47 main_v50 main_v51 (mulf : (⟨S8192x16, .f32⟩ : BufTy).Contents (Elt F) → (⟨S8192x16, .f32⟩ : BufTy).Contents (Elt F) → (⟨S8192x16, .f32⟩ : BufTy).Contents (Elt F)),
    binary main_v47 main_v48 main_v52 (mulf : (⟨S8192x16, .f32⟩ : BufTy).Contents (Elt F) → (⟨S8192x16, .f32⟩ : BufTy).Contents (Elt F) → (⟨S8192x16, .f32⟩ : BufTy).Contents (Elt F)),
    unary main_v51 main_v53 (broadcastInDim S8192x16x1 ![0, 1] bcast_S8192x16_S8192x16x1_0_1 : (⟨S8192x16, .f32⟩ : BufTy).Contents (Elt F) → (⟨S8192x16x1, .f32⟩ : BufTy).Contents (Elt F)),
    unary main_v52 main_v54 (broadcastInDim S8192x16x1 ![0, 1] bcast_S8192x16_S8192x16x1_0_1 : (⟨S8192x16, .f32⟩ : BufTy).Contents (Elt F) → (⟨S8192x16x1, .f32⟩ : BufTy).Contents (Elt F)),
    binary main_v53 main_v54 main_v55 ((fun a b => concatenate S8192x16x2 2 [⟨S8192x16x1, a⟩, ⟨S8192x16x1, b⟩] concatenates_S8192x16x1_S8192x16x1_S8192x16x2_d2) : (⟨S8192x16x1, .f32⟩ : BufTy).Contents (Elt F) → (⟨S8192x16x1, .f32⟩ : BufTy).Contents (Elt F) → (⟨S8192x16x2, .f32⟩ : BufTy).Contents (Elt F)),
    reshape main_v55 main_v56 rfl shapeCasts_S8192x16x2_S8192x32 ]

/-- Level 5. -/
abbrev w6 : List (HloOp τ sig (Elt F)) :=
  [ unary main_v10 main_v57 ((extractStridedSlice S8192x32 ![0, 31] · slices_S8192x1023_S8192x32_0_31) : (⟨S8192x1023, .f32⟩ : BufTy).Contents (Elt F) → (⟨S8192x32, .f32⟩ : BufTy).Contents (Elt F)),
    nullary main_cst_7 (constant S_ .f32 0x3F800000#32),
    unary main_cst_7 main_v58 (broadcastInDim S8192x32 ![] bcast_S_S8192x32 : (⟨S_, .f32⟩ : BufTy).Contents (Elt F) → (⟨S8192x32, .f32⟩ : BufTy).Contents (Elt F)),
    binary main_v58 main_v57 main_v59 (subf : (⟨S8192x32, .f32⟩ : BufTy).Contents (Elt F) → (⟨S8192x32, .f32⟩ : BufTy).Contents (Elt F) → (⟨S8192x32, .f32⟩ : BufTy).Contents (Elt F)),
    binary main_v56 main_v59 main_v60 (mulf : (⟨S8192x32, .f32⟩ : BufTy).Contents (Elt F) → (⟨S8192x32, .f32⟩ : BufTy).Contents (Elt F) → (⟨S8192x32, .f32⟩ : BufTy).Contents (Elt F)),
    binary main_v56 main_v57 main_v61 (mulf : (⟨S8192x32, .f32⟩ : BufTy).Contents (Elt F) → (⟨S8192x32, .f32⟩ : BufTy).Contents (Elt F) → (⟨S8192x32, .f32⟩ : BufTy).Contents (Elt F)),
    unary main_v60 main_v62 (broadcastInDim S8192x32x1 ![0, 1] bcast_S8192x32_S8192x32x1_0_1 : (⟨S8192x32, .f32⟩ : BufTy).Contents (Elt F) → (⟨S8192x32x1, .f32⟩ : BufTy).Contents (Elt F)),
    unary main_v61 main_v63 (broadcastInDim S8192x32x1 ![0, 1] bcast_S8192x32_S8192x32x1_0_1 : (⟨S8192x32, .f32⟩ : BufTy).Contents (Elt F) → (⟨S8192x32x1, .f32⟩ : BufTy).Contents (Elt F)),
    binary main_v62 main_v63 main_v64 ((fun a b => concatenate S8192x32x2 2 [⟨S8192x32x1, a⟩, ⟨S8192x32x1, b⟩] concatenates_S8192x32x1_S8192x32x1_S8192x32x2_d2) : (⟨S8192x32x1, .f32⟩ : BufTy).Contents (Elt F) → (⟨S8192x32x1, .f32⟩ : BufTy).Contents (Elt F) → (⟨S8192x32x2, .f32⟩ : BufTy).Contents (Elt F)),
    reshape main_v64 main_v65 rfl shapeCasts_S8192x32x2_S8192x64 ]

/-- Level 6. -/
abbrev w7 : List (HloOp τ sig (Elt F)) :=
  [ unary main_v10 main_v66 ((extractStridedSlice S8192x64 ![0, 63] · slices_S8192x1023_S8192x64_0_63) : (⟨S8192x1023, .f32⟩ : BufTy).Contents (Elt F) → (⟨S8192x64, .f32⟩ : BufTy).Contents (Elt F)),
    nullary main_cst_8 (constant S_ .f32 0x3F800000#32),
    unary main_cst_8 main_v67 (broadcastInDim S8192x64 ![] bcast_S_S8192x64 : (⟨S_, .f32⟩ : BufTy).Contents (Elt F) → (⟨S8192x64, .f32⟩ : BufTy).Contents (Elt F)),
    binary main_v67 main_v66 main_v68 (subf : (⟨S8192x64, .f32⟩ : BufTy).Contents (Elt F) → (⟨S8192x64, .f32⟩ : BufTy).Contents (Elt F) → (⟨S8192x64, .f32⟩ : BufTy).Contents (Elt F)),
    binary main_v65 main_v68 main_v69 (mulf : (⟨S8192x64, .f32⟩ : BufTy).Contents (Elt F) → (⟨S8192x64, .f32⟩ : BufTy).Contents (Elt F) → (⟨S8192x64, .f32⟩ : BufTy).Contents (Elt F)),
    binary main_v65 main_v66 main_v70 (mulf : (⟨S8192x64, .f32⟩ : BufTy).Contents (Elt F) → (⟨S8192x64, .f32⟩ : BufTy).Contents (Elt F) → (⟨S8192x64, .f32⟩ : BufTy).Contents (Elt F)),
    unary main_v69 main_v71 (broadcastInDim S8192x64x1 ![0, 1] bcast_S8192x64_S8192x64x1_0_1 : (⟨S8192x64, .f32⟩ : BufTy).Contents (Elt F) → (⟨S8192x64x1, .f32⟩ : BufTy).Contents (Elt F)),
    unary main_v70 main_v72 (broadcastInDim S8192x64x1 ![0, 1] bcast_S8192x64_S8192x64x1_0_1 : (⟨S8192x64, .f32⟩ : BufTy).Contents (Elt F) → (⟨S8192x64x1, .f32⟩ : BufTy).Contents (Elt F)),
    binary main_v71 main_v72 main_v73 ((fun a b => concatenate S8192x64x2 2 [⟨S8192x64x1, a⟩, ⟨S8192x64x1, b⟩] concatenates_S8192x64x1_S8192x64x1_S8192x64x2_d2) : (⟨S8192x64x1, .f32⟩ : BufTy).Contents (Elt F) → (⟨S8192x64x1, .f32⟩ : BufTy).Contents (Elt F) → (⟨S8192x64x2, .f32⟩ : BufTy).Contents (Elt F)),
    reshape main_v73 main_v74 rfl shapeCasts_S8192x64x2_S8192x128 ]

/-- Level 7. -/
abbrev w8 : List (HloOp τ sig (Elt F)) :=
  [ unary main_v10 main_v75 ((extractStridedSlice S8192x128 ![0, 127] · slices_S8192x1023_S8192x128_0_127) : (⟨S8192x1023, .f32⟩ : BufTy).Contents (Elt F) → (⟨S8192x128, .f32⟩ : BufTy).Contents (Elt F)),
    nullary main_cst_9 (constant S_ .f32 0x3F800000#32),
    unary main_cst_9 main_v76 (broadcastInDim S8192x128 ![] bcast_S_S8192x128 : (⟨S_, .f32⟩ : BufTy).Contents (Elt F) → (⟨S8192x128, .f32⟩ : BufTy).Contents (Elt F)),
    binary main_v76 main_v75 main_v77 (subf : (⟨S8192x128, .f32⟩ : BufTy).Contents (Elt F) → (⟨S8192x128, .f32⟩ : BufTy).Contents (Elt F) → (⟨S8192x128, .f32⟩ : BufTy).Contents (Elt F)),
    binary main_v74 main_v77 main_v78 (mulf : (⟨S8192x128, .f32⟩ : BufTy).Contents (Elt F) → (⟨S8192x128, .f32⟩ : BufTy).Contents (Elt F) → (⟨S8192x128, .f32⟩ : BufTy).Contents (Elt F)),
    binary main_v74 main_v75 main_v79 (mulf : (⟨S8192x128, .f32⟩ : BufTy).Contents (Elt F) → (⟨S8192x128, .f32⟩ : BufTy).Contents (Elt F) → (⟨S8192x128, .f32⟩ : BufTy).Contents (Elt F)),
    unary main_v78 main_v80 (broadcastInDim S8192x128x1 ![0, 1] bcast_S8192x128_S8192x128x1_0_1 : (⟨S8192x128, .f32⟩ : BufTy).Contents (Elt F) → (⟨S8192x128x1, .f32⟩ : BufTy).Contents (Elt F)),
    unary main_v79 main_v81 (broadcastInDim S8192x128x1 ![0, 1] bcast_S8192x128_S8192x128x1_0_1 : (⟨S8192x128, .f32⟩ : BufTy).Contents (Elt F) → (⟨S8192x128x1, .f32⟩ : BufTy).Contents (Elt F)),
    binary main_v80 main_v81 main_v82 ((fun a b => concatenate S8192x128x2 2 [⟨S8192x128x1, a⟩, ⟨S8192x128x1, b⟩] concatenates_S8192x128x1_S8192x128x1_S8192x128x2_d2) : (⟨S8192x128x1, .f32⟩ : BufTy).Contents (Elt F) → (⟨S8192x128x1, .f32⟩ : BufTy).Contents (Elt F) → (⟨S8192x128x2, .f32⟩ : BufTy).Contents (Elt F)),
    reshape main_v82 main_v83 rfl shapeCasts_S8192x128x2_S8192x256 ]

/-- Level 8. -/
abbrev w9 : List (HloOp τ sig (Elt F)) :=
  [ unary main_v10 main_v84 ((extractStridedSlice S8192x256 ![0, 255] · slices_S8192x1023_S8192x256_0_255) : (⟨S8192x1023, .f32⟩ : BufTy).Contents (Elt F) → (⟨S8192x256, .f32⟩ : BufTy).Contents (Elt F)),
    nullary main_cst_10 (constant S_ .f32 0x3F800000#32),
    unary main_cst_10 main_v85 (broadcastInDim S8192x256 ![] bcast_S_S8192x256 : (⟨S_, .f32⟩ : BufTy).Contents (Elt F) → (⟨S8192x256, .f32⟩ : BufTy).Contents (Elt F)),
    binary main_v85 main_v84 main_v86 (subf : (⟨S8192x256, .f32⟩ : BufTy).Contents (Elt F) → (⟨S8192x256, .f32⟩ : BufTy).Contents (Elt F) → (⟨S8192x256, .f32⟩ : BufTy).Contents (Elt F)),
    binary main_v83 main_v86 main_v87 (mulf : (⟨S8192x256, .f32⟩ : BufTy).Contents (Elt F) → (⟨S8192x256, .f32⟩ : BufTy).Contents (Elt F) → (⟨S8192x256, .f32⟩ : BufTy).Contents (Elt F)),
    binary main_v83 main_v84 main_v88 (mulf : (⟨S8192x256, .f32⟩ : BufTy).Contents (Elt F) → (⟨S8192x256, .f32⟩ : BufTy).Contents (Elt F) → (⟨S8192x256, .f32⟩ : BufTy).Contents (Elt F)),
    unary main_v87 main_v89 (broadcastInDim S8192x256x1 ![0, 1] bcast_S8192x256_S8192x256x1_0_1 : (⟨S8192x256, .f32⟩ : BufTy).Contents (Elt F) → (⟨S8192x256x1, .f32⟩ : BufTy).Contents (Elt F)),
    unary main_v88 main_v90 (broadcastInDim S8192x256x1 ![0, 1] bcast_S8192x256_S8192x256x1_0_1 : (⟨S8192x256, .f32⟩ : BufTy).Contents (Elt F) → (⟨S8192x256x1, .f32⟩ : BufTy).Contents (Elt F)),
    binary main_v89 main_v90 main_v91 ((fun a b => concatenate S8192x256x2 2 [⟨S8192x256x1, a⟩, ⟨S8192x256x1, b⟩] concatenates_S8192x256x1_S8192x256x1_S8192x256x2_d2) : (⟨S8192x256x1, .f32⟩ : BufTy).Contents (Elt F) → (⟨S8192x256x1, .f32⟩ : BufTy).Contents (Elt F) → (⟨S8192x256x2, .f32⟩ : BufTy).Contents (Elt F)),
    reshape main_v91 main_v92 rfl shapeCasts_S8192x256x2_S8192x512 ]

/-- Level 9. -/
abbrev w10 : List (HloOp τ sig (Elt F)) :=
  [ unary main_v10 main_v93 ((extractStridedSlice S8192x512 ![0, 511] · slices_S8192x1023_S8192x512_0_511) : (⟨S8192x1023, .f32⟩ : BufTy).Contents (Elt F) → (⟨S8192x512, .f32⟩ : BufTy).Contents (Elt F)),
    nullary main_cst_11 (constant S_ .f32 0x3F800000#32),
    unary main_cst_11 main_v94 (broadcastInDim S8192x512 ![] bcast_S_S8192x512 : (⟨S_, .f32⟩ : BufTy).Contents (Elt F) → (⟨S8192x512, .f32⟩ : BufTy).Contents (Elt F)),
    binary main_v94 main_v93 main_v95 (subf : (⟨S8192x512, .f32⟩ : BufTy).Contents (Elt F) → (⟨S8192x512, .f32⟩ : BufTy).Contents (Elt F) → (⟨S8192x512, .f32⟩ : BufTy).Contents (Elt F)),
    binary main_v92 main_v95 main_v96 (mulf : (⟨S8192x512, .f32⟩ : BufTy).Contents (Elt F) → (⟨S8192x512, .f32⟩ : BufTy).Contents (Elt F) → (⟨S8192x512, .f32⟩ : BufTy).Contents (Elt F)),
    binary main_v92 main_v93 main_v97 (mulf : (⟨S8192x512, .f32⟩ : BufTy).Contents (Elt F) → (⟨S8192x512, .f32⟩ : BufTy).Contents (Elt F) → (⟨S8192x512, .f32⟩ : BufTy).Contents (Elt F)),
    unary main_v96 main_v98 (broadcastInDim S8192x512x1 ![0, 1] bcast_S8192x512_S8192x512x1_0_1 : (⟨S8192x512, .f32⟩ : BufTy).Contents (Elt F) → (⟨S8192x512x1, .f32⟩ : BufTy).Contents (Elt F)),
    unary main_v97 main_v99 (broadcastInDim S8192x512x1 ![0, 1] bcast_S8192x512_S8192x512x1_0_1 : (⟨S8192x512, .f32⟩ : BufTy).Contents (Elt F) → (⟨S8192x512x1, .f32⟩ : BufTy).Contents (Elt F)),
    binary main_v98 main_v99 main_v100 ((fun a b => concatenate S8192x512x2 2 [⟨S8192x512x1, a⟩, ⟨S8192x512x1, b⟩] concatenates_S8192x512x1_S8192x512x1_S8192x512x2_d2) : (⟨S8192x512x1, .f32⟩ : BufTy).Contents (Elt F) → (⟨S8192x512x1, .f32⟩ : BufTy).Contents (Elt F) → (⟨S8192x512x2, .f32⟩ : BufTy).Contents (Elt F)),
    reshape main_v100 main_v101 rfl shapeCasts_S8192x512x2_S8192x1024 ]

/-- The product with the leaf table. -/
abbrev w11 : List (HloOp τ sig (Elt F)) :=
  [ binary main_v101 main_arg3 main_v102 ((fun l r => Host.dotGeneral dot_S8192x1024_S1024x24_S8192x24_1_0_0_1_n_n none l r) : (⟨S8192x1024, .f32⟩ : BufTy).Contents (Elt F) → (⟨S1024x24, .f32⟩ : BufTy).Contents (Elt F) → (⟨S8192x24, .f32⟩ : BufTy).Contents (Elt F)) ]

/-- The line up to and including each window. -/
abbrev P0 : List (HloOp τ sig (Elt F)) := w0
abbrev P1 : List (HloOp τ sig (Elt F)) := P0 ++ w1
abbrev P2 : List (HloOp τ sig (Elt F)) := P1 ++ w2
abbrev P3 : List (HloOp τ sig (Elt F)) := P2 ++ w3
abbrev P4 : List (HloOp τ sig (Elt F)) := P3 ++ w4
abbrev P5 : List (HloOp τ sig (Elt F)) := P4 ++ w5
abbrev P6 : List (HloOp τ sig (Elt F)) := P5 ++ w6
abbrev P7 : List (HloOp τ sig (Elt F)) := P6 ++ w7
abbrev P8 : List (HloOp τ sig (Elt F)) := P7 ++ w8
abbrev P9 : List (HloOp τ sig (Elt F)) := P8 ++ w9
abbrev P10 : List (HloOp τ sig (Elt F)) := P9 ++ w10
abbrev P11 : List (HloOp τ sig (Elt F)) := P10 ++ w11

set_option maxRecDepth 8192 in
theorem ops_eq : (ops : List (HloOp τ sig (Elt F))) = P11 := rfl

/-! ## The named terms -/

/-- The node weights as a term of the arguments. -/
def pv10 (V0 : Valuation τ sig (Elt F)) : (⟨S8192x1023, .f32⟩ : BufTy).Contents (Elt F) :=
  Host.divf (broadcastInDim S8192x1023 ![] bcast_S_S8192x1023 (constant S_ .f32 0x3F800000#32)) (addf (broadcastInDim S8192x1023 ![] bcast_S_S8192x1023 (constant S_ .f32 0x3F800000#32)) (Host.exp (Host.negf (addf (Host.dotGeneral dot_S8192x2048_S2048x1023_S8192x1023_1_0_0_1_n_n none (V0 (Proc.devRef .tc main_arg0)) (transpose S2048x1023 [1, 0] (V0 (Proc.devRef .tc main_arg1)) transposes_S1023x2048_S2048x1023_1_0)) (broadcastInDim S8192x1023 ![0, 1] bcast_S1x1023_S8192x1023_0_1 (broadcastInDim S1x1023 ![1] bcast_S1023_S1x1023_1 (V0 (Proc.devRef .tc main_arg2))))))))

/-- The all-ones column. -/
def pv11 : (⟨S8192x1, .f32⟩ : BufTy).Contents (Elt F) :=
  broadcastInDim S8192x1 ![] bcast_S_S8192x1 (constant S_ .f32 0x3F800000#32)

/-- Level 0's array from the array before it and the node weights. -/
def lvlT0 (prev : (⟨S8192x1, .f32⟩ : BufTy).Contents (Elt F)) (v : (⟨S8192x1023, .f32⟩ : BufTy).Contents (Elt F)) :
    (⟨S8192x2, .f32⟩ : BufTy).Contents (Elt F) :=
  shapeCast _ (concatenate S8192x1x2 2 [⟨S8192x1x1, (broadcastInDim S8192x1x1 ![0, 1] bcast_S8192x1_S8192x1x1_0_1 (mulf prev (subf (broadcastInDim S8192x1 ![] bcast_S_S8192x1 (constant S_ .f32 0x3F800000#32)) (extractStridedSlice S8192x1 ![0, 0] v slices_S8192x1023_S8192x1_0_0))))⟩, ⟨S8192x1x1, (broadcastInDim S8192x1x1 ![0, 1] bcast_S8192x1_S8192x1x1_0_1 (mulf prev (extractStridedSlice S8192x1 ![0, 0] v slices_S8192x1023_S8192x1_0_0)))⟩] concatenates_S8192x1x1_S8192x1x1_S8192x1x2_d2) shapeCasts_S8192x1x2_S8192x2

/-- Level 1's array from the array before it and the node weights. -/
def lvlT1 (prev : (⟨S8192x2, .f32⟩ : BufTy).Contents (Elt F)) (v : (⟨S8192x1023, .f32⟩ : BufTy).Contents (Elt F)) :
    (⟨S8192x4, .f32⟩ : BufTy).Contents (Elt F) :=
  shapeCast _ (concatenate S8192x2x2 2 [⟨S8192x2x1, (broadcastInDim S8192x2x1 ![0, 1] bcast_S8192x2_S8192x2x1_0_1 (mulf prev (subf (broadcastInDim S8192x2 ![] bcast_S_S8192x2 (constant S_ .f32 0x3F800000#32)) (extractStridedSlice S8192x2 ![0, 1] v slices_S8192x1023_S8192x2_0_1))))⟩, ⟨S8192x2x1, (broadcastInDim S8192x2x1 ![0, 1] bcast_S8192x2_S8192x2x1_0_1 (mulf prev (extractStridedSlice S8192x2 ![0, 1] v slices_S8192x1023_S8192x2_0_1)))⟩] concatenates_S8192x2x1_S8192x2x1_S8192x2x2_d2) shapeCasts_S8192x2x2_S8192x4

/-- Level 2's array from the array before it and the node weights. -/
def lvlT2 (prev : (⟨S8192x4, .f32⟩ : BufTy).Contents (Elt F)) (v : (⟨S8192x1023, .f32⟩ : BufTy).Contents (Elt F)) :
    (⟨S8192x8, .f32⟩ : BufTy).Contents (Elt F) :=
  shapeCast _ (concatenate S8192x4x2 2 [⟨S8192x4x1, (broadcastInDim S8192x4x1 ![0, 1] bcast_S8192x4_S8192x4x1_0_1 (mulf prev (subf (broadcastInDim S8192x4 ![] bcast_S_S8192x4 (constant S_ .f32 0x3F800000#32)) (extractStridedSlice S8192x4 ![0, 3] v slices_S8192x1023_S8192x4_0_3))))⟩, ⟨S8192x4x1, (broadcastInDim S8192x4x1 ![0, 1] bcast_S8192x4_S8192x4x1_0_1 (mulf prev (extractStridedSlice S8192x4 ![0, 3] v slices_S8192x1023_S8192x4_0_3)))⟩] concatenates_S8192x4x1_S8192x4x1_S8192x4x2_d2) shapeCasts_S8192x4x2_S8192x8

/-- Level 3's array from the array before it and the node weights. -/
def lvlT3 (prev : (⟨S8192x8, .f32⟩ : BufTy).Contents (Elt F)) (v : (⟨S8192x1023, .f32⟩ : BufTy).Contents (Elt F)) :
    (⟨S8192x16, .f32⟩ : BufTy).Contents (Elt F) :=
  shapeCast _ (concatenate S8192x8x2 2 [⟨S8192x8x1, (broadcastInDim S8192x8x1 ![0, 1] bcast_S8192x8_S8192x8x1_0_1 (mulf prev (subf (broadcastInDim S8192x8 ![] bcast_S_S8192x8 (constant S_ .f32 0x3F800000#32)) (extractStridedSlice S8192x8 ![0, 7] v slices_S8192x1023_S8192x8_0_7))))⟩, ⟨S8192x8x1, (broadcastInDim S8192x8x1 ![0, 1] bcast_S8192x8_S8192x8x1_0_1 (mulf prev (extractStridedSlice S8192x8 ![0, 7] v slices_S8192x1023_S8192x8_0_7)))⟩] concatenates_S8192x8x1_S8192x8x1_S8192x8x2_d2) shapeCasts_S8192x8x2_S8192x16

/-- Level 4's array from the array before it and the node weights. -/
def lvlT4 (prev : (⟨S8192x16, .f32⟩ : BufTy).Contents (Elt F)) (v : (⟨S8192x1023, .f32⟩ : BufTy).Contents (Elt F)) :
    (⟨S8192x32, .f32⟩ : BufTy).Contents (Elt F) :=
  shapeCast _ (concatenate S8192x16x2 2 [⟨S8192x16x1, (broadcastInDim S8192x16x1 ![0, 1] bcast_S8192x16_S8192x16x1_0_1 (mulf prev (subf (broadcastInDim S8192x16 ![] bcast_S_S8192x16 (constant S_ .f32 0x3F800000#32)) (extractStridedSlice S8192x16 ![0, 15] v slices_S8192x1023_S8192x16_0_15))))⟩, ⟨S8192x16x1, (broadcastInDim S8192x16x1 ![0, 1] bcast_S8192x16_S8192x16x1_0_1 (mulf prev (extractStridedSlice S8192x16 ![0, 15] v slices_S8192x1023_S8192x16_0_15)))⟩] concatenates_S8192x16x1_S8192x16x1_S8192x16x2_d2) shapeCasts_S8192x16x2_S8192x32

/-- Level 5's array from the array before it and the node weights. -/
def lvlT5 (prev : (⟨S8192x32, .f32⟩ : BufTy).Contents (Elt F)) (v : (⟨S8192x1023, .f32⟩ : BufTy).Contents (Elt F)) :
    (⟨S8192x64, .f32⟩ : BufTy).Contents (Elt F) :=
  shapeCast _ (concatenate S8192x32x2 2 [⟨S8192x32x1, (broadcastInDim S8192x32x1 ![0, 1] bcast_S8192x32_S8192x32x1_0_1 (mulf prev (subf (broadcastInDim S8192x32 ![] bcast_S_S8192x32 (constant S_ .f32 0x3F800000#32)) (extractStridedSlice S8192x32 ![0, 31] v slices_S8192x1023_S8192x32_0_31))))⟩, ⟨S8192x32x1, (broadcastInDim S8192x32x1 ![0, 1] bcast_S8192x32_S8192x32x1_0_1 (mulf prev (extractStridedSlice S8192x32 ![0, 31] v slices_S8192x1023_S8192x32_0_31)))⟩] concatenates_S8192x32x1_S8192x32x1_S8192x32x2_d2) shapeCasts_S8192x32x2_S8192x64

/-- Level 6's array from the array before it and the node weights. -/
def lvlT6 (prev : (⟨S8192x64, .f32⟩ : BufTy).Contents (Elt F)) (v : (⟨S8192x1023, .f32⟩ : BufTy).Contents (Elt F)) :
    (⟨S8192x128, .f32⟩ : BufTy).Contents (Elt F) :=
  shapeCast _ (concatenate S8192x64x2 2 [⟨S8192x64x1, (broadcastInDim S8192x64x1 ![0, 1] bcast_S8192x64_S8192x64x1_0_1 (mulf prev (subf (broadcastInDim S8192x64 ![] bcast_S_S8192x64 (constant S_ .f32 0x3F800000#32)) (extractStridedSlice S8192x64 ![0, 63] v slices_S8192x1023_S8192x64_0_63))))⟩, ⟨S8192x64x1, (broadcastInDim S8192x64x1 ![0, 1] bcast_S8192x64_S8192x64x1_0_1 (mulf prev (extractStridedSlice S8192x64 ![0, 63] v slices_S8192x1023_S8192x64_0_63)))⟩] concatenates_S8192x64x1_S8192x64x1_S8192x64x2_d2) shapeCasts_S8192x64x2_S8192x128

/-- Level 7's array from the array before it and the node weights. -/
def lvlT7 (prev : (⟨S8192x128, .f32⟩ : BufTy).Contents (Elt F)) (v : (⟨S8192x1023, .f32⟩ : BufTy).Contents (Elt F)) :
    (⟨S8192x256, .f32⟩ : BufTy).Contents (Elt F) :=
  shapeCast _ (concatenate S8192x128x2 2 [⟨S8192x128x1, (broadcastInDim S8192x128x1 ![0, 1] bcast_S8192x128_S8192x128x1_0_1 (mulf prev (subf (broadcastInDim S8192x128 ![] bcast_S_S8192x128 (constant S_ .f32 0x3F800000#32)) (extractStridedSlice S8192x128 ![0, 127] v slices_S8192x1023_S8192x128_0_127))))⟩, ⟨S8192x128x1, (broadcastInDim S8192x128x1 ![0, 1] bcast_S8192x128_S8192x128x1_0_1 (mulf prev (extractStridedSlice S8192x128 ![0, 127] v slices_S8192x1023_S8192x128_0_127)))⟩] concatenates_S8192x128x1_S8192x128x1_S8192x128x2_d2) shapeCasts_S8192x128x2_S8192x256

/-- Level 8's array from the array before it and the node weights. -/
def lvlT8 (prev : (⟨S8192x256, .f32⟩ : BufTy).Contents (Elt F)) (v : (⟨S8192x1023, .f32⟩ : BufTy).Contents (Elt F)) :
    (⟨S8192x512, .f32⟩ : BufTy).Contents (Elt F) :=
  shapeCast _ (concatenate S8192x256x2 2 [⟨S8192x256x1, (broadcastInDim S8192x256x1 ![0, 1] bcast_S8192x256_S8192x256x1_0_1 (mulf prev (subf (broadcastInDim S8192x256 ![] bcast_S_S8192x256 (constant S_ .f32 0x3F800000#32)) (extractStridedSlice S8192x256 ![0, 255] v slices_S8192x1023_S8192x256_0_255))))⟩, ⟨S8192x256x1, (broadcastInDim S8192x256x1 ![0, 1] bcast_S8192x256_S8192x256x1_0_1 (mulf prev (extractStridedSlice S8192x256 ![0, 255] v slices_S8192x1023_S8192x256_0_255)))⟩] concatenates_S8192x256x1_S8192x256x1_S8192x256x2_d2) shapeCasts_S8192x256x2_S8192x512

/-- Level 9's array from the array before it and the node weights. -/
def lvlT9 (prev : (⟨S8192x512, .f32⟩ : BufTy).Contents (Elt F)) (v : (⟨S8192x1023, .f32⟩ : BufTy).Contents (Elt F)) :
    (⟨S8192x1024, .f32⟩ : BufTy).Contents (Elt F) :=
  shapeCast _ (concatenate S8192x512x2 2 [⟨S8192x512x1, (broadcastInDim S8192x512x1 ![0, 1] bcast_S8192x512_S8192x512x1_0_1 (mulf prev (subf (broadcastInDim S8192x512 ![] bcast_S_S8192x512 (constant S_ .f32 0x3F800000#32)) (extractStridedSlice S8192x512 ![0, 511] v slices_S8192x1023_S8192x512_0_511))))⟩, ⟨S8192x512x1, (broadcastInDim S8192x512x1 ![0, 1] bcast_S8192x512_S8192x512x1_0_1 (mulf prev (extractStridedSlice S8192x512 ![0, 511] v slices_S8192x1023_S8192x512_0_511)))⟩] concatenates_S8192x512x1_S8192x512x1_S8192x512x2_d2) shapeCasts_S8192x512x2_S8192x1024

/-- The arrays after the levels, as terms of the arguments. -/
def pv20 (V0 : Valuation τ sig (Elt F)) : (⟨S8192x2, .f32⟩ : BufTy).Contents (Elt F) := lvlT0 pv11 (pv10 V0)
def pv29 (V0 : Valuation τ sig (Elt F)) : (⟨S8192x4, .f32⟩ : BufTy).Contents (Elt F) := lvlT1 (pv20 V0) (pv10 V0)
def pv38 (V0 : Valuation τ sig (Elt F)) : (⟨S8192x8, .f32⟩ : BufTy).Contents (Elt F) := lvlT2 (pv29 V0) (pv10 V0)
def pv47 (V0 : Valuation τ sig (Elt F)) : (⟨S8192x16, .f32⟩ : BufTy).Contents (Elt F) := lvlT3 (pv38 V0) (pv10 V0)
def pv56 (V0 : Valuation τ sig (Elt F)) : (⟨S8192x32, .f32⟩ : BufTy).Contents (Elt F) := lvlT4 (pv47 V0) (pv10 V0)
def pv65 (V0 : Valuation τ sig (Elt F)) : (⟨S8192x64, .f32⟩ : BufTy).Contents (Elt F) := lvlT5 (pv56 V0) (pv10 V0)
def pv74 (V0 : Valuation τ sig (Elt F)) : (⟨S8192x128, .f32⟩ : BufTy).Contents (Elt F) := lvlT6 (pv65 V0) (pv10 V0)
def pv83 (V0 : Valuation τ sig (Elt F)) : (⟨S8192x256, .f32⟩ : BufTy).Contents (Elt F) := lvlT7 (pv74 V0) (pv10 V0)
def pv92 (V0 : Valuation τ sig (Elt F)) : (⟨S8192x512, .f32⟩ : BufTy).Contents (Elt F) := lvlT8 (pv83 V0) (pv10 V0)
def pv101 (V0 : Valuation τ sig (Elt F)) : (⟨S8192x1024, .f32⟩ : BufTy).Contents (Elt F) := lvlT9 (pv92 V0) (pv10 V0)

/-- The result as a term of the arguments. -/
def refOutH (V0 : Valuation τ sig (Elt F)) : (⟨S8192x24, .f32⟩ : BufTy).Contents (Elt F) :=
  Host.dotGeneral dot_S8192x1024_S1024x24_S8192x24_1_0_0_1_n_n none (pv101 V0) (V0 (Proc.devRef .tc main_arg3))

/-! ## Each window alone -/

theorem w0_v10 (V : Valuation τ sig (Elt F)) : after w0 V (Proc.devRef .tc main_v10) = pv10 V := by
  after_results_simp <;> rfl
theorem w0_v11 (V : Valuation τ sig (Elt F)) : after w0 V (Proc.devRef .tc main_v11) = pv11 := by
  after_results_simp <;> rfl
theorem w0_arg0 (V : Valuation τ sig (Elt F)) : after w0 V (Proc.devRef .tc main_arg0) = V (Proc.devRef .tc main_arg0) := by
  after_results_simp <;> rfl
theorem w0_arg1 (V : Valuation τ sig (Elt F)) : after w0 V (Proc.devRef .tc main_arg1) = V (Proc.devRef .tc main_arg1) := by
  after_results_simp <;> rfl
theorem w0_arg2 (V : Valuation τ sig (Elt F)) : after w0 V (Proc.devRef .tc main_arg2) = V (Proc.devRef .tc main_arg2) := by
  after_results_simp <;> rfl
theorem w0_arg3 (V : Valuation τ sig (Elt F)) : after w0 V (Proc.devRef .tc main_arg3) = V (Proc.devRef .tc main_arg3) := by
  after_results_simp <;> rfl

theorem w1_out (V : Valuation τ sig (Elt F)) :
    after w1 V (Proc.devRef .tc main_v20) = lvlT0 (V (Proc.devRef .tc main_v11)) (V (Proc.devRef .tc main_v10)) := by
  after_results_simp <;> rfl
theorem w1_v10 (V : Valuation τ sig (Elt F)) : after w1 V (Proc.devRef .tc main_v10) = V (Proc.devRef .tc main_v10) := by
  after_results_simp <;> rfl
theorem w1_arg0 (V : Valuation τ sig (Elt F)) : after w1 V (Proc.devRef .tc main_arg0) = V (Proc.devRef .tc main_arg0) := by
  after_results_simp <;> rfl
theorem w1_arg1 (V : Valuation τ sig (Elt F)) : after w1 V (Proc.devRef .tc main_arg1) = V (Proc.devRef .tc main_arg1) := by
  after_results_simp <;> rfl
theorem w1_arg2 (V : Valuation τ sig (Elt F)) : after w1 V (Proc.devRef .tc main_arg2) = V (Proc.devRef .tc main_arg2) := by
  after_results_simp <;> rfl
theorem w1_arg3 (V : Valuation τ sig (Elt F)) : after w1 V (Proc.devRef .tc main_arg3) = V (Proc.devRef .tc main_arg3) := by
  after_results_simp <;> rfl

theorem w2_out (V : Valuation τ sig (Elt F)) :
    after w2 V (Proc.devRef .tc main_v29) = lvlT1 (V (Proc.devRef .tc main_v20)) (V (Proc.devRef .tc main_v10)) := by
  after_results_simp <;> rfl
theorem w2_v10 (V : Valuation τ sig (Elt F)) : after w2 V (Proc.devRef .tc main_v10) = V (Proc.devRef .tc main_v10) := by
  after_results_simp <;> rfl
theorem w2_arg0 (V : Valuation τ sig (Elt F)) : after w2 V (Proc.devRef .tc main_arg0) = V (Proc.devRef .tc main_arg0) := by
  after_results_simp <;> rfl
theorem w2_arg1 (V : Valuation τ sig (Elt F)) : after w2 V (Proc.devRef .tc main_arg1) = V (Proc.devRef .tc main_arg1) := by
  after_results_simp <;> rfl
theorem w2_arg2 (V : Valuation τ sig (Elt F)) : after w2 V (Proc.devRef .tc main_arg2) = V (Proc.devRef .tc main_arg2) := by
  after_results_simp <;> rfl
theorem w2_arg3 (V : Valuation τ sig (Elt F)) : after w2 V (Proc.devRef .tc main_arg3) = V (Proc.devRef .tc main_arg3) := by
  after_results_simp <;> rfl

theorem w3_out (V : Valuation τ sig (Elt F)) :
    after w3 V (Proc.devRef .tc main_v38) = lvlT2 (V (Proc.devRef .tc main_v29)) (V (Proc.devRef .tc main_v10)) := by
  after_results_simp <;> rfl
theorem w3_v10 (V : Valuation τ sig (Elt F)) : after w3 V (Proc.devRef .tc main_v10) = V (Proc.devRef .tc main_v10) := by
  after_results_simp <;> rfl
theorem w3_arg0 (V : Valuation τ sig (Elt F)) : after w3 V (Proc.devRef .tc main_arg0) = V (Proc.devRef .tc main_arg0) := by
  after_results_simp <;> rfl
theorem w3_arg1 (V : Valuation τ sig (Elt F)) : after w3 V (Proc.devRef .tc main_arg1) = V (Proc.devRef .tc main_arg1) := by
  after_results_simp <;> rfl
theorem w3_arg2 (V : Valuation τ sig (Elt F)) : after w3 V (Proc.devRef .tc main_arg2) = V (Proc.devRef .tc main_arg2) := by
  after_results_simp <;> rfl
theorem w3_arg3 (V : Valuation τ sig (Elt F)) : after w3 V (Proc.devRef .tc main_arg3) = V (Proc.devRef .tc main_arg3) := by
  after_results_simp <;> rfl

theorem w4_out (V : Valuation τ sig (Elt F)) :
    after w4 V (Proc.devRef .tc main_v47) = lvlT3 (V (Proc.devRef .tc main_v38)) (V (Proc.devRef .tc main_v10)) := by
  after_results_simp <;> rfl
theorem w4_v10 (V : Valuation τ sig (Elt F)) : after w4 V (Proc.devRef .tc main_v10) = V (Proc.devRef .tc main_v10) := by
  after_results_simp <;> rfl
theorem w4_arg0 (V : Valuation τ sig (Elt F)) : after w4 V (Proc.devRef .tc main_arg0) = V (Proc.devRef .tc main_arg0) := by
  after_results_simp <;> rfl
theorem w4_arg1 (V : Valuation τ sig (Elt F)) : after w4 V (Proc.devRef .tc main_arg1) = V (Proc.devRef .tc main_arg1) := by
  after_results_simp <;> rfl
theorem w4_arg2 (V : Valuation τ sig (Elt F)) : after w4 V (Proc.devRef .tc main_arg2) = V (Proc.devRef .tc main_arg2) := by
  after_results_simp <;> rfl
theorem w4_arg3 (V : Valuation τ sig (Elt F)) : after w4 V (Proc.devRef .tc main_arg3) = V (Proc.devRef .tc main_arg3) := by
  after_results_simp <;> rfl

theorem w5_out (V : Valuation τ sig (Elt F)) :
    after w5 V (Proc.devRef .tc main_v56) = lvlT4 (V (Proc.devRef .tc main_v47)) (V (Proc.devRef .tc main_v10)) := by
  after_results_simp <;> rfl
theorem w5_v10 (V : Valuation τ sig (Elt F)) : after w5 V (Proc.devRef .tc main_v10) = V (Proc.devRef .tc main_v10) := by
  after_results_simp <;> rfl
theorem w5_arg0 (V : Valuation τ sig (Elt F)) : after w5 V (Proc.devRef .tc main_arg0) = V (Proc.devRef .tc main_arg0) := by
  after_results_simp <;> rfl
theorem w5_arg1 (V : Valuation τ sig (Elt F)) : after w5 V (Proc.devRef .tc main_arg1) = V (Proc.devRef .tc main_arg1) := by
  after_results_simp <;> rfl
theorem w5_arg2 (V : Valuation τ sig (Elt F)) : after w5 V (Proc.devRef .tc main_arg2) = V (Proc.devRef .tc main_arg2) := by
  after_results_simp <;> rfl
theorem w5_arg3 (V : Valuation τ sig (Elt F)) : after w5 V (Proc.devRef .tc main_arg3) = V (Proc.devRef .tc main_arg3) := by
  after_results_simp <;> rfl

theorem w6_out (V : Valuation τ sig (Elt F)) :
    after w6 V (Proc.devRef .tc main_v65) = lvlT5 (V (Proc.devRef .tc main_v56)) (V (Proc.devRef .tc main_v10)) := by
  after_results_simp <;> rfl
theorem w6_v10 (V : Valuation τ sig (Elt F)) : after w6 V (Proc.devRef .tc main_v10) = V (Proc.devRef .tc main_v10) := by
  after_results_simp <;> rfl
theorem w6_arg0 (V : Valuation τ sig (Elt F)) : after w6 V (Proc.devRef .tc main_arg0) = V (Proc.devRef .tc main_arg0) := by
  after_results_simp <;> rfl
theorem w6_arg1 (V : Valuation τ sig (Elt F)) : after w6 V (Proc.devRef .tc main_arg1) = V (Proc.devRef .tc main_arg1) := by
  after_results_simp <;> rfl
theorem w6_arg2 (V : Valuation τ sig (Elt F)) : after w6 V (Proc.devRef .tc main_arg2) = V (Proc.devRef .tc main_arg2) := by
  after_results_simp <;> rfl
theorem w6_arg3 (V : Valuation τ sig (Elt F)) : after w6 V (Proc.devRef .tc main_arg3) = V (Proc.devRef .tc main_arg3) := by
  after_results_simp <;> rfl

theorem w7_out (V : Valuation τ sig (Elt F)) :
    after w7 V (Proc.devRef .tc main_v74) = lvlT6 (V (Proc.devRef .tc main_v65)) (V (Proc.devRef .tc main_v10)) := by
  after_results_simp <;> rfl
theorem w7_v10 (V : Valuation τ sig (Elt F)) : after w7 V (Proc.devRef .tc main_v10) = V (Proc.devRef .tc main_v10) := by
  after_results_simp <;> rfl
theorem w7_arg0 (V : Valuation τ sig (Elt F)) : after w7 V (Proc.devRef .tc main_arg0) = V (Proc.devRef .tc main_arg0) := by
  after_results_simp <;> rfl
theorem w7_arg1 (V : Valuation τ sig (Elt F)) : after w7 V (Proc.devRef .tc main_arg1) = V (Proc.devRef .tc main_arg1) := by
  after_results_simp <;> rfl
theorem w7_arg2 (V : Valuation τ sig (Elt F)) : after w7 V (Proc.devRef .tc main_arg2) = V (Proc.devRef .tc main_arg2) := by
  after_results_simp <;> rfl
theorem w7_arg3 (V : Valuation τ sig (Elt F)) : after w7 V (Proc.devRef .tc main_arg3) = V (Proc.devRef .tc main_arg3) := by
  after_results_simp <;> rfl

theorem w8_out (V : Valuation τ sig (Elt F)) :
    after w8 V (Proc.devRef .tc main_v83) = lvlT7 (V (Proc.devRef .tc main_v74)) (V (Proc.devRef .tc main_v10)) := by
  after_results_simp <;> rfl
theorem w8_v10 (V : Valuation τ sig (Elt F)) : after w8 V (Proc.devRef .tc main_v10) = V (Proc.devRef .tc main_v10) := by
  after_results_simp <;> rfl
theorem w8_arg0 (V : Valuation τ sig (Elt F)) : after w8 V (Proc.devRef .tc main_arg0) = V (Proc.devRef .tc main_arg0) := by
  after_results_simp <;> rfl
theorem w8_arg1 (V : Valuation τ sig (Elt F)) : after w8 V (Proc.devRef .tc main_arg1) = V (Proc.devRef .tc main_arg1) := by
  after_results_simp <;> rfl
theorem w8_arg2 (V : Valuation τ sig (Elt F)) : after w8 V (Proc.devRef .tc main_arg2) = V (Proc.devRef .tc main_arg2) := by
  after_results_simp <;> rfl
theorem w8_arg3 (V : Valuation τ sig (Elt F)) : after w8 V (Proc.devRef .tc main_arg3) = V (Proc.devRef .tc main_arg3) := by
  after_results_simp <;> rfl

theorem w9_out (V : Valuation τ sig (Elt F)) :
    after w9 V (Proc.devRef .tc main_v92) = lvlT8 (V (Proc.devRef .tc main_v83)) (V (Proc.devRef .tc main_v10)) := by
  after_results_simp <;> rfl
theorem w9_v10 (V : Valuation τ sig (Elt F)) : after w9 V (Proc.devRef .tc main_v10) = V (Proc.devRef .tc main_v10) := by
  after_results_simp <;> rfl
theorem w9_arg0 (V : Valuation τ sig (Elt F)) : after w9 V (Proc.devRef .tc main_arg0) = V (Proc.devRef .tc main_arg0) := by
  after_results_simp <;> rfl
theorem w9_arg1 (V : Valuation τ sig (Elt F)) : after w9 V (Proc.devRef .tc main_arg1) = V (Proc.devRef .tc main_arg1) := by
  after_results_simp <;> rfl
theorem w9_arg2 (V : Valuation τ sig (Elt F)) : after w9 V (Proc.devRef .tc main_arg2) = V (Proc.devRef .tc main_arg2) := by
  after_results_simp <;> rfl
theorem w9_arg3 (V : Valuation τ sig (Elt F)) : after w9 V (Proc.devRef .tc main_arg3) = V (Proc.devRef .tc main_arg3) := by
  after_results_simp <;> rfl

theorem w10_out (V : Valuation τ sig (Elt F)) :
    after w10 V (Proc.devRef .tc main_v101) = lvlT9 (V (Proc.devRef .tc main_v92)) (V (Proc.devRef .tc main_v10)) := by
  after_results_simp <;> rfl
theorem w10_v10 (V : Valuation τ sig (Elt F)) : after w10 V (Proc.devRef .tc main_v10) = V (Proc.devRef .tc main_v10) := by
  after_results_simp <;> rfl
theorem w10_arg0 (V : Valuation τ sig (Elt F)) : after w10 V (Proc.devRef .tc main_arg0) = V (Proc.devRef .tc main_arg0) := by
  after_results_simp <;> rfl
theorem w10_arg1 (V : Valuation τ sig (Elt F)) : after w10 V (Proc.devRef .tc main_arg1) = V (Proc.devRef .tc main_arg1) := by
  after_results_simp <;> rfl
theorem w10_arg2 (V : Valuation τ sig (Elt F)) : after w10 V (Proc.devRef .tc main_arg2) = V (Proc.devRef .tc main_arg2) := by
  after_results_simp <;> rfl
theorem w10_arg3 (V : Valuation τ sig (Elt F)) : after w10 V (Proc.devRef .tc main_arg3) = V (Proc.devRef .tc main_arg3) := by
  after_results_simp <;> rfl

theorem w11_out (V : Valuation τ sig (Elt F)) :
    after w11 V (Proc.devRef .tc main_v102)
      = Host.dotGeneral dot_S8192x1024_S1024x24_S8192x24_1_0_0_1_n_n none (V (Proc.devRef .tc main_v101)) (V (Proc.devRef .tc main_arg3)) := by
  after_results_simp <;> rfl
theorem w11_arg0 (V : Valuation τ sig (Elt F)) : after w11 V (Proc.devRef .tc main_arg0) = V (Proc.devRef .tc main_arg0) := by
  after_results_simp <;> rfl
theorem w11_arg1 (V : Valuation τ sig (Elt F)) : after w11 V (Proc.devRef .tc main_arg1) = V (Proc.devRef .tc main_arg1) := by
  after_results_simp <;> rfl
theorem w11_arg2 (V : Valuation τ sig (Elt F)) : after w11 V (Proc.devRef .tc main_arg2) = V (Proc.devRef .tc main_arg2) := by
  after_results_simp <;> rfl
theorem w11_arg3 (V : Valuation τ sig (Elt F)) : after w11 V (Proc.devRef .tc main_arg3) = V (Proc.devRef .tc main_arg3) := by
  after_results_simp <;> rfl

/-! ## The windows composed -/

theorem pre0 (V0 : Valuation τ sig (Elt F)) :
    after P0 V0 (Proc.devRef .tc main_v10) = pv10 V0 ∧ after P0 V0 (Proc.devRef .tc main_v11) = pv11
      ∧ after P0 V0 (Proc.devRef .tc main_arg0) = V0 (Proc.devRef .tc main_arg0) ∧ after P0 V0 (Proc.devRef .tc main_arg1) = V0 (Proc.devRef .tc main_arg1)
      ∧ after P0 V0 (Proc.devRef .tc main_arg2) = V0 (Proc.devRef .tc main_arg2) ∧ after P0 V0 (Proc.devRef .tc main_arg3) = V0 (Proc.devRef .tc main_arg3) :=
  ⟨w0_v10 V0, w0_v11 V0, w0_arg0 V0, w0_arg1 V0, w0_arg2 V0, w0_arg3 V0⟩

theorem pre1 (V0 : Valuation τ sig (Elt F)) :
    after P1 V0 (Proc.devRef .tc main_v10) = pv10 V0 ∧ after P1 V0 (Proc.devRef .tc main_v20) = pv20 V0
      ∧ after P1 V0 (Proc.devRef .tc main_arg0) = V0 (Proc.devRef .tc main_arg0) ∧ after P1 V0 (Proc.devRef .tc main_arg1) = V0 (Proc.devRef .tc main_arg1)
      ∧ after P1 V0 (Proc.devRef .tc main_arg2) = V0 (Proc.devRef .tc main_arg2) ∧ after P1 V0 (Proc.devRef .tc main_arg3) = V0 (Proc.devRef .tc main_arg3) := by
  obtain ⟨h10, hp, h0, h1, h2, h3⟩ := pre0 V0
  refine ⟨?_, ?_, ?_, ?_, ?_, ?_⟩
  · rw [after_append, w1_v10, h10]
  · show after (P0 ++ w1) V0 (Proc.devRef .tc main_v20) = lvlT0 (pv11) (pv10 V0)
    rw [after_append, w1_out, hp, h10]
  · rw [after_append, w1_arg0, h0]
  · rw [after_append, w1_arg1, h1]
  · rw [after_append, w1_arg2, h2]
  · rw [after_append, w1_arg3, h3]

theorem pre2 (V0 : Valuation τ sig (Elt F)) :
    after P2 V0 (Proc.devRef .tc main_v10) = pv10 V0 ∧ after P2 V0 (Proc.devRef .tc main_v29) = pv29 V0
      ∧ after P2 V0 (Proc.devRef .tc main_arg0) = V0 (Proc.devRef .tc main_arg0) ∧ after P2 V0 (Proc.devRef .tc main_arg1) = V0 (Proc.devRef .tc main_arg1)
      ∧ after P2 V0 (Proc.devRef .tc main_arg2) = V0 (Proc.devRef .tc main_arg2) ∧ after P2 V0 (Proc.devRef .tc main_arg3) = V0 (Proc.devRef .tc main_arg3) := by
  obtain ⟨h10, hp, h0, h1, h2, h3⟩ := pre1 V0
  refine ⟨?_, ?_, ?_, ?_, ?_, ?_⟩
  · rw [after_append, w2_v10, h10]
  · show after (P1 ++ w2) V0 (Proc.devRef .tc main_v29) = lvlT1 (pv20 V0) (pv10 V0)
    rw [after_append, w2_out, hp, h10]
  · rw [after_append, w2_arg0, h0]
  · rw [after_append, w2_arg1, h1]
  · rw [after_append, w2_arg2, h2]
  · rw [after_append, w2_arg3, h3]

theorem pre3 (V0 : Valuation τ sig (Elt F)) :
    after P3 V0 (Proc.devRef .tc main_v10) = pv10 V0 ∧ after P3 V0 (Proc.devRef .tc main_v38) = pv38 V0
      ∧ after P3 V0 (Proc.devRef .tc main_arg0) = V0 (Proc.devRef .tc main_arg0) ∧ after P3 V0 (Proc.devRef .tc main_arg1) = V0 (Proc.devRef .tc main_arg1)
      ∧ after P3 V0 (Proc.devRef .tc main_arg2) = V0 (Proc.devRef .tc main_arg2) ∧ after P3 V0 (Proc.devRef .tc main_arg3) = V0 (Proc.devRef .tc main_arg3) := by
  obtain ⟨h10, hp, h0, h1, h2, h3⟩ := pre2 V0
  refine ⟨?_, ?_, ?_, ?_, ?_, ?_⟩
  · rw [after_append, w3_v10, h10]
  · show after (P2 ++ w3) V0 (Proc.devRef .tc main_v38) = lvlT2 (pv29 V0) (pv10 V0)
    rw [after_append, w3_out, hp, h10]
  · rw [after_append, w3_arg0, h0]
  · rw [after_append, w3_arg1, h1]
  · rw [after_append, w3_arg2, h2]
  · rw [after_append, w3_arg3, h3]

theorem pre4 (V0 : Valuation τ sig (Elt F)) :
    after P4 V0 (Proc.devRef .tc main_v10) = pv10 V0 ∧ after P4 V0 (Proc.devRef .tc main_v47) = pv47 V0
      ∧ after P4 V0 (Proc.devRef .tc main_arg0) = V0 (Proc.devRef .tc main_arg0) ∧ after P4 V0 (Proc.devRef .tc main_arg1) = V0 (Proc.devRef .tc main_arg1)
      ∧ after P4 V0 (Proc.devRef .tc main_arg2) = V0 (Proc.devRef .tc main_arg2) ∧ after P4 V0 (Proc.devRef .tc main_arg3) = V0 (Proc.devRef .tc main_arg3) := by
  obtain ⟨h10, hp, h0, h1, h2, h3⟩ := pre3 V0
  refine ⟨?_, ?_, ?_, ?_, ?_, ?_⟩
  · rw [after_append, w4_v10, h10]
  · show after (P3 ++ w4) V0 (Proc.devRef .tc main_v47) = lvlT3 (pv38 V0) (pv10 V0)
    rw [after_append, w4_out, hp, h10]
  · rw [after_append, w4_arg0, h0]
  · rw [after_append, w4_arg1, h1]
  · rw [after_append, w4_arg2, h2]
  · rw [after_append, w4_arg3, h3]

theorem pre5 (V0 : Valuation τ sig (Elt F)) :
    after P5 V0 (Proc.devRef .tc main_v10) = pv10 V0 ∧ after P5 V0 (Proc.devRef .tc main_v56) = pv56 V0
      ∧ after P5 V0 (Proc.devRef .tc main_arg0) = V0 (Proc.devRef .tc main_arg0) ∧ after P5 V0 (Proc.devRef .tc main_arg1) = V0 (Proc.devRef .tc main_arg1)
      ∧ after P5 V0 (Proc.devRef .tc main_arg2) = V0 (Proc.devRef .tc main_arg2) ∧ after P5 V0 (Proc.devRef .tc main_arg3) = V0 (Proc.devRef .tc main_arg3) := by
  obtain ⟨h10, hp, h0, h1, h2, h3⟩ := pre4 V0
  refine ⟨?_, ?_, ?_, ?_, ?_, ?_⟩
  · rw [after_append, w5_v10, h10]
  · show after (P4 ++ w5) V0 (Proc.devRef .tc main_v56) = lvlT4 (pv47 V0) (pv10 V0)
    rw [after_append, w5_out, hp, h10]
  · rw [after_append, w5_arg0, h0]
  · rw [after_append, w5_arg1, h1]
  · rw [after_append, w5_arg2, h2]
  · rw [after_append, w5_arg3, h3]

theorem pre6 (V0 : Valuation τ sig (Elt F)) :
    after P6 V0 (Proc.devRef .tc main_v10) = pv10 V0 ∧ after P6 V0 (Proc.devRef .tc main_v65) = pv65 V0
      ∧ after P6 V0 (Proc.devRef .tc main_arg0) = V0 (Proc.devRef .tc main_arg0) ∧ after P6 V0 (Proc.devRef .tc main_arg1) = V0 (Proc.devRef .tc main_arg1)
      ∧ after P6 V0 (Proc.devRef .tc main_arg2) = V0 (Proc.devRef .tc main_arg2) ∧ after P6 V0 (Proc.devRef .tc main_arg3) = V0 (Proc.devRef .tc main_arg3) := by
  obtain ⟨h10, hp, h0, h1, h2, h3⟩ := pre5 V0
  refine ⟨?_, ?_, ?_, ?_, ?_, ?_⟩
  · rw [after_append, w6_v10, h10]
  · show after (P5 ++ w6) V0 (Proc.devRef .tc main_v65) = lvlT5 (pv56 V0) (pv10 V0)
    rw [after_append, w6_out, hp, h10]
  · rw [after_append, w6_arg0, h0]
  · rw [after_append, w6_arg1, h1]
  · rw [after_append, w6_arg2, h2]
  · rw [after_append, w6_arg3, h3]

theorem pre7 (V0 : Valuation τ sig (Elt F)) :
    after P7 V0 (Proc.devRef .tc main_v10) = pv10 V0 ∧ after P7 V0 (Proc.devRef .tc main_v74) = pv74 V0
      ∧ after P7 V0 (Proc.devRef .tc main_arg0) = V0 (Proc.devRef .tc main_arg0) ∧ after P7 V0 (Proc.devRef .tc main_arg1) = V0 (Proc.devRef .tc main_arg1)
      ∧ after P7 V0 (Proc.devRef .tc main_arg2) = V0 (Proc.devRef .tc main_arg2) ∧ after P7 V0 (Proc.devRef .tc main_arg3) = V0 (Proc.devRef .tc main_arg3) := by
  obtain ⟨h10, hp, h0, h1, h2, h3⟩ := pre6 V0
  refine ⟨?_, ?_, ?_, ?_, ?_, ?_⟩
  · rw [after_append, w7_v10, h10]
  · show after (P6 ++ w7) V0 (Proc.devRef .tc main_v74) = lvlT6 (pv65 V0) (pv10 V0)
    rw [after_append, w7_out, hp, h10]
  · rw [after_append, w7_arg0, h0]
  · rw [after_append, w7_arg1, h1]
  · rw [after_append, w7_arg2, h2]
  · rw [after_append, w7_arg3, h3]

theorem pre8 (V0 : Valuation τ sig (Elt F)) :
    after P8 V0 (Proc.devRef .tc main_v10) = pv10 V0 ∧ after P8 V0 (Proc.devRef .tc main_v83) = pv83 V0
      ∧ after P8 V0 (Proc.devRef .tc main_arg0) = V0 (Proc.devRef .tc main_arg0) ∧ after P8 V0 (Proc.devRef .tc main_arg1) = V0 (Proc.devRef .tc main_arg1)
      ∧ after P8 V0 (Proc.devRef .tc main_arg2) = V0 (Proc.devRef .tc main_arg2) ∧ after P8 V0 (Proc.devRef .tc main_arg3) = V0 (Proc.devRef .tc main_arg3) := by
  obtain ⟨h10, hp, h0, h1, h2, h3⟩ := pre7 V0
  refine ⟨?_, ?_, ?_, ?_, ?_, ?_⟩
  · rw [after_append, w8_v10, h10]
  · show after (P7 ++ w8) V0 (Proc.devRef .tc main_v83) = lvlT7 (pv74 V0) (pv10 V0)
    rw [after_append, w8_out, hp, h10]
  · rw [after_append, w8_arg0, h0]
  · rw [after_append, w8_arg1, h1]
  · rw [after_append, w8_arg2, h2]
  · rw [after_append, w8_arg3, h3]

theorem pre9 (V0 : Valuation τ sig (Elt F)) :
    after P9 V0 (Proc.devRef .tc main_v10) = pv10 V0 ∧ after P9 V0 (Proc.devRef .tc main_v92) = pv92 V0
      ∧ after P9 V0 (Proc.devRef .tc main_arg0) = V0 (Proc.devRef .tc main_arg0) ∧ after P9 V0 (Proc.devRef .tc main_arg1) = V0 (Proc.devRef .tc main_arg1)
      ∧ after P9 V0 (Proc.devRef .tc main_arg2) = V0 (Proc.devRef .tc main_arg2) ∧ after P9 V0 (Proc.devRef .tc main_arg3) = V0 (Proc.devRef .tc main_arg3) := by
  obtain ⟨h10, hp, h0, h1, h2, h3⟩ := pre8 V0
  refine ⟨?_, ?_, ?_, ?_, ?_, ?_⟩
  · rw [after_append, w9_v10, h10]
  · show after (P8 ++ w9) V0 (Proc.devRef .tc main_v92) = lvlT8 (pv83 V0) (pv10 V0)
    rw [after_append, w9_out, hp, h10]
  · rw [after_append, w9_arg0, h0]
  · rw [after_append, w9_arg1, h1]
  · rw [after_append, w9_arg2, h2]
  · rw [after_append, w9_arg3, h3]

theorem pre10 (V0 : Valuation τ sig (Elt F)) :
    after P10 V0 (Proc.devRef .tc main_v10) = pv10 V0 ∧ after P10 V0 (Proc.devRef .tc main_v101) = pv101 V0
      ∧ after P10 V0 (Proc.devRef .tc main_arg0) = V0 (Proc.devRef .tc main_arg0) ∧ after P10 V0 (Proc.devRef .tc main_arg1) = V0 (Proc.devRef .tc main_arg1)
      ∧ after P10 V0 (Proc.devRef .tc main_arg2) = V0 (Proc.devRef .tc main_arg2) ∧ after P10 V0 (Proc.devRef .tc main_arg3) = V0 (Proc.devRef .tc main_arg3) := by
  obtain ⟨h10, hp, h0, h1, h2, h3⟩ := pre9 V0
  refine ⟨?_, ?_, ?_, ?_, ?_, ?_⟩
  · rw [after_append, w10_v10, h10]
  · show after (P9 ++ w10) V0 (Proc.devRef .tc main_v101) = lvlT9 (pv92 V0) (pv10 V0)
    rw [after_append, w10_out, hp, h10]
  · rw [after_append, w10_arg0, h0]
  · rw [after_append, w10_arg1, h1]
  · rw [after_append, w10_arg2, h2]
  · rw [after_append, w10_arg3, h3]

/-- The whole line: the result buffer is the named term of the arguments, and the arguments are unchanged. -/
theorem after_ops (V0 : Valuation τ sig (Elt F)) :
    after ops V0 (Proc.devRef .tc main_v102) = refOutH V0
      ∧ after ops V0 (Proc.devRef .tc main_arg0) = V0 (Proc.devRef .tc main_arg0) ∧ after ops V0 (Proc.devRef .tc main_arg1) = V0 (Proc.devRef .tc main_arg1)
      ∧ after ops V0 (Proc.devRef .tc main_arg2) = V0 (Proc.devRef .tc main_arg2) ∧ after ops V0 (Proc.devRef .tc main_arg3) = V0 (Proc.devRef .tc main_arg3) := by
  obtain ⟨_, hp, h0, h1, h2, h3⟩ := pre10 V0
  rw [ops_eq]
  refine ⟨?_, ?_, ?_, ?_, ?_⟩
  · show after (P10 ++ w11) V0 (Proc.devRef .tc main_v102) = Host.dotGeneral dot_S8192x1024_S1024x24_S8192x24_1_0_0_1_n_n none (pv101 V0) (V0 (Proc.devRef .tc main_arg3))
    rw [after_append, w11_out, hp, h3]
  · rw [after_append, w11_arg0, h0]
  · rw [after_append, w11_arg1, h1]
  · rw [after_append, w11_arg2, h2]
  · rw [after_append, w11_arg3, h3]

/-- On every device, for any float values, from any memory with zero counters: every weakly fair execution of the
    program terminates with the result buffer at the named term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) = refOutH (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v102).trans (after_ops (launchContents m c)).1,
       (h c main_arg0).trans ((after_ops (launchContents m c)).2.1.trans rfl),
       (h c main_arg1).trans ((after_ops (launchContents m c)).2.2.1.trans rfl),
       (h c main_arg2).trans ((after_ops (launchContents m c)).2.2.2.1.trans rfl),
       (h c main_arg3).trans ((after_ops (launchContents m c)).2.2.2.2.trans rfl)⟩)
    (run_seq scopedRefs_eq scopedSems_eq defs main (fun _ => ops) main_eq (fun _ => ops_sub) m ρ)

end Cert.RefSide.Run

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.RefLevel.lean ====
import proofs.«141256_j2430951489980_2_alg».proof.Proof.Spec
import proofs.«141256_j2430951489980_2_alg».proof.Proof.LibHostBroadcast
import proofs.«141256_j2430951489980_2_alg».proof.Proof.LibSpellings

/-
  One level of the reference's tree walk, at natural-number coordinates.

  The reference keeps the reach probabilities of a level as an [R, Wd] array pp, reads the level's node weights p as a
  slice of the weight matrix, and forms stack([pp * (1 - p), pp * p], axis = -1).reshape(R, 2 * Wd): entry (r, j) of the
  result is pp(r, j/2) * (1 - p(r, j/2)) for even j and pp(r, j/2) * p(r, j/2) for odd j — the children of a node side
  by side, which is the interleaved layout of Tree.lean. Stated over variable extents; the program's ten levels are
  instances.
-/

noncomputable section

namespace Cert.RefSide

open Idealize.ShloMosaic Idealize.ShloMosaic.ValueIdx Cert.SoftTree Cert.LibNat2

/-- Two [R, Wd] arrays stacked along a new last axis and flattened to [R, 2 * Wd]: position (r, j) reads the first at
    (r, j / 2) when j is even and the second at (r, j / 2) when j is odd. -/
theorem stack_apply {α : Type} {R Wd Wd2 : ℕ} (hW : Wd2 = 2 * Wd)
    (A B : (⟨2, ![R, Wd]⟩ : Shape).Idx → α)
    (hb : (⟨2, ![R, Wd]⟩ : Shape).BroadcastsInDim ⟨3, ![R, Wd, 1]⟩ (![0, 1] : Fin 2 → Fin 3))
    (hc : Shape.Concatenates [⟨3, ![R, Wd, 1]⟩, ⟨3, ![R, Wd, 1]⟩] ⟨3, ![R, Wd, 2]⟩ 2)
    (hs : (⟨3, ![R, Wd, 2]⟩ : Shape).ShapeCasts ⟨2, ![R, Wd2]⟩)
    (r : Fin R) (j : Fin Wd2) (hj : j.val / 2 < Wd) :
    shapeCast ⟨2, ![R, Wd2]⟩ (concatenate ⟨3, ![R, Wd, 2]⟩ 2
        [⟨⟨3, ![R, Wd, 1]⟩, broadcastInDim ⟨3, ![R, Wd, 1]⟩ ![0, 1] hb A⟩,
         ⟨⟨3, ![R, Wd, 1]⟩, broadcastInDim ⟨3, ![R, Wd, 1]⟩ ![0, 1] hb B⟩] hc) hs (ix2 r j)
      = if j.val % 2 = 0 then A (ix2 r ⟨j.val / 2, hj⟩) else B (ix2 r ⟨j.val / 2, hj⟩) := by
  have hm : j.val % 2 < 2 := Nat.mod_lt _ (by norm_num)
  refine (shapeCast_apply _ hs (ix2 r j) (ix3 r ⟨j.val / 2, hj⟩ ⟨j.val % 2, hm⟩) ?_).trans ?_
  · rw [Shape.rowMajor_val_three, Shape.rowMajor_val_two]
    show (r.val * Wd + j.val / 2) * 2 + j.val % 2 = r.val * Wd2 + j.val
    subst hW
    have := Nat.div_add_mod j.val 2
    ring_nf; ring_nf at this; omega
  by_cases h0 : j.val % 2 = 0
  · rw [if_pos h0]
    refine (concatenate_pair_apply_left (t := ⟨3, ![R, Wd, 2]⟩) (s₁ := ⟨3, ![R, Wd, 1]⟩) (s₂ := ⟨3, ![R, Wd, 1]⟩) (2 : Fin 3) _ _ hc _ rfl
      (ix3 r ⟨j.val / 2, hj⟩ (0 : Fin 1)) (fun b => ?_)).trans ?_
    · match b with
      | ⟨0, _⟩ => rfl
      | ⟨1, _⟩ => rfl
      | ⟨2, _⟩ => show (0 : ℕ) = j.val % 2; omega
    refine broadcastInDim_apply (s := ⟨2, ![R, Wd]⟩) (t := ⟨3, ![R, Wd, 1]⟩) (![0, 1] : Fin 2 → Fin 3) hb A _ (ix2 r ⟨j.val / 2, hj⟩) fun ax => ?_
    match ax with
    | ⟨0, _⟩ =>
      show r.val = if R = 1 then 0 else r.val
      split
      · have := r.isLt; omega
      · rfl
    | ⟨1, _⟩ =>
      show j.val / 2 = if Wd = 1 then 0 else j.val / 2
      split
      · omega
      · rfl
  · rw [if_neg h0]
    refine (concatenate_pair_apply_right (t := ⟨3, ![R, Wd, 2]⟩) (s₁ := ⟨3, ![R, Wd, 1]⟩) (s₂ := ⟨3, ![R, Wd, 1]⟩) (2 : Fin 3) _ _ hc _ rfl rfl
      (ix3 r ⟨j.val / 2, hj⟩ (0 : Fin 1)) (fun b hb' => ?_) ?_).trans ?_
    · match b with
      | ⟨0, _⟩ => rfl
      | ⟨1, _⟩ => rfl
      | ⟨2, _⟩ => exact absurd rfl hb'
    · show (0 : ℕ) + 1 = j.val % 2; omega
    refine broadcastInDim_apply (s := ⟨2, ![R, Wd]⟩) (t := ⟨3, ![R, Wd, 1]⟩) (![0, 1] : Fin 2 → Fin 3) hb B _ (ix2 r ⟨j.val / 2, hj⟩) fun ax => ?_
    match ax with
    | ⟨0, _⟩ =>
      show r.val = if R = 1 then 0 else r.val
      split
      · have := r.isLt; omega
      · rfl
    | ⟨1, _⟩ =>
      show j.val / 2 = if Wd = 1 then 0 else j.val / 2
      split
      · omega
      · rfl

/-- One level: the two products stacked and flattened, read at natural-number coordinates. -/
theorem level_nat2 {R Wd Wd2 : ℕ} (hW : Wd2 = 2 * Wd) (prev sl : FVec Ideal ⟨2, ![R, Wd]⟩ .f32)
    (hb0 : (⟨0, ![]⟩ : Shape).BroadcastsInDim ⟨2, ![R, Wd]⟩ (![] : Fin 0 → Fin 2))
    (hb : (⟨2, ![R, Wd]⟩ : Shape).BroadcastsInDim ⟨3, ![R, Wd, 1]⟩ (![0, 1] : Fin 2 → Fin 3))
    (hc : Shape.Concatenates [⟨3, ![R, Wd, 1]⟩, ⟨3, ![R, Wd, 1]⟩] ⟨3, ![R, Wd, 2]⟩ 2)
    (hs : (⟨3, ![R, Wd, 2]⟩ : Shape).ShapeCasts ⟨2, ![R, Wd2]⟩)
    (r j : ℕ) (hr : r < R) (hj : j < Wd2) :
    nat2 (shapeCast ⟨2, ![R, Wd2]⟩ (concatenate ⟨3, ![R, Wd, 2]⟩ 2
        [⟨⟨3, ![R, Wd, 1]⟩, broadcastInDim ⟨3, ![R, Wd, 1]⟩ ![0, 1] hb
            (mulf prev (subf (broadcastInDim ⟨2, ![R, Wd]⟩ ![] hb0 (constant (F := Ideal) ⟨0, ![]⟩ .f32 0x3F800000#32)) sl))⟩,
         ⟨⟨3, ![R, Wd, 1]⟩, broadcastInDim ⟨3, ![R, Wd, 1]⟩ ![0, 1] hb (mulf prev sl)⟩] hc) hs) r j
      = if j % 2 = 0 then nat2 prev r (j / 2) * (one - nat2 sl r (j / 2)) else nat2 prev r (j / 2) * nat2 sl r (j / 2) := by
  have hj2 : j / 2 < Wd := by omega
  rw [nat2_of_lt _ _ _ hr hj, nat2_of_lt prev _ _ hr hj2, nat2_of_lt sl _ _ hr hj2]
  refine (stack_apply hW _ _ hb hc hs ⟨r, hr⟩ ⟨j, hj⟩ hj2).trans ?_
  rfl

/-- A level of the walk continues the interleaved layout: if the array pp holds level k's reach probabilities of row r
    and the level's node weights are the matrix v's columns 2^k - 1 + i, the stacked products hold level k + 1's. -/
theorem level_heap {R N Wd Wd2 : ℕ} (k o : ℕ) (hWd : Wd = 2 ^ k) (ho : o = 2 ^ k - 1) (hW : Wd2 = 2 * Wd) (hN : o + Wd ≤ N)
    (v : FVec Ideal ⟨2, ![R, N]⟩ .f32) (prev : FVec Ideal ⟨2, ![R, Wd]⟩ .f32)
    (hsl : (⟨2, ![R, N]⟩ : Shape).Slices ![0, o] ⟨2, ![R, Wd]⟩)
    (hb0 : (⟨0, ![]⟩ : Shape).BroadcastsInDim ⟨2, ![R, Wd]⟩ (![] : Fin 0 → Fin 2))
    (hb : (⟨2, ![R, Wd]⟩ : Shape).BroadcastsInDim ⟨3, ![R, Wd, 1]⟩ (![0, 1] : Fin 2 → Fin 3))
    (hc : Shape.Concatenates [⟨3, ![R, Wd, 1]⟩, ⟨3, ![R, Wd, 1]⟩] ⟨3, ![R, Wd, 2]⟩ 2)
    (hs : (⟨3, ![R, Wd, 2]⟩ : Shape).ShapeCasts ⟨2, ![R, Wd2]⟩)
    (r : ℕ) (hr : r < R)
    (hprev : ∀ j, j < Wd → nat2 prev r j = heap one (fun n => nat2 v r n) k j) (j : ℕ) (hj : j < Wd2) :
    nat2 (shapeCast ⟨2, ![R, Wd2]⟩ (concatenate ⟨3, ![R, Wd, 2]⟩ 2
        [⟨⟨3, ![R, Wd, 1]⟩, broadcastInDim ⟨3, ![R, Wd, 1]⟩ ![0, 1] hb
            (mulf prev (subf (broadcastInDim ⟨2, ![R, Wd]⟩ ![] hb0 (constant (F := Ideal) ⟨0, ![]⟩ .f32 0x3F800000#32))
              (extractStridedSlice ⟨2, ![R, Wd]⟩ ![0, o] v hsl)))⟩,
         ⟨⟨3, ![R, Wd, 1]⟩, broadcastInDim ⟨3, ![R, Wd, 1]⟩ ![0, 1] hb
            (mulf prev (extractStridedSlice ⟨2, ![R, Wd]⟩ ![0, o] v hsl))⟩] hc) hs) r j
      = heap one (fun n => nat2 v r n) (k + 1) j := by
  have hj2 : j / 2 < Wd := by omega
  rw [level_nat2 hW prev _ hb0 hb hc hs r j hr hj, heap_succ, hprev _ hj2,
    nat2_slice 0 o v hsl (by omega) hN r (j / 2) hr hj2, Nat.zero_add, ho]

/-- The node weights: the host's quotient 1 / (1 + exp (-z)) of the affine map z = xs · Wᵀ + b, read at
    natural-number coordinates, is the logistic function of the node's affine map of the row. -/
theorem prob_nat2 {B D Nn : ℕ} (xs : FVec Ideal ⟨2, ![B, D]⟩ .f32) (W : FVec Ideal ⟨2, ![Nn, D]⟩ .f32)
    (b : FVec Ideal ⟨1, ![Nn]⟩ .f32)
    (d : DotDims ⟨2, ![B, D]⟩ ⟨2, ![D, Nn]⟩ ⟨2, ![B, Nn]⟩) (hd : d = DotDims.plain B D Nn)
    (ht : (⟨2, ![Nn, D]⟩ : Shape).Transposes [1, 0] ⟨2, ![D, Nn]⟩)
    (hb0 : (⟨0, ![]⟩ : Shape).BroadcastsInDim ⟨2, ![B, Nn]⟩ (![] : Fin 0 → Fin 2))
    (hb1 : (⟨1, ![Nn]⟩ : Shape).BroadcastsInDim ⟨2, ![1, Nn]⟩ (![1] : Fin 1 → Fin 2))
    (hb2 : (⟨2, ![1, Nn]⟩ : Shape).BroadcastsInDim ⟨2, ![B, Nn]⟩ (![0, 1] : Fin 2 → Fin 2))
    (r n : ℕ) (hr : r < B) (hn : n < Nn) :
    nat2 (Host.divf (broadcastInDim ⟨2, ![B, Nn]⟩ ![] hb0 (constant (F := Ideal) ⟨0, ![]⟩ .f32 0x3F800000#32))
      (addf (broadcastInDim ⟨2, ![B, Nn]⟩ ![] hb0 (constant (F := Ideal) ⟨0, ![]⟩ .f32 0x3F800000#32))
        (Host.exp (Host.negf (addf (Host.dotGeneral d none xs (transpose ⟨2, ![D, Nn]⟩ [1, 0] W ht))
          (broadcastInDim ⟨2, ![B, Nn]⟩ ![0, 1] hb2 (broadcastInDim ⟨2, ![1, Nn]⟩ ![1] hb1 b))))))) r n
      = nodeProb xs W b r n := by
  subst hd
  rw [nat2_of_lt _ _ _ hr hn]
  refine (Cert.LibSpellings.hostQuotient_eq_logistic _).trans ?_
  unfold nodeProb
  refine congrArg Ideal.logistic ?_
  refine congr (congrArg HAdd.hAdd ?_) ?_
  · refine (Cert.LibPlainDot.dotGeneral_plain B D Nn none xs _ _).trans ?_
    refine Finset.sum_congr rfl fun k _ => ?_
    rw [nat2_of_lt xs r k.val hr k.isLt, nat2_of_lt W n k.val hn k.isLt]
    refine congrArg (xs (ix2 ⟨r, hr⟩ k) * ·) ?_
    exact transpose_apply [1, 0] W ht _ (ix2 ⟨n, hn⟩ k) (fun a => by match a with | ⟨0, _⟩ => rfl | ⟨1, _⟩ => rfl)
  · rw [nat1_of_lt b n hn]
    exact Cert.LibHostBroadcast.vec_along_cols b hb1 hb2 ⟨r, hr⟩ ⟨n, hn⟩

end Cert.RefSide

end
-- ==== Proof.RefValueH.lean ====
import proofs.«141256_j2430951489980_2_alg».proof.Proof.RefRun
import proofs.«141256_j2430951489980_2_alg».proof.Proof.RefLevel

/-
  The reference program's result, index by index, is the common specification of Spec.lean.

  The run names the program's intermediate arrays as terms of the arguments. The node weights are the logistic
  function of the rows' affine maps (prob_nat2); each of the ten levels continues the interleaved layout of the reach
  probabilities (level_heap), starting from the all-ones column; the last array holds the 1024 leaves' reach
  probabilities, and the final product with the leaf table is the sum over the leaves.
-/

noncomputable section

namespace Cert.RefSide

open Idealize.ShloMosaic Idealize.ShloMosaic.ValueIdx Idealize.ShloMosaic.TcCoe Idealize.SL.Sem Idealize.ShloMosaic.StableHlo
open Cert.SoftTree Cert.LibNat2 Cert.ReferenceIdeal Cert.ReferenceIdeal.Gen Cert.RefSide.Run

variable (V0 : Valuation τ sig (Elt Ideal))

/-- The weight matrix of the run is the node weights of the specification. -/
theorem v10_eqH (r n : ℕ) (hr : r < 8192) (hn : n < 1023) :
    nat2 (pv10 V0) r n
      = nodeProb (V0 (Proc.devRef .tc main_arg0)) (V0 (Proc.devRef .tc main_arg1)) (V0 (Proc.devRef .tc main_arg2)) r n := by
  unfold pv10
  exact prob_nat2 _ _ _ _ rfl _ _ _ _ r n hr hn

/-- After level 0 the array holds row r's reach probabilities of level 1, the children side by side. -/
theorem lvl1H (r : ℕ) (hr : r < 8192) (j : ℕ) (hj : j < 2) :
    nat2 (pv20 V0) r j = heap one (fun n => nat2 (pv10 V0) r n) 1 j := by
  unfold pv20 lvlT0
  exact level_heap 0 0 (by norm_num) (by norm_num) (by norm_num) (by norm_num) (pv10 V0) (pv11 (F := Ideal)) _ _ _ _ _ r hr
    (fun j hj => by rw [nat2_of_lt _ _ _ hr hj]; rfl) j hj

/-- After level 1 the array holds row r's reach probabilities of level 2, the children side by side. -/
theorem lvl2H (r : ℕ) (hr : r < 8192) (j : ℕ) (hj : j < 4) :
    nat2 (pv29 V0) r j = heap one (fun n => nat2 (pv10 V0) r n) 2 j := by
  unfold pv29 lvlT1
  exact level_heap 1 1 (by norm_num) (by norm_num) (by norm_num) (by norm_num) (pv10 V0) (pv20 V0) _ _ _ _ _ r hr
    (lvl1H V0 r hr) j hj

/-- After level 2 the array holds row r's reach probabilities of level 3, the children side by side. -/
theorem lvl3H (r : ℕ) (hr : r < 8192) (j : ℕ) (hj : j < 8) :
    nat2 (pv38 V0) r j = heap one (fun n => nat2 (pv10 V0) r n) 3 j := by
  unfold pv38 lvlT2
  exact level_heap 2 3 (by norm_num) (by norm_num) (by norm_num) (by norm_num) (pv10 V0) (pv29 V0) _ _ _ _ _ r hr
    (lvl2H V0 r hr) j hj

/-- After level 3 the array holds row r's reach probabilities of level 4, the children side by side. -/
theorem lvl4H (r : ℕ) (hr : r < 8192) (j : ℕ) (hj : j < 16) :
    nat2 (pv47 V0) r j = heap one (fun n => nat2 (pv10 V0) r n) 4 j := by
  unfold pv47 lvlT3
  exact level_heap 3 7 (by norm_num) (by norm_num) (by norm_num) (by norm_num) (pv10 V0) (pv38 V0) _ _ _ _ _ r hr
    (lvl3H V0 r hr) j hj

/-- After level 4 the array holds row r's reach probabilities of level 5, the children side by side. -/
theorem lvl5H (r : ℕ) (hr : r < 8192) (j : ℕ) (hj : j < 32) :
    nat2 (pv56 V0) r j = heap one (fun n => nat2 (pv10 V0) r n) 5 j := by
  unfold pv56 lvlT4
  exact level_heap 4 15 (by norm_num) (by norm_num) (by norm_num) (by norm_num) (pv10 V0) (pv47 V0) _ _ _ _ _ r hr
    (lvl4H V0 r hr) j hj

/-- After level 5 the array holds row r's reach probabilities of level 6, the children side by side. -/
theorem lvl6H (r : ℕ) (hr : r < 8192) (j : ℕ) (hj : j < 64) :
    nat2 (pv65 V0) r j = heap one (fun n => nat2 (pv10 V0) r n) 6 j := by
  unfold pv65 lvlT5
  exact level_heap 5 31 (by norm_num) (by norm_num) (by norm_num) (by norm_num) (pv10 V0) (pv56 V0) _ _ _ _ _ r hr
    (lvl5H V0 r hr) j hj

/-- After level 6 the array holds row r's reach probabilities of level 7, the children side by side. -/
theorem lvl7H (r : ℕ) (hr : r < 8192) (j : ℕ) (hj : j < 128) :
    nat2 (pv74 V0) r j = heap one (fun n => nat2 (pv10 V0) r n) 7 j := by
  unfold pv74 lvlT6
  exact level_heap 6 63 (by norm_num) (by norm_num) (by norm_num) (by norm_num) (pv10 V0) (pv65 V0) _ _ _ _ _ r hr
    (lvl6H V0 r hr) j hj

/-- After level 7 the array holds row r's reach probabilities of level 8, the children side by side. -/
theorem lvl8H (r : ℕ) (hr : r < 8192) (j : ℕ) (hj : j < 256) :
    nat2 (pv83 V0) r j = heap one (fun n => nat2 (pv10 V0) r n) 8 j := by
  unfold pv83 lvlT7
  exact level_heap 7 127 (by norm_num) (by norm_num) (by norm_num) (by norm_num) (pv10 V0) (pv74 V0) _ _ _ _ _ r hr
    (lvl7H V0 r hr) j hj

/-- After level 8 the array holds row r's reach probabilities of level 9, the children side by side. -/
theorem lvl9H (r : ℕ) (hr : r < 8192) (j : ℕ) (hj : j < 512) :
    nat2 (pv92 V0) r j = heap one (fun n => nat2 (pv10 V0) r n) 9 j := by
  unfold pv92 lvlT8
  exact level_heap 8 255 (by norm_num) (by norm_num) (by norm_num) (by norm_num) (pv10 V0) (pv83 V0) _ _ _ _ _ r hr
    (lvl8H V0 r hr) j hj

/-- After level 9 the array holds row r's reach probabilities of level 10, the children side by side. -/
theorem lvl10H (r : ℕ) (hr : r < 8192) (j : ℕ) (hj : j < 1024) :
    nat2 (pv101 V0) r j = heap one (fun n => nat2 (pv10 V0) r n) 10 j := by
  unfold pv101 lvlT9
  exact level_heap 9 511 (by norm_num) (by norm_num) (by norm_num) (by norm_num) (pv10 V0) (pv92 V0) _ _ _ _ _ r hr
    (lvl9H V0 r hr) j hj

/-- The reference's result at (r, j) is the specification's. -/
theorem ref_valueH (r : Fin 8192) (j : Fin 24) :
    refOutH V0 (ix2 r j)
      = treeOut (V0 (Proc.devRef .tc main_arg0)) (V0 (Proc.devRef .tc main_arg1)) (V0 (Proc.devRef .tc main_arg2))
          (V0 (Proc.devRef .tc main_arg3)) r.val j.val := by
  unfold refOutH treeOut
  refine (Cert.LibPlainDot.dotGeneral_plain 8192 1024 24 none _ _ _).trans ?_
  refine Finset.sum_congr rfl fun l _ => ?_
  rw [nat2_eq (V0 (Proc.devRef .tc main_arg3)) l j]
  refine congrArg (· * (V0 (Proc.devRef .tc main_arg3)) (ix2 l j)) ?_
  have h10 := lvl10H V0 r.val r.isLt l.val l.isLt
  rw [nat2_of_lt _ _ _ r.isLt l.isLt] at h10
  refine h10.trans ?_
  exact heap_congr one _ _ 10 (fun n hn => v10_eqH V0 r.val n r.isLt (by omega)) l.val l.isLt

end Cert.RefSide

end
-- ==== Proof.lean ====
/-
  A soft decision tree of depth 10, fused into one kernel, against its plain reference.

  Both programs send each of the 8192 rows of xs through 1023 affine maps (one per internal node, numbered level by
  level), take the logistic function of each, and multiply these turn weights along every root-to-leaf path: the
  probability of reaching each of the 1024 leaves.  The result row is the leaf table phi averaged with these
  probabilities.  The reference lays a level's nodes out with the two children of a node side by side; the kernel lays
  each level out as all left children, then all right children, which is the first layout with the bits of the
  position reversed — and it compensates by reordering W, b and phi beforehand with two constant tables, and by padding
  W, b and phi with zeros that no result column reads.  On the extended reals the two results are the same sums of the
  same products, the leaves listed in another order (Tree.lean); no finiteness is needed, and the ideal program is the
  kernel's own text, so nothing is owed for the idealization.
  The two kernel programs' frames are their generated frame modules; the reference's frame is its run (RefRun.lean,
  taken level by level) with the result dropped.
-/
import proofs.«141256_j2430951489980_2_alg».proof.Defs
import proofs.«141256_j2430951489980_2_alg».proof.Proof.Gen.Kernel
import proofs.«141256_j2430951489980_2_alg».proof.Proof.Gen.Kernel.Skeleton
import proofs.«141256_j2430951489980_2_alg».proof.Proof.Gen.Kernel.Launch
import proofs.«141256_j2430951489980_2_alg».proof.Proof.Gen.Kernel.Points
import proofs.«141256_j2430951489980_2_alg».proof.Proof.Gen.Kernel.Frame
import proofs.«141256_j2430951489980_2_alg».proof.Proof.Gen.KernelIdeal
import proofs.«141256_j2430951489980_2_alg».proof.Proof.Gen.KernelIdeal.Skeleton
import proofs.«141256_j2430951489980_2_alg».proof.Proof.Gen.KernelIdeal.Launch
import proofs.«141256_j2430951489980_2_alg».proof.Proof.Gen.KernelIdeal.Points
import proofs.«141256_j2430951489980_2_alg».proof.Proof.Gen.KernelIdeal.Frame
import proofs.«141256_j2430951489980_2_alg».proof.Proof.Gen.ReferenceIdeal
import proofs.«141256_j2430951489980_2_alg».proof.Proof.Gen.Pre_finite_inputs
import proofs.«141256_j2430951489980_2_alg».proof.Proof.KernelRun
import proofs.«141256_j2430951489980_2_alg».proof.Proof.RefValueH
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefSide.Run.run (F := Ideal) m ρ)

/-- The specification read at equal arrays. -/
theorem treeOut_congr {B D Nn C : ℕ} {xs xs' : (⟨2, ![B, D]⟩ : Shape).Idx → EReal} {W W' : (⟨2, ![Nn, D]⟩ : Shape).Idx → EReal}
    {b b' : (⟨1, ![Nn]⟩ : Shape).Idx → EReal} {phi phi' : (⟨2, ![1024, C]⟩ : Shape).Idx → EReal}
    (h0 : xs = xs') (h1 : W = W') (h2 : b = b') (h3 : phi = phi') (r j : ℕ) :
    Cert.SoftTree.treeOut xs W b phi r j = Cert.SoftTree.treeOut xs' W' b' phi' r j := by
  subst h0 h1 h2 h3; rfl

/-- From memories that agree on the four arguments both programs end with the specification of those arguments in
    their result buffers: the kernel program by its run read back (KernelRun.lean), the reference by its run's term
    read at every index (RefRun.lean, RefValueH.lean). -/
theorem algebraic : Cert.algebraic_KernelIdeal_ReferenceIdeal := by
  intro m ρ m' ρ' _ hagree
  refine ⟨fun c => Cert.KernelIdeal.Region.result m c, Cert.KernelIdeal.Region.run m ρ, ?_⟩
  refine (θ_run Cert.ReferenceIdeal.defs _ _).mono (fun _ h c => ⟨(h c).1.trans ?_, (h c).2⟩)
    (Cert.RefSide.Run.run (F := Ideal) m' ρ')
  refine funext fun (i : Cert.ReferenceIdeal.S8192x24.Idx) => ?_
  refine ((congrArg _ (eq_ix2 i)).trans (Cert.RefSide.ref_valueH (StableHlo.launchContents m' c) (i 0) (i 1))).trans ?_
  exact treeOut_congr (B := 8192) (D := 2048) (Nn := 1023) (C := 24)
    (hagree c).1 (hagree c).2.1 (hagree c).2.2.1 (hagree c).2.2.2 (i 0).val (i 1).val

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
